-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S512x256 : Shape := ⟨2, ![512, 256]⟩
abbrev S256 : Shape := ⟨1, ![256]⟩
abbrev S256x1 : Shape := ⟨2, ![256, 1]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  main_v18

def fn {F : FTy → Type} [FloatOps F] (main_arg0 : FVec F S64x2048x512 .f32) (main_arg1 : FVec F S512x256 .f32) (main_arg2 : FVec F S256 .f32) (main_arg3 : FVec F S256x1 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_v13 main_v16
-- ==== Kernel.lean ====
abbrev S64x2048x512 : Shape := ⟨3, ![64, 2048, 512]⟩
abbrev S512x256 : Shape := ⟨2, ![512, 256]⟩
abbrev S256 : Shape := ⟨1, ![256]⟩
abbrev S256x1 : Shape := ⟨2, ![256, 1]⟩
abbrev S1x256 : Shape := ⟨2, ![1, 256]⟩
abbrev S64x2048 : Shape := ⟨2, ![64, 2048]⟩
abbrev S64x512 : Shape := ⟨2, ![64, 512]⟩
abbrev S8x512x512 : Shape := ⟨3, ![8, 512, 512]⟩
abbrev S8x512 : Shape := ⟨2, ![8, 512]⟩
abbrev S8x1 : Shape := ⟨2, ![8, 1]⟩
abbrev S4096x512 : Shape := ⟨2, ![4096, 512]⟩
abbrev S4096x256 : Shape := ⟨2, ![4096, 256]⟩
abbrev S4096 : Shape := ⟨1, ![4096]⟩
abbrev S4096x1 : Shape := ⟨2, ![4096, 1]⟩
abbrev S8 : Shape := ⟨1, ![8]⟩
abbrev S8x512x1 : Shape := ⟨3, ![8, 512, 1]⟩
abbrev S64 : Shape := ⟨1, ![64]⟩
abbrev S64x1 : Shape := ⟨2, ![64, 1]⟩
abbrev S64x2048x1 : Shape := ⟨3, ![64, 2048, 1]⟩

abbrev nBuf : Space → Nat
  | .hbm => 9
  | .vmem => 14
  | .smem => 0
  | _ => 0

abbrev bufTy : (tb : Table) → Fin (tcTables nBuf tb) → BufTy
  | .hbm, ⟨0, _⟩ => ⟨S64x2048x512, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S1x256, .f32⟩
  | .hbm, ⟨5, _⟩ => ⟨S64x2048, .f32⟩
  | .hbm, ⟨6, _⟩ => ⟨S64x512, .f32⟩
  | .hbm, ⟨7, _⟩ => ⟨S64x2048, .f32⟩
  | .hbm, ⟨8, _⟩ => ⟨S64x2048x1, .f32⟩
  | .local _ .vmem, ⟨0, _⟩ => ⟨S8x512x512, .f32⟩
  | .local _ .vmem, ⟨1, _⟩ => ⟨S8x512x512, .f32⟩
  | .local _ .vmem, ⟨2, _⟩ => ⟨S512x256, .f32⟩
  | .local _ .vmem, ⟨3, _⟩ => ⟨S256, .f32⟩
  | .local _ .vmem, ⟨4, _⟩ => ⟨S1x256, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x1, .f32⟩
  | .local _ .vmem, ⟨10, _⟩ => ⟨S8x1, .f32⟩
  | .local _ .vmem, ⟨11, _⟩ => ⟨S8x512, .f32⟩
  | .local _ .vmem, ⟨12, _⟩ => ⟨S64x2048, .f32⟩
  | .local _ .vmem, ⟨13, _⟩ => ⟨S64x2048, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc1_stg0_0 : Ref sig .tc := ⟨.vmem, 12, rfl⟩
abbrev cc1_stg1_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem1_0 : DmaSem sig := 10

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_28 : BitVec 32 := 0#32
  let v56 : BitVec 1 := Scalar.cmpi .ne v55 c0_i32_28
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  transposes_S256x1_S1x256_1_0 : S256x1.Transposes [1, 0] S1x256
  inb_S8x512x512_S8x512x512_0_0_0 : ∀ a, (![0, 0, 0] : Fin 3 → Nat) a + S8x512x512.size a ≤ S8x512x512.size a
  h_S8x512x512 : 0 < S8x512x512.numel
  shapeCasts_S8x512x512_S4096x512 : S8x512x512.ShapeCasts S4096x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S4096x256_S4096 : S4096x256.Reduces [1] S4096
  shapeCasts_S4096_S4096x1 : S4096.ShapeCasts S4096x1
  shapeCasts_S4096x1_S8x512 : S4096x1.ShapeCasts S8x512
  inb_S8x512_S8x512_0_0 : ∀ a, (![0, 0] : Fin 2 → Nat) a + S8x512.size a ≤ S8x512.size a
  h_S8x512 : 0 < S8x512.numel
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x512_S8x512 : S8x512.ShapeCasts S8x512
  reduces_S8x512_S8 : S8x512.Reduces [1] S8
  shapeCasts_S8_S8x1 : S8.ShapeCasts S8x1
  broadcasts_S8x1_S8x512 : S8x1.Broadcasts S8x512
  shapeCasts_S8x512_S8x512x1 : S8x512.ShapeCasts S8x512x1
  broadcasts_S8x512x1_S8x512x512 : S8x512x1.Broadcasts S8x512x512
  reduces_S8x512x512_S8x512 : S8x512x512.Reduces [1] S8x512
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  reduces_S64x2048_S64 : S64x2048.Reduces [1] S64
  shapeCasts_S64_S64x1 : S64.ShapeCasts S64x1
  broadcasts_S64x1_S64x2048 : S64x1.Broadcasts S64x2048
  shapeCasts_S64x2048_S64x2048x1 : S64x2048.ShapeCasts S64x2048x1
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x2048x512.size a
  hwx0_0 : ∀ i : grid0.Coords, EltTy.bits .f32 = 32 ∨ (Rect.block (s := S64x2048x512) S8x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S64x2048.size a
  hwx0_4 : ∀ i : grid0.Coords, EltTy.bits .f32 = 32 ∨ (Rect.block (s := S64x2048) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512.size a ≤ S64x512.size a
  hwx0_5 : ∀ i : grid0.Coords, EltTy.bits .f32 = 32 ∨ (Rect.block (s := S64x512) S8x512.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x2048.size a
  hwx1_0 : ∀ i : grid1.Coords, EltTy.bits .f32 = 32 ∨ (Rect.block (s := S64x2048) S64x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x2048.size a ≤ S64x2048.size a
  hwx1_1 : ∀ i : grid1.Coords, EltTy.bits .f32 = 32 ∨ (Rect.block (s := S64x2048) S64x2048.size (cc1_transform_1 i) (hinb1_1 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S8x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v1_0) S64x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S64x2048.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S64x2048x512 : Shape := ⟨3, ![64, 2048, 512]⟩
abbrev S512x256 : Shape := ⟨2, ![512, 256]⟩
abbrev S256 : Shape := ⟨1, ![256]⟩
abbrev S256x1 : Shape := ⟨2, ![256, 1]⟩
abbrev S64x2048x256 : Shape := ⟨3, ![64, 2048, 256]⟩
abbrev S1x1x256 : Shape := ⟨3, ![1, 1, 256]⟩
abbrev S64x2048x1 : Shape := ⟨3, ![64, 2048, 1]⟩
abbrev S_ : Shape := ⟨0, ![]⟩
abbrev S64x1 : Shape := ⟨2, ![64, 1]⟩
abbrev S64x1x1 : Shape := ⟨3, ![64, 1, 1]⟩
abbrev S64x512 : Shape := ⟨2, ![64, 512]⟩

abbrev nBuf : Space → Nat
  | .hbm => 28
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S512x256, .f32⟩
  | .hbm, ⟨2, _⟩ => ⟨S256, .f32⟩
  | .hbm, ⟨3, _⟩ => ⟨S256x1, .f32⟩
  | .hbm, ⟨4, _⟩ => ⟨S64x2048x256, .f32⟩
  | .hbm, ⟨5, _⟩ => ⟨S1x1x256, .f32⟩
  | .hbm, ⟨6, _⟩ => ⟨S64x2048x256, .f32⟩
  | .hbm, ⟨7, _⟩ => ⟨S64x2048x256, .f32⟩
  | .hbm, ⟨8, _⟩ => ⟨S64x2048x256, .f32⟩
  | .hbm, ⟨9, _⟩ => ⟨S64x2048x1, .f32⟩
  | .hbm, ⟨10, _⟩ => ⟨S_, .f32⟩
  | .hbm, ⟨11, _⟩ => ⟨S64x1, .f32⟩
  | .hbm, ⟨12, _⟩ => ⟨S_, .f32⟩
  | .hbm, ⟨13, _⟩ => ⟨S64x1, .f32⟩
  | .hbm, ⟨14, _⟩ => ⟨S64x1, .f32⟩
  | .hbm, ⟨15, _⟩ => ⟨S64x1x1, .f32⟩
  | .hbm, ⟨16, _⟩ => ⟨S64x2048x1, .f32⟩
  | .hbm, ⟨17, _⟩ => ⟨S64x2048x1, .f32⟩
  | .hbm, ⟨18, _⟩ => ⟨S64x2048x1, .f32⟩
  | .hbm, ⟨19, _⟩ => ⟨S_, .f32⟩
  | .hbm, ⟨20, _⟩ => ⟨S64x1, .f32⟩
  | .hbm, ⟨21, _⟩ => ⟨S64x1x1, .f32⟩
  | .hbm, ⟨22, _⟩ => ⟨S64x2048x1, .f32⟩
  | .hbm, ⟨23, _⟩ => ⟨S64x2048x1, .f32⟩
  | .hbm, ⟨24, _⟩ => ⟨S64x2048x512, .f32⟩
  | .hbm, ⟨25, _⟩ => ⟨S64x2048x512, .f32⟩
  | .hbm, ⟨26, _⟩ => ⟨S_, .f32⟩
  | .hbm, ⟨27, _⟩ => ⟨S64x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x2048x256_0_1_2 : S1x1x256.BroadcastsInDim S64x2048x256 (![0, 1, 2] : Fin 3 → Fin S64x2048x256.rank)
  reducesTo_S64x2048x1_S64x1_d1 : S64x2048x1.ReducesTo [1] S64x1
  h_S_ : 0 < S_.numel
  bcast_S_S64x1 : S_.BroadcastsInDim S64x1 (![] : Fin 0 → Fin S64x1.rank)
  bcast_S64x1_S64x1x1_0_2 : S64x1.BroadcastsInDim S64x1x1 (![0, 2] : Fin 2 → Fin S64x1x1.rank)
  bcast_S64x1x1_S64x2048x1_0_1_2 : S64x1x1.BroadcastsInDim S64x2048x1 (![0, 1, 2] : Fin 3 → Fin S64x2048x1.rank)
  bcast_S64x2048x1_S64x2048x512_0_1_2 : S64x2048x1.BroadcastsInDim S64x2048x512 (![0, 1, 2] : Fin 3 → Fin S64x2048x512.rank)
  reducesTo_S64x2048x512_S64x512_d1 : S64x2048x512.ReducesTo [1] S64x512
  dot_S64x2048x512_S512x256_S64x2048x256_2_0_01_1_n_n_wf : DotDims.WF S64x2048x512 S512x256 S64x2048x256 [2] [0] [0, 1] [1] [] []
  dot_S64x2048x256_S256x1_S64x2048x1_2_0_01_1_n_n_wf : DotDims.WF S64x2048x256 S256x1 S64x2048x1 [2] [0] [0, 1] [1] [] []

variable [Facts₀]

def dot_S64x2048x512_S512x256_S64x2048x256_2_0_01_1_n_n : DotDims S64x2048x512 S512x256 S64x2048x256 where
  lhsContracting := [2]
  rhsContracting := [0]
  lhsNonContracting := [0, 1]
  rhsNonContracting := [1]
  lhsBatch := []
  rhsBatch := []
  wf := dot_S64x2048x512_S512x256_S64x2048x256_2_0_01_1_n_n_wf
def dot_S64x2048x256_S256x1_S64x2048x1_2_0_01_1_n_n : DotDims S64x2048x256 S256x1 S64x2048x1 where
  lhsContracting := [2]
  rhsContracting := [0]
  lhsNonContracting := [0, 1]
  rhsNonContracting := [1]
  lhsBatch := []
  rhsBatch := []
  wf := dot_S64x2048x256_S256x1_S64x2048x1_2_0_01_1_n_n_wf

class Facts : Prop extends Facts₀ where

variable [Facts]
-- ==== Proof.FusedRunsBits.lean ====
/-
  The first pallas_call (the fused projection / running-softmax kernel) as a pipeline region: what its body's
  runs are stated over.  The grid is 8 × 4: coordinate 0 picks a block of 8 batch rows, coordinate 1 one of the
  four sequence tiles of 512 positions.  The body branches twice on the tile coordinate: at the first tile it
  resets its three scratch buffers (running maximum, running denominator, running weighted sum), and at the
  last tile it divides the weighted sum by the denominator into the context output.  So a grid point is in one
  of three cases: first tile, middle tile, last tile.  The logits output is stored at every point; the context
  output only at the last tile of a row block, and it is idle (handed back untouched, not written back)
  elsewhere.  The scratch buffers are carried from one point to the next.

  Everything is stated at a parameter `V`: the buffer contents when the region is entered.
-/
import proofs.«123799_j49039936586174_2_alg».proof.Proof.Gen.Kernel.Launch
import proofs.«123799_j49039936586174_2_alg».proof.Proof.Gen.Kernel.Skeleton
import proofs.«123799_j49039936586174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an input the body
    leaves in place, whose block index has not moved where it is not fetched again. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an input the body
    leaves in place, whose block index has not moved where it is not fetched again. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an input the body
    leaves in place, whose block index has not moved where it is not fetched again. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an input the body
    leaves in place, whose block index has not moved where it is not fetched again. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first sequence tile": the condition of the branch that resets the scratch buffers. -/
abbrev cond0_0 (i : grid0.Coords) : Prop := (Scalar.cmpi .ne (Scalar.extui (Scalar.cmpi .eq (BitVec.ofNat 32 (i 1).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last sequence tile": the condition of the branch that writes the context. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last tile the context window is idle: the body stores nothing into it, -/
theorem idleAt0_5 : ∀ t : Fin cfg0.N, ¬cond0_1 (grid0.coords t) → cfg0.idle 5 (grid0.coords t) = true := by decide +kernel
/-- and the pipeline does not write its block back there. -/
theorem noFlush0_5 : ∀ t : Fin cfg0.N, ¬cond0_1 (grid0.coords t) → (cfg0.win 5).flush t = false := by decide +kernel
/-- At the last tile it is live. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S8x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x512 .f32 := win0_5.stage (cfg0.slots t 5)
abbrev hs0_5 (t : Fin cfg0.N) : (ms0_5 t).IsWhole := hstage0_5 ((cfg0.slots t 5).cast nbuf0_5)
/-- The scratch operands: the running maximum, the running denominator, the running weighted sum. -/
abbrev scM0_0 : Memref sig .tc .vmem S8x1 .f32 := Memref.whole cc0_scratch0
abbrev scM0_1 : Memref sig .tc .vmem S8x1 .f32 := Memref.whole cc0_scratch1
abbrev scM0_2 : Memref sig .tc .vmem S8x512 .f32 := Memref.whole cc0_scratch2
abbrev VS0_0 : View sig .tc .vmem S8x1 .f32 := scM0_0.view
abbrev VS0_1 : View sig .tc .vmem S8x1 .f32 := scM0_1.view
abbrev VS0_2 : View sig .tc .vmem S8x512 .f32 := scM0_2.view
/-- One staging buffer of each output window, through which its contents are stated. -/
abbrev VO0_4 : View sig .tc .vmem S8x512 .f32 := (Memref.whole cc0_stg4_0 : Memref sig .tc .vmem S8x512 .f32).view
abbrev VO0_5 : View sig .tc .vmem S8x512 .f32 := (Memref.whole cc0_stg5_0 : Memref sig .tc .vmem S8x512 .f32).view

/-- The scoped buffers of the core that belong to the other pallas_call, each at some contents: they ride along. -/
def otherRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f))

/-- The region's standing invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ otherRest (F := F) c) ∗ (∃ r, prngReg c r)) := by
  unfold Pipeline.ΦA otherRest; rw [scopedRest0_eq]; simp only [scM0_0, scM0_1, scM0_2, owns_whole]; try rfl

end Cert.Kernel.Hand

end
-- ==== Proof.FusedRunABits.lean ====
/-
  The fused kernel's body run at the FIRST sequence tile of a row block (the scratch buffers are reset before they are read, so they may hold anything on entry; the context window is idle and handed back untouched):
  on whole staging memrefs holding the four input blocks, the body runs to the end, hands the inputs back as
  they were, and leaves in the logits window and the three scratch buffers the pieces its stores wrote.  The pieces are
  found by running the body symbolically; they are this definition's witness.
-/
import proofs.«123799_j49039936586174_2_alg».proof.Proof.FusedRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) :
    Σ' (L4 : List (View.Piece (Elt F) S8x512 .f32)) (L5 : List (View.Piece (Elt F) S8x512 .f32)) (LS0 : List (View.Piece (Elt F) S8x1 .f32)) (LS1 : List (View.Piece (Elt F) S8x1 .f32)), { LS2 : List (View.Piece (Elt F) S8x512 .f32) //
      ∀ (xi5 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, [], ?_, ?_, ?_, fun xi5 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, HS0⟩, ⟨%d7, %f7, -, HS1⟩, ⟨%d8, %f8, -, HS2⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.FusedRunBBits.lean ====
/-
  The fused kernel's body run at a MIDDLE sequence tile (the scratch buffers hold what the point before left; the context window is idle and handed back untouched):
  on whole staging memrefs holding the four input blocks, the body runs to the end, hands the inputs back as
  they were, and leaves in the logits window and the three scratch buffers the pieces its stores wrote.  The pieces are
  found by running the body symbolically; they are this definition's witness.
-/
import proofs.«123799_j49039936586174_2_alg».proof.Proof.FusedRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    Σ' (L4 : List (View.Piece (Elt F) S8x512 .f32)) (L5 : List (View.Piece (Elt F) S8x512 .f32)) (LS0 : List (View.Piece (Elt F) S8x1 .f32)) (LS1 : List (View.Piece (Elt F) S8x1 .f32)), { LS2 : List (View.Piece (Elt F) S8x512 .f32) //
      ∀ (xi5 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, [], ?_, ?_, ?_, fun xi5 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, HS0⟩, ⟨%f7, %hf7, HS1⟩, ⟨%f8, %hf8, HS2⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.FusedRunCBits.lean ====
/-
  The fused kernel's body run at the LAST sequence tile (the scratch buffers hold what the point before left; the context window is stored into):
  on whole staging memrefs holding the four input blocks, the body runs to the end, hands the inputs back as
  they were, and leaves in the logits window, the context window and the three scratch buffers the pieces its stores wrote.  The pieces are
  found by running the body symbolically; they are this definition's witness.
-/
import proofs.«123799_j49039936586174_2_alg».proof.Proof.FusedRunsBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    Σ' (L4 : List (View.Piece (Elt F) S8x512 .f32)) (L5 : List (View.Piece (Elt F) S8x512 .f32)) (LS0 : List (View.Piece (Elt F) S8x1 .f32)) (LS1 : List (View.Piece (Elt F) S8x1 .f32)), { LS2 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, HS0⟩, ⟨%f7, %hf7, HS1⟩, ⟨%f8, %hf8, HS2⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    iexists _; iexact HS2

end Cert.Kernel.Hand

end
-- ==== Proof.FusedFrameBits.lean ====
/-
  The first pallas_call as a pipeline region, continued: what each case of the body leaves behind, what the
  output windows and the carried scratch buffers hold after each grid point (by recursion on the point: a first
  tile starts afresh, a later tile continues from what the point before left in the scratch), the region's
  invariant (the scratch buffers at those contents), the proof data, and the body obligation at every point.
-/
import proofs.«123799_j49039936586174_2_alg».proof.Proof.FusedRunABits
import proofs.«123799_j49039936586174_2_alg».proof.Proof.FusedRunBBits
import proofs.«123799_j49039936586174_2_alg».proof.Proof.FusedRunCBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a grid point leaves: the logits window's buffer, the context window's buffer, and the three scratch buffers
    (running maximum, running denominator, running weighted sum). -/
structure Outs0 (F : FTy → Type) [FloatOps F] where
  o4 : Vec F S8x512 .f32
  o5 : Vec F S8x512 .f32
  s0 : Vec F S8x1 .f32
  s1 : Vec F S8x1 .f32
  s2 : Vec F S8x512 .f32

/-! ## Case A -/

/-- The case's stores into the logits window tile its block, so they cover it. -/
theorem cover0_4_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) (y : S8x512.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S8x512.size (by sl_kernel_rfl) y

/-- The case's stores into the running-maximum scratch cover it. -/
theorem scover0_0_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) (y : S8x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.1 S8x1.size (by sl_kernel_rfl) y

/-- The case's stores into the running-denominator scratch cover it. -/
theorem scover0_1_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) (y : S8x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.1 S8x1.size (by sl_kernel_rfl) y

/-- The case's stores into the running-weighted-sum scratch cover it. -/
theorem scover0_2_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) (y : S8x512.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.2.1 S8x512.size (by sl_kernel_rfl) y

/-- What the case leaves in the two output windows' buffers and in the three scratch buffers: its pieces read back
    (for a window the case leaves idle the component is a placeholder nothing consults). -/
def outs0_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) : Outs0 F where
  o4 := VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1)
  o5 := VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3).2.1)
  s0 := VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.2.1)
  s1 := VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.2.2.1)
  s2 := VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3).2.2.2.2.1)

/-! ## Case B -/

/-- The case's stores into the logits window tile its block, so they cover it. -/
theorem cover0_4_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x512.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).1 S8x512.size (by sl_kernel_rfl) y

/-- The case's stores into the running-maximum scratch cover it. -/
theorem scover0_0_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).2.2.1 S8x1.size (by sl_kernel_rfl) y

/-- The case's stores into the running-denominator scratch cover it. -/
theorem scover0_1_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).2.2.2.1 S8x1.size (by sl_kernel_rfl) y

/-- The case's stores into the running-weighted-sum scratch cover it. -/
theorem scover0_2_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x512.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).2.2.2.2.1 S8x512.size (by sl_kernel_rfl) y

/-- What the case leaves in the two output windows' buffers and in the three scratch buffers: its pieces read back
    (for a window the case leaves idle the component is a placeholder nothing consults). -/
def outs0_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) : Outs0 F where
  o4 := VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xs0 xs1 xs2).1)
  o5 := VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 xs0 xs1 xs2).2.1)
  s0 := VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1 xs2).2.2.1)
  s1 := VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 xs0 xs1 xs2).2.2.2.1)
  s2 := VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 xs0 xs1 xs2).2.2.2.2.1)

/-! ## Case C -/

/-- The case's stores into the logits window tile its block, so they cover it. -/
theorem cover0_4_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).1 S8x512.size (by sl_kernel_rfl) y

/-- The case's store into the context window covers its block. -/
theorem cover0_5_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.1 S8x512.size (by sl_kernel_rfl) y

/-- The case's stores into the running-maximum scratch cover it. -/
theorem scover0_0_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.2.1 S8x1.size (by sl_kernel_rfl) y

/-- The case's stores into the running-denominator scratch cover it. -/
theorem scover0_1_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.2.2.1 S8x1.size (by sl_kernel_rfl) y

/-- The case's stores into the running-weighted-sum scratch cover it. -/
theorem scover0_2_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.2.2.2.1 S8x512.size (by sl_kernel_rfl) y

/-- What the case leaves in the two output windows' buffers and in the three scratch buffers: its pieces read back
    (for a window the case leaves idle the component is a placeholder nothing consults). -/
def outs0_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) : Outs0 F where
  o4 := VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1 xs2).1)
  o5 := VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0 xs1 xs2).2.1)
  s0 := VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1 xs2).2.2.1)
  s1 := VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 xs0 xs1 xs2).2.2.2.1)
  s2 := VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 x3 xs0 xs1 xs2).2.2.2.2.1)

variable (V : (c : Dev nD) → (b : Ref sig .tc) → Buf (Elt F) ((c : Thread nD τ).loc b))

/-! ## The cases at a grid point, on what the pipeline calls the body with -/

def outsA (c : Dev nD) (t : Fin cfg0.N) (hc0 : cond0_0 (grid0.coords t)) (hc1 : ¬cond0_1 (grid0.coords t)) : Outs0 F :=
  outs0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk0 V c 0 t) (iblk0 V c 1 t) (iblk0 V c 2 t) (iblk0 V c 3 t)
def outsB (c : Dev nD) (t : Fin cfg0.N) (hc0 : ¬cond0_0 (grid0.coords t)) (hc1 : ¬cond0_1 (grid0.coords t)) (p : Outs0 F) : Outs0 F :=
  outs0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk0 V c 0 t) (iblk0 V c 1 t) (iblk0 V c 2 t) (iblk0 V c 3 t) p.s0 p.s1 p.s2
def outsC (c : Dev nD) (t : Fin cfg0.N) (hc0 : ¬cond0_0 (grid0.coords t)) (hc1 : cond0_1 (grid0.coords t)) (p : Outs0 F) : Outs0 F :=
  outs0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk0 V c 0 t) (iblk0 V c 1 t) (iblk0 V c 2 t) (iblk0 V c 3 t) p.s0 p.s1 p.s2

/-! ## What the outputs and the scratch hold after each point -/

/-- THE ACCUMULATION: after the body at position `n`, the case the position is in, run on the point's memrefs and
    input blocks; a middle or last tile continues from the scratch contents the position before left. -/
def outsAt0 (c : Dev nD) : (n : ℕ) → n < cfg0.N → Outs0 F
  | 0, hn => outsA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 4 = 0 then
      outsA V c ⟨n + 1, hn⟩ ((hcond0_0 ⟨n + 1, hn⟩).mpr h0) (fun h => (fun h => by (try dsimp only at h); omega) ((hcond0_1 ⟨n + 1, hn⟩).mp h))
    else if h1 : (n + 1) % 4 = 3 then
      outsC V c ⟨n + 1, hn⟩ (fun h => h0 ((hcond0_0 ⟨n + 1, hn⟩).mp h)) ((hcond0_1 ⟨n + 1, hn⟩).mpr h1) (outsAt0 c n (Nat.lt_of_succ_lt hn))
    else
      outsB V c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 4 = 0) (hc0 : cond0_0 (grid0.coords t)) (hc1 : ¬cond0_1 (grid0.coords t)) :
    outsAt0 V c t.val t.isLt = outsA V c t hc0 hc1 := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) (hc0 : ¬cond0_0 (grid0.coords t)) (hc1 : ¬cond0_1 (grid0.coords t)) :
    outsAt0 V c t.val t.isLt = outsB V c t hc0 hc1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) (hc0 : ¬cond0_0 (grid0.coords t)) (hc1 : cond0_1 (grid0.coords t)) :
    outsAt0 V c t.val t.isLt = outsC V c t hc0 hc1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch buffers at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).s0) ∗ owns (c : Thread nD τ) scM0_1 fullShare ((outsAt0 V c n hn).s1) ∗ owns (c : Thread nD τ) scM0_2 fullShare ((outsAt0 V c n hn).s2) ∗ otherRest (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).s0) ∗ owns (c : Thread nD τ) scM0_1 fullShare ((outsAt0 V c n hn).s1) ∗ owns (c : Thread nD τ) scM0_2 fullShare ((outsAt0 V c n hn).s2) ∗ otherRest (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).s0) ∗ owns (c : Thread nD τ) scM0_1 fullShare ((outsAt0 V c (n - 1) (by omega)).s1) ∗ owns (c : Thread nD τ) scM0_2 fullShare ((outsAt0 V c (n - 1) (by omega)).s2) ∗ otherRest (F := F) c) ∗ (∃ r, prngReg c r)) := by
  cases n with
  | zero => exact absurd rfl hz
  | succ n => rfl

/-! ## The proof data -/

/-- The proof data of the first pipeline on core `c`: the arrays as the region finds them; after the body each
    input's buffer at its block and the two outputs' at the accumulation's components; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).o4
    | ⟨5, _⟩ => (outsAt0 V c t.val t.isLt).o5
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the closed forms say which case the point is in;
    the invariant hands the body the scratch buffers at what the point before left (at anything before the first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 4 = 0
  · have hc0 : cond0_0 (grid0.coords t) := (hcond0_0 t).mpr h0
    have hc1 : ¬cond0_1 (grid0.coords t) := fun h => by have := (hcond0_1 t).mp h; omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t hc1) (noFlush0_5 t hc1)]
    rw [outsAt0_A V c t h0 hc0 hc1]
    unfold outsA outs0_A; (try dsimp only)
    by_cases hz : t.val = 0
    · rw [PhiS_castSucc V c t, PhiS_zero V c _ _ hz, PhiA0_eq]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ hc0 hc1 (iblk0 V c 0 t) (iblk0 V c 1 t) (iblk0 V c 2 t) (iblk0 V c 3 t)).2.2.2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      isplitl [HS2]; · iexact HS2
      iintro ⟨H0, H1, H2, H3, ⟨%e4, H4⟩, H5, ⟨%es0, HS0⟩, ⟨%es1, HS1⟩, ⟨%es2, HS2⟩⟩
      isplitl [HS0 HS1 HS2 Hoth Hg]
      · isplitr [Hg]
        swap; · iexact Hg
        isplitl [HS0]
        · unfold owns; iexists _; isplitr
          swap; · iexact HS0
          ipureintro; exact View.read_writes_of_cover _ _ _ _ _ (scover0_0_A c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_1_A c _ _ _ _ _ _ _ _ _ _ _ _ _ _ _ _ _ _ _ _ _ _ _ _ _)
        isplitr [Hoth]
        swap; · iexact Hoth
        unfold owns; iexists _; isplitr
        swap; · iexact HS2
        ipureintro; exact View.read_writes_of_cover _ _ _ _ _ (scover0_2_A c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_4_A c _ _ _ _ _ _ _ _ _ _ _ _ _ _ _ _ _ _ _ _ _ _ _ _ _)
      iexists _; iexact H5
    · rw [PhiS_castSucc V c t, PhiS_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ hc0 hc1 (iblk0 V c 0 t) (iblk0 V c 1 t) (iblk0 V c 2 t) (iblk0 V c 3 t)).2.2.2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      isplitl [HS1]; · iexists _; iexact HS1
      isplitl [HS2]; · iexists _; iexact HS2
      iintro ⟨H0, H1, H2, H3, ⟨%e4, H4⟩, H5, ⟨%es0, HS0⟩, ⟨%es1, HS1⟩, ⟨%es2, HS2⟩⟩
      isplitl [HS0 HS1 HS2 Hoth Hg]
      · isplitr [Hg]
        swap; · iexact Hg
        isplitl [HS0]
        · unfold owns; iexists _; isplitr
          swap; · iexact HS0
          ipureintro; exact View.read_writes_of_cover _ _ _ _ _ (scover0_0_A c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_1_A c _ _ _ _ _ _ _ _ _ _ _ _ _ _ _ _ _ _ _ _ _ _ _ _ _)
        isplitr [Hoth]
        swap; · iexact Hoth
        unfold owns; iexists _; isplitr
        swap; · iexact HS2
        ipureintro; exact View.read_writes_of_cover _ _ _ _ _ (scover0_2_A c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_4_A c _ _ _ _ _ _ _ _ _ _ _ _ _ _ _ _ _ _ _ _ _ _ _ _ _)
      iexists _; iexact H5
  · have hc0 : ¬cond0_0 (grid0.coords t) := fun h => h0 ((hcond0_0 t).mp h)
    by_cases h1 : t.val % 4 = 3
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1 hc0 hc1]
      unfold outsC outs0_C; (try dsimp only)
      have hz : t.val ≠ 0 := by omega
      rw [PhiS_castSucc V c t, PhiS_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ _ _ hc0 hc1 (iblk0 V c 0 t) (iblk0 V c 1 t) (iblk0 V c 2 t) (iblk0 V c 3 t) _ _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, ⟨%e4, H4⟩, ⟨%e5, H5⟩, ⟨%es0, HS0⟩, ⟨%es1, HS1⟩, ⟨%es2, HS2⟩⟩
      isplitl [HS0 HS1 HS2 Hoth Hg]
      · isplitr [Hg]
        swap; · iexact Hg
        isplitl [HS0]
        · unfold owns; iexists _; isplitr
          swap; · iexact HS0
          ipureintro; exact View.read_writes_of_cover _ _ _ _ _ (scover0_0_C c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_1_C c _ _ _ _ _ _ _ _ _ _ _ _ _ _ _ _ _ _ _ _ _ _ _ _ _ _ _ _)
        isplitr [Hoth]
        swap; · iexact Hoth
        unfold owns; iexists _; isplitr
        swap; · iexact HS2
        ipureintro; exact View.read_writes_of_cover _ _ _ _ _ (scover0_2_C c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_4_C c _ _ _ _ _ _ _ _ _ _ _ _ _ _ _ _ _ _ _ _ _ _ _ _ _ _ _ _)
      unfold owns; iexists _; isplitr
      swap; · iexact H5
      ipureintro; exact View.read_writes_of_cover _ _ _ _ _ (cover0_5_C c _ _ _ _ _ _ _ _ _ _ _ _ _ _ _ _ _ _ _ _ _ _ _ _ _ _ _ _)
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t hc1) (noFlush0_5 t hc1)]
      rw [outsAt0_B V c t h0 h1 hc0 hc1]
      unfold outsB outs0_B; (try dsimp only)
      have hz : t.val ≠ 0 := by omega
      rw [PhiS_castSucc V c t, PhiS_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ hc0 hc1 (iblk0 V c 0 t) (iblk0 V c 1 t) (iblk0 V c 2 t) (iblk0 V c 3 t) _ _ _).2.2.2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      isplitl [HS2]; · iexact HS2
      iintro ⟨H0, H1, H2, H3, ⟨%e4, H4⟩, H5, ⟨%es0, HS0⟩, ⟨%es1, HS1⟩, ⟨%es2, HS2⟩⟩
      isplitl [HS0 HS1 HS2 Hoth Hg]
      · isplitr [Hg]
        swap; · iexact Hg
        isplitl [HS0]
        · unfold owns; iexists _; isplitr
          swap; · iexact HS0
          ipureintro; exact View.read_writes_of_cover _ _ _ _ _ (scover0_0_B c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_1_B c _ _ _ _ _ _ _ _ _ _ _ _ _ _ _ _ _ _ _ _ _ _ _ _ _ _ _ _)
        isplitr [Hoth]
        swap; · iexact Hoth
        unfold owns; iexists _; isplitr
        swap; · iexact HS2
        ipureintro; exact View.read_writes_of_cover _ _ _ _ _ (scover0_2_B c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_4_B c _ _ _ _ _ _ _ _ _ _ _ _ _ _ _ _ _ _ _ _ _ _ _ _ _ _ _ _)
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the standing invariant back: the scratch contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HS1, HS2, Hoth⟩, Hg⟩
  isplitr [Hg]
  swap; · iexact Hg
  isplitl [HS0]; · iexists _; iexact HS0
  isplitl [HS1]; · iexists _; iexact HS1
  isplitl [HS2]; · iexists _; iexact HS2
  iexact Hoth

end Cert.Kernel.Hand

end
-- ==== Proof.ScoresRegionBits.lean ====
/-
  The second kernel call (the scores kernel) as a pipeline region, at any float instance.

  The call has a grid of a single point and two windows, each the whole 64 × 2048 array: window 0 is the
  array of logits, read; window 1 is the array of scores, written. The body loads the logits block, forms
  one pure value from it (the payload: subtract the row maximum, exponentiate, divide by the row sum), and
  stores that value over the whole output block. So after the body the input block is as it was and the
  output block is the payload of the input block. This file states that as the body's triple, packages it
  as the region's proof data at a parameter `V` (the buffer contents when the region is entered), and
  derives the body obligation the pipeline rule asks for.
-/
import proofs.«123799_j49039936586174_2_alg».proof.Proof.Gen.Kernel.Launch
import proofs.«123799_j49039936586174_2_alg».proof.Proof.Gen.Kernel.Skeleton
import proofs.«123799_j49039936586174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not, for any
    proof data whose array is `V`'s (`hA`) and whose body leaves the block in place (`hafter`): unfetched, the
    block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one rectangle the body loads and stores: the whole block. -/
abbrev r1_0 : Rect S64x2048 := Rect.unit (s := S64x2048) ![0, 0] S64x2048.size inb_S64x2048_S64x2048_0_0

/-! ## What the body leaves in the output window's buffer -/

/-- Window 1's staging buffer after the body, from the input window's block: its one store as a piece
    (the payload is the skeleton's). -/
def out1_1 (x0 : Vec F S64x2048 .f32) : Vec F S64x2048 .f32 :=
  View.canon [⟨r1_0, k1_pay1 (View.ld x0 r1_0)⟩]

/-- The one store tiles the buffer (checked by evaluation), so it covers it. -/
theorem cover1_1 (p0 : Vec F S64x2048 .f32) (y : S64x2048.Idx) :
    ∃ pc ∈ ([⟨r1_0, p0⟩] : List (View.Piece (Elt F) S64x2048 .f32)), y ∈ pc.1.set :=
  View.cover_of_tiled [⟨r1_0, p0⟩] S64x2048.size (by rfl) y

/-! ## The body's triple -/

set_option maxHeartbeats 1000000 in
/-- The kernel body on whole staging memrefs, the input's at read contents `x0` and the output's at anything, runs
    to the continuation holding the input's as it was and the output's at `out1_1 x0`: the printed function is
    its skeleton, which is run operation by operation. -/
theorem sound_kernel1 (c : Dev nD) (E : Set ℕ) (i : grid1.Coords) (arg1 : Memref sig .tc .vmem S64x2048 .f32) (harg1 : arg1.IsWhole) (arg2 : Memref sig .tc .vmem S64x2048 .f32) (harg2 : arg2.IsWhole)
    (x0 : Vec F S64x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__scores_kernel i arg1 harg1 arg2 harg2) K := by
  simp only [cc1__scores_kernel_eq_skeleton]; unfold cc1__scores_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of this pipeline on core `c`: the arrays as the region finds them (`V`); after the body at
    point `t` the input's buffer at its block and the output's at `out1_1` of the input block; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block (`before1_0`), so `sound_kernel1` applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KernelRunBits.lean ====
/-
  The whole program's run: a transposition of `u` on the host, the fused kernel, the scores kernel, a reshape of the
  scores on the host.  The buffer contents at each of the five boundaries are a fold from the launch memory: a host
  stretch applies its operations, a kernel region replaces its windows' arrays by what its write-backs leave.  Every
  weakly fair execution terminates, and the final memory holds every unscoped buffer at the last boundary's
  contents.  The frame claim (the arguments end as launched) and the values of the two results are read off that.
-/
import proofs.«123799_j49039936586174_2_alg».proof.Proof.FusedFrameBits
import proofs.«123799_j49039936586174_2_alg».proof.Proof.ScoresRegionBits
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host transposition: what the fused kernel is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the fused kernel: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the scores kernel. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the host reshape: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernels as segments -/

set_option backward.isDefEq.respectTransparency.types false in
/-- Pallas call 0 as a segment of the run: entered with every unscoped buffer at `W1`, left with them at `W2`.
    Its arrays are split out of the unscoped buffers on entry and put back, at what the write-backs leave, on exit; the
    generator register goes into the region's invariant and comes back out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of the run: entered with every unscoped buffer at `W2`, left with them at `W3`.
    Its arrays are split out of the unscoped buffers on entry and put back, at what the write-backs leave, on exit; the
    generator register goes into the region's invariant and comes back out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R (F := F) c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KernelFrameBits.lean ====
/-
  The frame: every argument array ends holding its launch contents.  Each is read back through the fold of the
  buffer contents from the end of the program to its launch: the two host operations write only their own results,
  the scores kernel does not touch an argument, and the fused kernel reads three of them through input windows (an
  input window's array is never written back) and does not touch the fourth.
-/
import proofs.«123799_j49039936586174_2_alg».proof.Proof.KernelRunBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host operation writes it, the first kernel only reads it through an input window. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c : Thread nD τ).loc main_arg0) := rfl

/-- `main_arg1` ends as launched: no host operation writes it, the first kernel only reads it through an input window. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c : Thread nD τ).loc main_arg1) := rfl

/-- `main_arg2` ends as launched: no host operation writes it, the first kernel only reads it through an input window. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c : Thread nD τ).loc main_arg2) := rfl

/-- `main_arg3` ends as launched: no host operation writes it, no kernel touches it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c : Thread nD τ).loc main_arg3) := rfl

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.FusedRuns.lean ====
/-
  The first pallas_call (the fused projection / running-softmax kernel) as a pipeline region: what its body's
  runs are stated over.  The grid is 8 × 4: coordinate 0 picks a block of 8 batch rows, coordinate 1 one of the
  four sequence tiles of 512 positions.  The body branches twice on the tile coordinate: at the first tile it
  resets its three scratch buffers (running maximum, running denominator, running weighted sum), and at the
  last tile it divides the weighted sum by the denominator into the context output.  So a grid point is in one
  of three cases: first tile, middle tile, last tile.  The logits output is stored at every point; the context
  output only at the last tile of a row block, and it is idle (handed back untouched, not written back)
  elsewhere.  The scratch buffers are carried from one point to the next.

  Everything is stated at a parameter `V`: the buffer contents when the region is entered.
-/
import proofs.«123799_j49039936586174_2_alg».proof.Proof.Gen.KernelIdeal.Launch
import proofs.«123799_j49039936586174_2_alg».proof.Proof.Gen.KernelIdeal.Skeleton
import proofs.«123799_j49039936586174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an input the body
    leaves in place, whose block index has not moved where it is not fetched again. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an input the body
    leaves in place, whose block index has not moved where it is not fetched again. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an input the body
    leaves in place, whose block index has not moved where it is not fetched again. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an input the body
    leaves in place, whose block index has not moved where it is not fetched again. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "This is the first sequence tile": the condition of the branch that resets the scratch buffers. -/
abbrev cond0_0 (i : grid0.Coords) : Prop := (Scalar.cmpi .ne (Scalar.extui (Scalar.cmpi .eq (BitVec.ofNat 32 (i 1).val) 0#32)) 0#32) = 1#1
/-- It holds exactly at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last sequence tile": the condition of the branch that writes the context. -/
abbrev cond0_1 (i : grid0.Coords) : Prop := k0_cond2 i = 1#1
/-- It holds exactly at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last tile the context window is idle: the body stores nothing into it, -/
theorem idleAt0_5 : ∀ t : Fin cfg0.N, ¬cond0_1 (grid0.coords t) → cfg0.idle 5 (grid0.coords t) = true := by decide +kernel
/-- and the pipeline does not write its block back there. -/
theorem noFlush0_5 : ∀ t : Fin cfg0.N, ¬cond0_1 (grid0.coords t) → (cfg0.win 5).flush t = false := by decide +kernel
/-- At the last tile it is live. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S8x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x512 .f32 := win0_5.stage (cfg0.slots t 5)
abbrev hs0_5 (t : Fin cfg0.N) : (ms0_5 t).IsWhole := hstage0_5 ((cfg0.slots t 5).cast nbuf0_5)
/-- The scratch operands: the running maximum, the running denominator, the running weighted sum. -/
abbrev scM0_0 : Memref sig .tc .vmem S8x1 .f32 := Memref.whole cc0_scratch0
abbrev scM0_1 : Memref sig .tc .vmem S8x1 .f32 := Memref.whole cc0_scratch1
abbrev scM0_2 : Memref sig .tc .vmem S8x512 .f32 := Memref.whole cc0_scratch2
abbrev VS0_0 : View sig .tc .vmem S8x1 .f32 := scM0_0.view
abbrev VS0_1 : View sig .tc .vmem S8x1 .f32 := scM0_1.view
abbrev VS0_2 : View sig .tc .vmem S8x512 .f32 := scM0_2.view
/-- One staging buffer of each output window, through which its contents are stated. -/
abbrev VO0_4 : View sig .tc .vmem S8x512 .f32 := (Memref.whole cc0_stg4_0 : Memref sig .tc .vmem S8x512 .f32).view
abbrev VO0_5 : View sig .tc .vmem S8x512 .f32 := (Memref.whole cc0_stg5_0 : Memref sig .tc .vmem S8x512 .f32).view

/-- The scoped buffers of the core that belong to the other pallas_call, each at some contents: they ride along. -/
def otherRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f))

/-- The region's standing invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ otherRest (F := F) c) ∗ (∃ r, prngReg c r)) := by
  unfold Pipeline.ΦA otherRest; rw [scopedRest0_eq]; simp only [scM0_0, scM0_1, scM0_2, owns_whole]; try rfl

end Cert.KernelIdeal.Hand

end
-- ==== Proof.FusedRunA.lean ====
/-
  The fused kernel's body run at the FIRST sequence tile of a row block (the scratch buffers are reset before they are read, so they may hold anything on entry; the context window is idle and handed back untouched):
  on whole staging memrefs holding the four input blocks, the body runs to the end, hands the inputs back as
  they were, and leaves in the logits window and the three scratch buffers the pieces its stores wrote.  The pieces are
  found by running the body symbolically; they are this definition's witness.
-/
import proofs.«123799_j49039936586174_2_alg».proof.Proof.FusedRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) :
    Σ' (L4 : List (View.Piece (Elt F) S8x512 .f32)) (L5 : List (View.Piece (Elt F) S8x512 .f32)) (LS0 : List (View.Piece (Elt F) S8x1 .f32)) (LS1 : List (View.Piece (Elt F) S8x1 .f32)), { LS2 : List (View.Piece (Elt F) S8x512 .f32) //
      ∀ (xi5 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, [], ?_, ?_, ?_, fun xi5 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, HS0⟩, ⟨%d7, %f7, -, HS1⟩, ⟨%d8, %f8, -, HS2⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.FusedRunB.lean ====
/-
  The fused kernel's body run at a MIDDLE sequence tile (the scratch buffers hold what the point before left; the context window is idle and handed back untouched):
  on whole staging memrefs holding the four input blocks, the body runs to the end, hands the inputs back as
  they were, and leaves in the logits window and the three scratch buffers the pieces its stores wrote.  The pieces are
  found by running the body symbolically; they are this definition's witness.
-/
import proofs.«123799_j49039936586174_2_alg».proof.Proof.FusedRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    Σ' (L4 : List (View.Piece (Elt F) S8x512 .f32)) (L5 : List (View.Piece (Elt F) S8x512 .f32)) (LS0 : List (View.Piece (Elt F) S8x1 .f32)) (LS1 : List (View.Piece (Elt F) S8x1 .f32)), { LS2 : List (View.Piece (Elt F) S8x512 .f32) //
      ∀ (xi5 : Vec F S8x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, [], ?_, ?_, ?_, fun xi5 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, HS0⟩, ⟨%f7, %hf7, HS1⟩, ⟨%f8, %hf8, HS2⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.FusedRunC.lean ====
/-
  The fused kernel's body run at the LAST sequence tile (the scratch buffers hold what the point before left; the context window is stored into):
  on whole staging memrefs holding the four input blocks, the body runs to the end, hands the inputs back as
  they were, and leaves in the logits window, the context window and the three scratch buffers the pieces its stores wrote.  The pieces are
  found by running the body symbolically; they are this definition's witness.
-/
import proofs.«123799_j49039936586174_2_alg».proof.Proof.FusedRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    Σ' (L4 : List (View.Piece (Elt F) S8x512 .f32)) (L5 : List (View.Piece (Elt F) S8x512 .f32)) (LS0 : List (View.Piece (Elt F) S8x1 .f32)) (LS1 : List (View.Piece (Elt F) S8x1 .f32)), { LS2 : List (View.Piece (Elt F) S8x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, HS0⟩, ⟨%f7, %hf7, HS1⟩, ⟨%f8, %hf8, HS2⟩, Hk⟩
    obtain rfl := harg2.eq_unread hf0; obtain rfl := harg3.eq_unread hf1; obtain rfl := harg4.eq_unread hf2; obtain rfl := harg5.eq_unread hf3; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Hand

end
-- ==== Proof.FusedFrame.lean ====
/-
  The first pallas_call as a pipeline region, continued: what each case of the body leaves behind, what the
  output windows and the carried scratch buffers hold after each grid point (by recursion on the point: a first
  tile starts afresh, a later tile continues from what the point before left in the scratch), the region's
  invariant (the scratch buffers at those contents), the proof data, and the body obligation at every point.
-/
import proofs.«123799_j49039936586174_2_alg».proof.Proof.FusedRunA
import proofs.«123799_j49039936586174_2_alg».proof.Proof.FusedRunB
import proofs.«123799_j49039936586174_2_alg».proof.Proof.FusedRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a grid point leaves: the logits window's buffer, the context window's buffer, and the three scratch buffers
    (running maximum, running denominator, running weighted sum). -/
structure Outs0 (F : FTy → Type) [FloatOps F] where
  o4 : Vec F S8x512 .f32
  o5 : Vec F S8x512 .f32
  s0 : Vec F S8x1 .f32
  s1 : Vec F S8x1 .f32
  s2 : Vec F S8x512 .f32

/-! ## Case A -/

/-- The case's stores into the logits window tile its block, so they cover it. -/
theorem cover0_4_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) (y : S8x512.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S8x512.size (by sl_kernel_rfl) y

/-- The case's stores into the running-maximum scratch cover it. -/
theorem scover0_0_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) (y : S8x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.1 S8x1.size (by sl_kernel_rfl) y

/-- The case's stores into the running-denominator scratch cover it. -/
theorem scover0_1_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) (y : S8x1.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.1 S8x1.size (by sl_kernel_rfl) y

/-- The case's stores into the running-weighted-sum scratch cover it. -/
theorem scover0_2_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) (y : S8x512.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.2.1 S8x512.size (by sl_kernel_rfl) y

/-- What the case leaves in the two output windows' buffers and in the three scratch buffers: its pieces read back
    (for a window the case leaves idle the component is a placeholder nothing consults). -/
def outs0_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i)
    (x0 : Vec F S8x512x512 .f32) (x1 : Vec F S512x256 .f32) (x2 : Vec F S256 .f32) (x3 : Vec F S1x256 .f32) : Outs0 F where
  o4 := VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1)
  o5 := VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3).2.1)
  s0 := VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.2.1)
  s1 := VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.2.2.1)
  s2 := VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3).2.2.2.2.1)

/-! ## Case B -/

/-- The case's stores into the logits window tile its block, so they cover it. -/
theorem cover0_4_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x512.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).1 S8x512.size (by sl_kernel_rfl) y

/-- The case's stores into the running-maximum scratch cover it. -/
theorem scover0_0_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).2.2.1 S8x1.size (by sl_kernel_rfl) y

/-- The case's stores into the running-denominator scratch cover it. -/
theorem scover0_1_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x1.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).2.2.2.1 S8x1.size (by sl_kernel_rfl) y

/-- The case's stores into the running-weighted-sum scratch cover it. -/
theorem scover0_2_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x512.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).2.2.2.2.1 S8x512.size (by sl_kernel_rfl) y

/-- What the case leaves in the two output windows' buffers and in the three scratch buffers: its pieces read back
    (for a window the case leaves idle the component is a placeholder nothing consults). -/
def outs0_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) : Outs0 F where
  o4 := VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xs0 xs1 xs2).1)
  o5 := VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 xs0 xs1 xs2).2.1)
  s0 := VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1 xs2).2.2.1)
  s1 := VS0_1.read (Elt F) (VS0_1.writes (Elt F) VS0_1.junk (kernelRun0_B c i arg2 harg2 arg3 harg3 arg4 harg4 arg5 harg5 arg6 harg6 arg7 harg7 arg8 harg8 arg9 harg9 arg10 harg10 hc0 hc1 x0 x1 x2 x3 xs0 xs1 xs2).2.2.2.1)
  s2 := VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 xs0 xs1 xs2).2.2.2.2.1)

/-! ## Case C -/

/-- The case's stores into the logits window tile its block, so they cover it. -/
theorem cover0_4_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).1 S8x512.size (by sl_kernel_rfl) y

/-- The case's store into the context window covers its block. -/
theorem cover0_5_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.1 S8x512.size (by sl_kernel_rfl) y

/-- The case's stores into the running-maximum scratch cover it. -/
theorem scover0_0_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.2.1 S8x1.size (by sl_kernel_rfl) y

/-- The case's stores into the running-denominator scratch cover it. -/
theorem scover0_1_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x1.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.2.2.1 S8x1.size (by sl_kernel_rfl) y

/-- The case's stores into the running-weighted-sum scratch cover it. -/
theorem scover0_2_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) (y : S8x512.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.2.2.2.1 S8x512.size (by sl_kernel_rfl) y

/-- What the case leaves in the two output windows' buffers and in the three scratch buffers: its pieces read back
    (for a window the case leaves idle the component is a placeholder nothing consults). -/
def outs0_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i)
    (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) : Outs0 F where
  o4 := VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1 xs2).1)
  o5 := VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0 xs1 xs2).2.1)
  s0 := VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1 xs2).2.2.1)
  s1 := VS0_1.read (Elt F) (VS0_1.writes (Elt F) VS0_1.junk (kernelRun0_C c i arg2 harg2 arg3 harg3 arg4 harg4 arg5 harg5 arg6 harg6 arg7 harg7 arg8 harg8 arg9 harg9 arg10 harg10 hc0 hc1 x0 x1 x2 x3 xs0 xs1 xs2).2.2.2.1)
  s2 := VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 x3 xs0 xs1 xs2).2.2.2.2.1)

variable (V : (c : Dev nD) → (b : Ref sig .tc) → Buf (Elt F) ((c : Thread nD τ).loc b))

/-! ## The cases at a grid point, on what the pipeline calls the body with -/

def outsA (c : Dev nD) (t : Fin cfg0.N) (hc0 : cond0_0 (grid0.coords t)) (hc1 : ¬cond0_1 (grid0.coords t)) : Outs0 F :=
  outs0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk0 V c 0 t) (iblk0 V c 1 t) (iblk0 V c 2 t) (iblk0 V c 3 t)
def outsB (c : Dev nD) (t : Fin cfg0.N) (hc0 : ¬cond0_0 (grid0.coords t)) (hc1 : ¬cond0_1 (grid0.coords t)) (p : Outs0 F) : Outs0 F :=
  outs0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk0 V c 0 t) (iblk0 V c 1 t) (iblk0 V c 2 t) (iblk0 V c 3 t) p.s0 p.s1 p.s2
def outsC (c : Dev nD) (t : Fin cfg0.N) (hc0 : ¬cond0_0 (grid0.coords t)) (hc1 : cond0_1 (grid0.coords t)) (p : Outs0 F) : Outs0 F :=
  outs0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (iblk0 V c 0 t) (iblk0 V c 1 t) (iblk0 V c 2 t) (iblk0 V c 3 t) p.s0 p.s1 p.s2

/-! ## What the outputs and the scratch hold after each point -/

/-- THE ACCUMULATION: after the body at position `n`, the case the position is in, run on the point's memrefs and
    input blocks; a middle or last tile continues from the scratch contents the position before left. -/
def outsAt0 (c : Dev nD) : (n : ℕ) → n < cfg0.N → Outs0 F
  | 0, hn => outsA V c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 4 = 0 then
      outsA V c ⟨n + 1, hn⟩ ((hcond0_0 ⟨n + 1, hn⟩).mpr h0) (fun h => (fun h => by (try dsimp only at h); omega) ((hcond0_1 ⟨n + 1, hn⟩).mp h))
    else if h1 : (n + 1) % 4 = 3 then
      outsC V c ⟨n + 1, hn⟩ (fun h => h0 ((hcond0_0 ⟨n + 1, hn⟩).mp h)) ((hcond0_1 ⟨n + 1, hn⟩).mpr h1) (outsAt0 c n (Nat.lt_of_succ_lt hn))
    else
      outsB V c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 4 = 0) (hc0 : cond0_0 (grid0.coords t)) (hc1 : ¬cond0_1 (grid0.coords t)) :
    outsAt0 V c t.val t.isLt = outsA V c t hc0 hc1 := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) (hc0 : ¬cond0_0 (grid0.coords t)) (hc1 : ¬cond0_1 (grid0.coords t)) :
    outsAt0 V c t.val t.isLt = outsB V c t hc0 hc1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) (hc0 : ¬cond0_0 (grid0.coords t)) (hc1 : cond0_1 (grid0.coords t)) :
    outsAt0 V c t.val t.isLt = outsC V c t hc0 hc1 (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant: the scratch buffers at what the point before left -/

def PhiS (c : Dev nD) : (n : ℕ) → n ≤ cfg0.N → sProp 𝕄
  | 0, _ => Pipeline.ΦA spec0 c
  | n + 1, hn => iprop(iprop(owns (c : Thread nD τ) scM0_0 fullShare ((outsAt0 V c n hn).s0) ∗ owns (c : Thread nD τ) scM0_1 fullShare ((outsAt0 V c n hn).s1) ∗ owns (c : Thread nD τ) scM0_2 fullShare ((outsAt0 V c n hn).s2) ∗ otherRest (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).s0) ∗ owns (c : Thread nD τ) scM0_1 fullShare ((outsAt0 V c n hn).s1) ∗ owns (c : Thread nD τ) scM0_2 fullShare ((outsAt0 V c n hn).s2) ∗ otherRest (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).s0) ∗ owns (c : Thread nD τ) scM0_1 fullShare ((outsAt0 V c (n - 1) (by omega)).s1) ∗ owns (c : Thread nD τ) scM0_2 fullShare ((outsAt0 V c (n - 1) (by omega)).s2) ∗ otherRest (F := F) c) ∗ (∃ r, prngReg c r)) := by
  cases n with
  | zero => exact absurd rfl hz
  | succ n => rfl

/-! ## The proof data -/

/-- The proof data of the first pipeline on core `c`: the arrays as the region finds them; after the body each
    input's buffer at its block and the two outputs' at the accumulation's components; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).o4
    | ⟨5, _⟩ => (outsAt0 V c t.val t.isLt).o5
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).o4 := by dsimp only [dat0]
theorem after0_5 (c : Dev nD) (t : Fin cfg0.N) : (dat0 V c).after 5 t = (outsAt0 V c t.val t.isLt).o5 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' memrefs hold their blocks; the closed forms say which case the point is in;
    the invariant hands the body the scratch buffers at what the point before left (at anything before the first
    point) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 32 := lt_of_lt_of_eq t.isLt (show cfg0.N = 32 from N_0)
  by_cases h0 : t.val % 4 = 0
  · have hc0 : cond0_0 (grid0.coords t) := (hcond0_0 t).mpr h0
    have hc1 : ¬cond0_1 (grid0.coords t) := fun h => by have := (hcond0_1 t).mp h; omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [show (dat0 V c).leavesExact 3 t = owns (c : Thread nD τ) (ms0_3 t) fullShare ((dat0 V c).after 3 t) from by
      unfold Dat.leavesExact; rw [liveAt0_3 t], after0_3]
    rw [show (dat0 V c).leavesExact 4 t = owns (c : Thread nD τ) (ms0_4 t) fullShare ((dat0 V c).after 4 t) from by
      unfold Dat.leavesExact; rw [liveAt0_4 t], after0_4]
    rw [Dat.leavesExact_idle (dat0 V c) 5 t (idleAt0_5 t hc1) (noFlush0_5 t hc1)]
    rw [outsAt0_A V c t h0 hc0 hc1]
    unfold outsA outs0_A; (try dsimp only)
    by_cases hz : t.val = 0
    · rw [PhiS_castSucc V c t, PhiS_zero V c _ _ hz, PhiA0_eq]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ hc0 hc1 (iblk0 V c 0 t) (iblk0 V c 1 t) (iblk0 V c 2 t) (iblk0 V c 3 t)).2.2.2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      isplitl [HS2]; · iexact HS2
      iintro ⟨H0, H1, H2, H3, ⟨%e4, H4⟩, H5, ⟨%es0, HS0⟩, ⟨%es1, HS1⟩, ⟨%es2, HS2⟩⟩
      isplitl [HS0 HS1 HS2 Hoth Hg]
      · isplitr [Hg]
        swap; · iexact Hg
        isplitl [HS0]
        · unfold owns; iexists _; isplitr
          swap; · iexact HS0
          ipureintro; exact View.read_writes_of_cover _ _ _ _ _ (scover0_0_A c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_1_A c _ _ _ _ _ _ _ _ _ _ _ _ _ _ _ _ _ _ _ _ _ _ _ _ _)
        isplitr [Hoth]
        swap; · iexact Hoth
        unfold owns; iexists _; isplitr
        swap; · iexact HS2
        ipureintro; exact View.read_writes_of_cover _ _ _ _ _ (scover0_2_A c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_4_A c _ _ _ _ _ _ _ _ _ _ _ _ _ _ _ _ _ _ _ _ _ _ _ _ _)
      iexists _; iexact H5
    · rw [PhiS_castSucc V c t, PhiS_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ hc0 hc1 (iblk0 V c 0 t) (iblk0 V c 1 t) (iblk0 V c 2 t) (iblk0 V c 3 t)).2.2.2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      isplitl [HS1]; · iexists _; iexact HS1
      isplitl [HS2]; · iexists _; iexact HS2
      iintro ⟨H0, H1, H2, H3, ⟨%e4, H4⟩, H5, ⟨%es0, HS0⟩, ⟨%es1, HS1⟩, ⟨%es2, HS2⟩⟩
      isplitl [HS0 HS1 HS2 Hoth Hg]
      · isplitr [Hg]
        swap; · iexact Hg
        isplitl [HS0]
        · unfold owns; iexists _; isplitr
          swap; · iexact HS0
          ipureintro; exact View.read_writes_of_cover _ _ _ _ _ (scover0_0_A c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_1_A c _ _ _ _ _ _ _ _ _ _ _ _ _ _ _ _ _ _ _ _ _ _ _ _ _)
        isplitr [Hoth]
        swap; · iexact Hoth
        unfold owns; iexists _; isplitr
        swap; · iexact HS2
        ipureintro; exact View.read_writes_of_cover _ _ _ _ _ (scover0_2_A c _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_4_A c _ _ _ _ _ _ _ _ _ _ _ _ _ _ _ _ _ _ _ _ _ _ _ _ _)
      iexists _; iexact H5
  · have hc0 : ¬cond0_0 (grid0.coords t) := fun h => h0 ((hcond0_0 t).mp h)
    by_cases h1 : t.val % 4 = 3
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t hc1], after0_5]
      rw [outsAt0_C V c t h0 h1 hc0 hc1]
      unfold outsC outs0_C; (try dsimp only)
      have hz : t.val ≠ 0 := by omega
      rw [PhiS_castSucc V c t, PhiS_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ _ _ hc0 hc1 (iblk0 V c 0 t) (iblk0 V c 1 t) (iblk0 V c 2 t) (iblk0 V c 3 t) _ _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, ⟨%e4, H4⟩, ⟨%e5, H5⟩, ⟨%es0, HS0⟩, ⟨%es1, HS1⟩, ⟨%es2, HS2⟩⟩
      isplitl [HS0 HS1 HS2 Hoth Hg]
      · isplitr [Hg]
        swap; · iexact Hg
        isplitl [HS0]
        · unfold owns; iexists _; isplitr
          swap; · iexact HS0
          ipureintro; exact View.read_writes_of_cover _ _ _ _ _ (scover0_0_C c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_1_C c _ _ _ _ _ _ _ _ _ _ _ _ _ _ _ _ _ _ _ _ _ _ _ _ _ _ _ _)
        isplitr [Hoth]
        swap; · iexact Hoth
        unfold owns; iexists _; isplitr
        swap; · iexact HS2
        ipureintro; exact View.read_writes_of_cover _ _ _ _ _ (scover0_2_C c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_4_C c _ _ _ _ _ _ _ _ _ _ _ _ _ _ _ _ _ _ _ _ _ _ _ _ _ _ _ _)
      unfold owns; iexists _; isplitr
      swap; · iexact H5
      ipureintro; exact View.read_writes_of_cover _ _ _ _ _ (cover0_5_C c _ _ _ _ _ _ _ _ _ _ _ _ _ _ _ _ _ _ _ _ _ _ _ _ _ _ _ _)
    · have hc1 : ¬cond0_1 (grid0.coords t) := fun h => h1 ((hcond0_1 t).mp h)
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5 t hc1) (noFlush0_5 t hc1)]
      rw [outsAt0_B V c t h0 h1 hc0 hc1]
      unfold outsB outs0_B; (try dsimp only)
      have hz : t.val ≠ 0 := by omega
      rw [PhiS_castSucc V c t, PhiS_pos V c _ _ hz]
      iintro ⟨⟨⟨HS0, HS1, HS2, Hoth⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ hc0 hc1 (iblk0 V c 0 t) (iblk0 V c 1 t) (iblk0 V c 2 t) (iblk0 V c 3 t) _ _ _).2.2.2.2.2 _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      isplitl [HS2]; · iexact HS2
      iintro ⟨H0, H1, H2, H3, ⟨%e4, H4⟩, H5, ⟨%es0, HS0⟩, ⟨%es1, HS1⟩, ⟨%es2, HS2⟩⟩
      isplitl [HS0 HS1 HS2 Hoth Hg]
      · isplitr [Hg]
        swap; · iexact Hg
        isplitl [HS0]
        · unfold owns; iexists _; isplitr
          swap; · iexact HS0
          ipureintro; exact View.read_writes_of_cover _ _ _ _ _ (scover0_0_B c _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_1_B c _ _ _ _ _ _ _ _ _ _ _ _ _ _ _ _ _ _ _ _ _ _ _ _ _ _ _ _)
        isplitr [Hoth]
        swap; · iexact Hoth
        unfold owns; iexists _; isplitr
        swap; · iexact HS2
        ipureintro; exact View.read_writes_of_cover _ _ _ _ _ (scover0_2_B c _ _ _ _ _ _ _ _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_4_B c _ _ _ _ _ _ _ _ _ _ _ _ _ _ _ _ _ _ _ _ _ _ _ _ _ _ _ _)
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the standing invariant back: the scratch contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HS1, HS2, Hoth⟩, Hg⟩
  isplitr [Hg]
  swap; · iexact Hg
  isplitl [HS0]; · iexists _; iexact HS0
  isplitl [HS1]; · iexists _; iexact HS1
  isplitl [HS2]; · iexists _; iexact HS2
  iexact Hoth

end Cert.KernelIdeal.Hand

end
-- ==== Proof.ScoresRegion.lean ====
/-
  The second kernel call (the scores kernel) as a pipeline region, at any float instance.

  The call has a grid of a single point and two windows, each the whole 64 × 2048 array: window 0 is the
  array of logits, read; window 1 is the array of scores, written. The body loads the logits block, forms
  one pure value from it (the payload: subtract the row maximum, exponentiate, divide by the row sum), and
  stores that value over the whole output block. So after the body the input block is as it was and the
  output block is the payload of the input block. This file states that as the body's triple, packages it
  as the region's proof data at a parameter `V` (the buffer contents when the region is entered), and
  derives the body obligation the pipeline rule asks for.
-/
import proofs.«123799_j49039936586174_2_alg».proof.Proof.Gen.KernelIdeal.Launch
import proofs.«123799_j49039936586174_2_alg».proof.Proof.Gen.KernelIdeal.Skeleton
import proofs.«123799_j49039936586174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point, fetched there or not, for any
    proof data whose array is `V`'s (`hA`) and whose body leaves the block in place (`hafter`): unfetched, the
    block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The one rectangle the body loads and stores: the whole block. -/
abbrev r1_0 : Rect S64x2048 := Rect.unit (s := S64x2048) ![0, 0] S64x2048.size inb_S64x2048_S64x2048_0_0

/-! ## What the body leaves in the output window's buffer -/

/-- Window 1's staging buffer after the body, from the input window's block: its one store as a piece
    (the payload is the skeleton's). -/
def out1_1 (x0 : Vec F S64x2048 .f32) : Vec F S64x2048 .f32 :=
  View.canon [⟨r1_0, k1_pay1 (View.ld x0 r1_0)⟩]

/-- The one store tiles the buffer (checked by evaluation), so it covers it. -/
theorem cover1_1 (p0 : Vec F S64x2048 .f32) (y : S64x2048.Idx) :
    ∃ pc ∈ ([⟨r1_0, p0⟩] : List (View.Piece (Elt F) S64x2048 .f32)), y ∈ pc.1.set :=
  View.cover_of_tiled [⟨r1_0, p0⟩] S64x2048.size (by rfl) y

/-! ## The body's triple -/

set_option maxHeartbeats 1000000 in
/-- The kernel body on whole staging memrefs, the input's at read contents `x0` and the output's at anything, runs
    to the continuation holding the input's as it was and the output's at `out1_1 x0`: the printed function is
    its skeleton, which is run operation by operation. -/
theorem sound_kernel1 (c : Dev nD) (E : Set ℕ) (i : grid1.Coords) (arg1 : Memref sig .tc .vmem S64x2048 .f32) (harg1 : arg1.IsWhole) (arg2 : Memref sig .tc .vmem S64x2048 .f32) (harg2 : arg2.IsWhole)
    (x0 : Vec F S64x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__scores_kernel i arg1 harg1 arg2 harg2) K := by
  simp only [cc1__scores_kernel_eq_skeleton]; unfold cc1__scores_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-! ## The pipeline's proof data -/

/-- The proof data of this pipeline on core `c`: the arrays as the region finds them (`V`); after the body at
    point `t` the input's buffer at its block and the output's at `out1_1` of the input block; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block (`before1_0`), so `sound_kernel1` applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KernelRun.lean ====
/-
  The whole program's run: a transposition of `u` on the host, the fused kernel, the scores kernel, a reshape of the
  scores on the host.  The buffer contents at each of the five boundaries are a fold from the launch memory: a host
  stretch applies its operations, a kernel region replaces its windows' arrays by what its write-backs leave.  Every
  weakly fair execution terminates, and the final memory holds every unscoped buffer at the last boundary's
  contents.  The frame claim (the arguments end as launched) and the values of the two results are read off that.
-/
import proofs.«123799_j49039936586174_2_alg».proof.Proof.FusedFrame
import proofs.«123799_j49039936586174_2_alg».proof.Proof.ScoresRegion
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the host transposition: what the fused kernel is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the fused kernel: its arrays at what its write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the scores kernel. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the host reshape: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two kernels as segments -/

set_option backward.isDefEq.respectTransparency.types false in
/-- Pallas call 0 as a segment of the run: entered with every unscoped buffer at `W1`, left with them at `W2`.
    Its arrays are split out of the unscoped buffers on entry and put back, at what the write-backs leave, on exit; the
    generator register goes into the region's invariant and comes back out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment of the run: entered with every unscoped buffer at `W2`, left with them at `W3`.
    Its arrays are split out of the unscoped buffers on entry and put back, at what the write-backs leave, on exit; the
    generator register goes into the region's invariant and comes back out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R (F := F) c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KernelFrame.lean ====
/-
  The frame: every argument array ends holding its launch contents.  Each is read back through the fold of the
  buffer contents from the end of the program to its launch: the two host operations write only their own results,
  the scores kernel does not touch an argument, and the fused kernel reads three of them through input windows (an
  input window's array is never written back) and does not touch the fourth.
-/
import proofs.«123799_j49039936586174_2_alg».proof.Proof.KernelRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host operation writes it, the first kernel only reads it through an input window. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c : Thread nD τ).loc main_arg0) := rfl

/-- `main_arg1` ends as launched: no host operation writes it, the first kernel only reads it through an input window. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))
    _ = W2 m ρ c (Proc.devRef .tc main_arg1) := W3_of_ne m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c : Thread nD τ).loc main_arg1) := rfl

/-- `main_arg2` ends as launched: no host operation writes it, the first kernel only reads it through an input window. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c : Thread nD τ).loc main_arg2) := rfl

/-- `main_arg3` ends as launched: no host operation writes it, no kernel touches it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_forall_not_mem _ _ (List.forall_iff_forall_mem.mp (by
      simp only [hostOps2, List.Forall, StableHlo.nullary_writes, StableHlo.unary_writes, StableHlo.binary_writes, StableHlo.reshape_writes, Finset.mem_singleton]
      repeat' apply And.intro
      all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
      simp only [hostOps0, List.Forall, StableHlo.nullary_writes, StableHlo.unary_writes, StableHlo.binary_writes, StableHlo.reshape_writes, Finset.mem_singleton]
      repeat' apply And.intro
      all_goals exact StableHlo.devRef_ne_of_ne (by decide)))
    _ = m ((c : Thread nD τ).loc main_arg3) := rfl

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.FusedBlocks.lean ====
/-
  The first kernel call's windows, read at an index.

  The grid is 8 × 4 and point `t` has coordinates `(t / 4, t % 4)`: a block of 8 batch rows and one of the four
  sequence tiles of 512 positions. A block's coordinate on an axis is always its block index on that axis times
  the block's extent plus the coordinate inside the block. So:

  * the input window over the [64, 2048, 512] array, in blocks [8, 512, 512] at block index `(t/4, t%4, 0)`,
    reads at `(rr, k, d)` the array at `(8·(t/4) + rr, 512·(t%4) + k, d)`;
  * the three whole-array input windows (block index zero) read the arrays themselves;
  * the logits output window over [64, 2048], in blocks [8, 512] at `(t/4, t%4)`, is written back at every
    point, and every index `(i₀, i₁)` lies in the block of the point `4·(i₀/8) + i₁/512`;
  * the context output window over [64, 512], in blocks [8, 512] at `(t/4, 0)`, is written back at the points
    `t % 4 = 3`, and every index `(i₀, i₁)` lies in the block of the point `4·(i₀/8) + 3`.
-/
import proofs.«123799_j49039936586174_2_alg».proof.Proof.FusedRuns
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The windows' block indices, decided once over the grid -/

/-- The input window over the [64, 2048, 512] array sits at block `(t / 4, t % 4, 0)`. -/
theorem idx0_0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The three whole-array input windows sit at block zero. -/
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 1) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)

/-- The logits output window sits at block `(t / 4, t % 4)`. -/
theorem idx0_4 : ∀ t : Fin cfg0.N, win0_4.index t (0 : Fin 2) = t.val / 4 ∧ win0_4.index t (1 : Fin 2) = t.val % 4 :=
  (by decide +kernel : ∀ t : Fin grid0.N, _)

/-- The context output window sits at block `(t / 4, 0)`. -/
theorem idx0_5 : ∀ t : Fin cfg0.N, win0_5.index t (0 : Fin 2) = t.val / 4 ∧ win0_5.index t (1 : Fin 2) = 0 :=
  (by decide +kernel : ∀ t : Fin grid0.N, _)

/-! ## The input blocks, read at an index -/

/-- The input block of point `t` at `(rr, k, d)` is the array at row `8·(t/4) + rr`, position `512·(t%4) + k`,
    feature `d`. -/
theorem iblk0_0_apply_of (c : Dev nD) (t : Fin cfg0.N) (rr : Fin 8) (k : Fin 512) (d : Fin 512) (r : Fin 64) (s : Fin 2048)
    (hr : r.val = 8 * (t.val / 4) + rr.val) (hs : s.val = 512 * (t.val % 4) + k.val) :
    (iblk0 V c 0 t : Vec F S8x512x512 .f32) (ix3 rr k d) = V c main_arg0 (ix3 r s d) := by
  obtain ⟨e0, e1, e2⟩ := idx0_0 t
  unfold iblk0
  rw [View.read_apply]
  show V c main_arg0 (((cfg0.win 0).blk t).view.emb (ix3 rr k d)) = V c main_arg0 (ix3 r s d)
  refine congrArg (V c main_arg0) (funext fun a => Fin.ext ?_)
  match a with
  | ⟨0, _⟩ => show win0_0.index t (0 : Fin 3) * 8 + 1 * rr.val = r.val; omega
  | ⟨1, _⟩ => show win0_0.index t (1 : Fin 3) * 512 + 1 * k.val = s.val; omega
  | ⟨2, _⟩ => show win0_0.index t (2 : Fin 3) * 512 + 1 * d.val = d.val; omega

/-- The same with the array's coordinates written out. -/
theorem iblk0_0_apply (c : Dev nD) (t : Fin cfg0.N) (rr : Fin 8) (k : Fin 512) (d : Fin 512) :
    (iblk0 V c 0 t : Vec F S8x512x512 .f32) (ix3 rr k d)
      = V c main_arg0 (ix3 (⟨8 * (t.val / 4) + rr.val, by have := t.isLt; have : cfg0.N = 32 := N_0; have := rr.isLt; omega⟩ : Fin 64)
          (⟨512 * (t.val % 4) + k.val, by have := k.isLt; omega⟩ : Fin 2048) d) :=
  iblk0_0_apply_of V c t rr k d _ _ rfl rfl

/-- The weights' block is the whole [512, 256] array. -/
theorem iblk0_1_eq (c : Dev nD) (t : Fin cfg0.N) : (iblk0 V c 1 t : Vec F S512x256 .f32) = V c main_arg1 := by
  obtain ⟨e0, e1⟩ := idx0_1 t
  funext y
  unfold iblk0
  rw [View.read_apply]
  show V c main_arg1 (((cfg0.win 1).blk t).view.emb y) = V c main_arg1 y
  refine congrArg (V c main_arg1) (funext fun a => Fin.ext ?_)
  match a with
  | ⟨0, _⟩ => show win0_1.index t (0 : Fin 2) * 512 + 1 * (y 0).val = (y 0).val; omega
  | ⟨1, _⟩ => show win0_1.index t (1 : Fin 2) * 256 + 1 * (y 1).val = (y 1).val; omega

/-- The bias's block is the whole [256] array. -/
theorem iblk0_2_eq (c : Dev nD) (t : Fin cfg0.N) : (iblk0 V c 2 t : Vec F S256 .f32) = V c main_arg2 := by
  have e0 := idx0_2 t
  funext y
  unfold iblk0
  rw [View.read_apply]
  show V c main_arg2 (((cfg0.win 2).blk t).view.emb y) = V c main_arg2 y
  refine congrArg (V c main_arg2) (funext fun a => Fin.ext ?_)
  match a with
  | ⟨0, _⟩ => show win0_2.index t (0 : Fin 1) * 256 + 1 * (y 0).val = (y 0).val; omega

/-- The transposed projection vector's block is the whole [1, 256] array. -/
theorem iblk0_3_eq (c : Dev nD) (t : Fin cfg0.N) : (iblk0 V c 3 t : Vec F S1x256 .f32) = V c main_v0 := by
  obtain ⟨e0, e1⟩ := idx0_3 t
  funext y
  unfold iblk0
  rw [View.read_apply]
  show V c main_v0 (((cfg0.win 3).blk t).view.emb y) = V c main_v0 y
  refine congrArg (V c main_v0) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-! ## The logits output window: which indices a point's block holds, and that the blocks cover the array -/

/-- An index of the [64, 2048] array is in point `t`'s block iff its row is among the 8 rows of row block `t / 4`
    and its position among the 512 of tile `t % 4`. -/
theorem mem_blk4 (t : Fin cfg0.N) (i : S64x2048.Idx) :
    i ∈ ((cfg0.win 4).blk t).view.set ↔ (8 * (t.val / 4) ≤ (i 0).val ∧ (i 0).val < 8 * (t.val / 4) + 8)
      ∧ (512 * (t.val % 4) ≤ (i 1).val ∧ (i 1).val < 512 * (t.val % 4) + 512) := by
  obtain ⟨e0, e1⟩ := idx0_4 t
  show i ∈ ((View.whole main_v1_0).slice (win0_4.rect t)).set ↔ _
  rw [View.set_slice_whole, Rect.mem_set_unit]
  constructor
  · intro h
    have b0 : win0_4.index t (0 : Fin 2) * 8 ≤ (i 0).val ∧ (i 0).val < win0_4.index t (0 : Fin 2) * 8 + 8 := h 0
    have b1 : win0_4.index t (1 : Fin 2) * 512 ≤ (i 1).val ∧ (i 1).val < win0_4.index t (1 : Fin 2) * 512 + 512 := h 1
    omega
  · intro h a
    match a with
    | ⟨0, _⟩ => show win0_4.index t (0 : Fin 2) * 8 ≤ (i 0).val ∧ (i 0).val < win0_4.index t (0 : Fin 2) * 8 + 8; omega
    | ⟨1, _⟩ => show win0_4.index t (1 : Fin 2) * 512 ≤ (i 1).val ∧ (i 1).val < win0_4.index t (1 : Fin 2) * 512 + 512; omega

/-- Every index of the [64, 2048] array is in the block of a point that writes back: the point
    `4·(i₀ / 8) + i₁ / 512`. -/
theorem cover4 (i : S64x2048.Idx) :
    ∃ t : Fin cfg0.N, (cfg0.win 4).flush t = true ∧ i ∈ ((cfg0.win 4).blk t).view.set := by
  have hN : cfg0.N = 32 := N_0
  have h0 : (i 0).val < 64 := (i 0).isLt
  have h1 : (i 1).val < 2048 := (i 1).isLt
  refine ⟨⟨4 * ((i 0).val / 8) + (i 1).val / 512, by omega⟩, flush0_4 _, ?_⟩
  rw [mem_blk4]
  dsimp only
  omega

/-- The array index of the block's `(rr, k)` at point `t`. -/
theorem emb_blk4_of (t : Fin cfg0.N) (rr : Fin 8) (k : Fin 512) (r : Fin 64) (s : Fin 2048)
    (hr : r.val = 8 * (t.val / 4) + rr.val) (hs : s.val = 512 * (t.val % 4) + k.val) :
    ((cfg0.win 4).blk t).view.emb (ix2 rr k) = (ix2 r s : S64x2048.Idx) := by
  obtain ⟨e0, e1⟩ := idx0_4 t
  funext a
  apply Fin.ext
  match a with
  | ⟨0, _⟩ => show win0_4.index t (0 : Fin 2) * 8 + 1 * rr.val = r.val; omega
  | ⟨1, _⟩ => show win0_4.index t (1 : Fin 2) * 512 + 1 * k.val = s.val; omega

/-- The same with the coordinates written out. -/
theorem emb_blk4 (t : Fin cfg0.N) (rr : Fin 8) (k : Fin 512) :
    ((cfg0.win 4).blk t).view.emb (ix2 rr k)
      = (ix2 (⟨8 * (t.val / 4) + rr.val, by have := t.isLt; have : cfg0.N = 32 := N_0; have := rr.isLt; omega⟩ : Fin 64)
          (⟨512 * (t.val % 4) + k.val, by have := k.isLt; omega⟩ : Fin 2048) : S64x2048.Idx) :=
  emb_blk4_of t rr k _ _ rfl rfl

/-! ## The context output window -/

/-- An index of the [64, 512] array is in point `t`'s block iff its row is among the 8 rows of row block `t / 4`
    (the block spans every feature). -/
theorem mem_blk5 (t : Fin cfg0.N) (i : S64x512.Idx) :
    i ∈ ((cfg0.win 5).blk t).view.set ↔ 8 * (t.val / 4) ≤ (i 0).val ∧ (i 0).val < 8 * (t.val / 4) + 8 := by
  obtain ⟨e0, e1⟩ := idx0_5 t
  have h1 : (i 1).val < 512 := (i 1).isLt
  show i ∈ ((View.whole main_v1_1).slice (win0_5.rect t)).set ↔ _
  rw [View.set_slice_whole, Rect.mem_set_unit]
  constructor
  · intro h
    have b0 : win0_5.index t (0 : Fin 2) * 8 ≤ (i 0).val ∧ (i 0).val < win0_5.index t (0 : Fin 2) * 8 + 8 := h 0
    omega
  · intro h a
    match a with
    | ⟨0, _⟩ => show win0_5.index t (0 : Fin 2) * 8 ≤ (i 0).val ∧ (i 0).val < win0_5.index t (0 : Fin 2) * 8 + 8; omega
    | ⟨1, _⟩ => show win0_5.index t (1 : Fin 2) * 512 ≤ (i 1).val ∧ (i 1).val < win0_5.index t (1 : Fin 2) * 512 + 512; omega

/-- Every index of the [64, 512] array is in the block of a point that writes back: the last tile's point of its
    row block, `4·(i₀ / 8) + 3`. -/
theorem cover5 (i : S64x512.Idx) :
    ∃ t : Fin cfg0.N, (cfg0.win 5).flush t = true ∧ i ∈ ((cfg0.win 5).blk t).view.set := by
  have hN : cfg0.N = 32 := N_0
  have h0 : (i 0).val < 64 := (i 0).isLt
  refine ⟨⟨4 * ((i 0).val / 8) + 3, by omega⟩, (flush0_5 _).mpr (by dsimp only; omega), ?_⟩
  rw [mem_blk5]
  dsimp only
  omega

/-- The array index of the block's `(rr, d)` at point `t`. -/
theorem emb_blk5_of (t : Fin cfg0.N) (rr : Fin 8) (d : Fin 512) (r : Fin 64)
    (hr : r.val = 8 * (t.val / 4) + rr.val) :
    ((cfg0.win 5).blk t).view.emb (ix2 rr d) = (ix2 r d : S64x512.Idx) := by
  obtain ⟨e0, e1⟩ := idx0_5 t
  funext a
  apply Fin.ext
  match a with
  | ⟨0, _⟩ => show win0_5.index t (0 : Fin 2) * 8 + 1 * rr.val = r.val; omega
  | ⟨1, _⟩ => show win0_5.index t (1 : Fin 2) * 512 + 1 * d.val = d.val; omega

/-- The same with the coordinates written out. -/
theorem emb_blk5 (t : Fin cfg0.N) (rr : Fin 8) (d : Fin 512) :
    ((cfg0.win 5).blk t).view.emb (ix2 rr d)
      = (ix2 (⟨8 * (t.val / 4) + rr.val, by have := t.isLt; have : cfg0.N = 32 := N_0; have := rr.isLt; omega⟩ : Fin 64) d : S64x512.Idx) :=
  emb_blk5_of t rr d _ rfl

end Cert.KernelIdeal.Hand

end
-- ==== Proof.FusedFinal.lean ====
/-
  The arrays the two kernel calls leave, from what each grid point leaves in its output blocks.

  An output array ends holding a function `G` of its index as soon as (a) every point that writes its block back
  writes the block of `G` at that point, and (b) every index of the array lies in the block of some point that
  writes back. For the first call: the logits array [64, 2048] is written back at every one of the 32 points,
  block `(t/4, t%4)` of 8 rows × 512 positions; the context array [64, 512] only at the last tile of each row
  block (`t % 4 = 3`), block `(t/4, 0)` of 8 rows × 512 features. For the second call there is one point and its
  blocks are the whole arrays, so the scores array ends holding what the body leaves from the whole logits array.
-/
import proofs.«123799_j49039936586174_2_alg».proof.Proof.FusedFrame
import proofs.«123799_j49039936586174_2_alg».proof.Proof.FusedBlocks
import proofs.«123799_j49039936586174_2_alg».proof.Proof.ScoresRegion
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The first call: the logits array -/

/-- What point `t` writes back into the logits array is block `t` of `G4`, when the point's buffer agrees with
    `G4` entry by entry at the block's place in the array. -/
theorem flushed4_eq (c : Dev nD) (G4 : S64x2048.Idx → Elt F .f32)
    (h : ∀ (t : Fin cfg0.N) (rr : Fin 8) (k : Fin 512) (r : Fin 64) (s : Fin 2048), r.val = 8 * (t.val / 4) + rr.val →
      s.val = 512 * (t.val % 4) + k.val → (outsAt0 V c t.val t.isLt).o4 (ix2 rr k) = G4 (ix2 r s))
    (t : Fin cfg0.N) : (dat0 V c).flushed 4 t = ((cfg0.win 4).blk t).view.read (Elt F) G4 := by
  show (cfg0.win 4).cut (grid0.coords t) ((dat0 V c).after 4 t) = _
  rw [after0_4]
  funext y
  obtain ⟨rr, k, rfl⟩ : ∃ (rr : Fin 8) (k : Fin 512), y = ix2 rr k := ⟨y 0, y 1, eq_ix2 y⟩
  rw [View.read_apply]
  show (outsAt0 V c t.val t.isLt).o4 (ix2 rr k) = G4 (((cfg0.win 4).blk t).view.emb (ix2 rr k))
  rw [emb_blk4 t rr k]
  exact h t rr k _ _ rfl rfl

/-- So the logits array ends holding `G4`. -/
theorem final4 (c : Dev nD) (G4 : S64x2048.Idx → Elt F .f32)
    (h : ∀ (t : Fin cfg0.N) (rr : Fin 8) (k : Fin 512) (r : Fin 64) (s : Fin 2048), r.val = 8 * (t.val / 4) + rr.val →
      s.val = 512 * (t.val % 4) + k.val → (outsAt0 V c t.val t.isLt).o4 (ix2 rr k) = G4 (ix2 r s)) :
    (dat0 V c).arrAt 4 cfg0.N = G4 :=
  (dat0 V c).arrAt_eq_of_cover 4 G4 (fun t _ => flushed4_eq V c G4 h t) cover4

/-! ## The first call: the context array -/

/-- What a last-tile point `t` writes back into the context array is block `t` of `G5`, when the point's buffer
    agrees with `G5` entry by entry at the block's place in the array. -/
theorem flushed5_eq (c : Dev nD) (G5 : S64x512.Idx → Elt F .f32)
    (h : ∀ (t : Fin cfg0.N), t.val % 4 = 3 → ∀ (rr : Fin 8) (d : Fin 512) (r : Fin 64), r.val = 8 * (t.val / 4) + rr.val →
      (outsAt0 V c t.val t.isLt).o5 (ix2 rr d) = G5 (ix2 r d))
    (t : Fin cfg0.N) (hf : (cfg0.win 5).flush t = true) :
    (dat0 V c).flushed 5 t = ((cfg0.win 5).blk t).view.read (Elt F) G5 := by
  have h3 : t.val % 4 = 3 := (flush0_5 t).mp hf
  show (cfg0.win 5).cut (grid0.coords t) ((dat0 V c).after 5 t) = _
  rw [after0_5]
  funext y
  obtain ⟨rr, d, rfl⟩ : ∃ (rr : Fin 8) (d : Fin 512), y = ix2 rr d := ⟨y 0, y 1, eq_ix2 y⟩
  rw [View.read_apply]
  show (outsAt0 V c t.val t.isLt).o5 (ix2 rr d) = G5 (((cfg0.win 5).blk t).view.emb (ix2 rr d))
  rw [emb_blk5 t rr d]
  exact h t h3 rr d _ rfl

/-- So the context array ends holding `G5`. -/
theorem final5 (c : Dev nD) (G5 : S64x512.Idx → Elt F .f32)
    (h : ∀ (t : Fin cfg0.N), t.val % 4 = 3 → ∀ (rr : Fin 8) (d : Fin 512) (r : Fin 64), r.val = 8 * (t.val / 4) + rr.val →
      (outsAt0 V c t.val t.isLt).o5 (ix2 rr d) = G5 (ix2 r d)) :
    (dat0 V c).arrAt 5 cfg0.N = G5 :=
  (dat0 V c).arrAt_eq_of_cover 5 G5 (fun t hf => flushed5_eq V c G5 h t hf) cover5

/-! ## The second call: the scores array -/

/-- Both windows of the second call sit at block zero at its one point. -/
theorem idx1_0 : ∀ t : Fin cfg1.N, win1_0.index t (0 : Fin 2) = 0 ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)

/-- The logits block the second call loads is the whole logits array. -/
theorem iblk1_0_eq (c : Dev nD) (t : Fin cfg1.N) : (iblk1 V c 0 t : Vec F S64x2048 .f32) = V c main_v1_0 := by
  obtain ⟨e0, e1⟩ := idx1_0 t
  funext y
  unfold iblk1
  rw [View.read_apply]
  show V c main_v1_0 (((cfg1.win 0).blk t).view.emb y) = V c main_v1_0 y
  refine congrArg (V c main_v1_0) (funext fun a => Fin.ext ?_)
  match a with
  | ⟨0, _⟩ => show win1_0.index t (0 : Fin 2) * 64 + 1 * (y 0).val = (y 0).val; omega
  | ⟨1, _⟩ => show win1_0.index t (1 : Fin 2) * 2048 + 1 * (y 1).val = (y 1).val; omega

/-- The scores block of a whole-array function is the function. -/
theorem read_blk1_1 (t : Fin cfg1.N) (G : S64x2048.Idx → Elt F .f32) :
    (((cfg1.win 1).blk t).view.read (Elt F) G : Vec F S64x2048 .f32) = G := by
  obtain ⟨e0, e1⟩ := idx1_1 t
  funext y
  rw [View.read_apply]
  show G (((cfg1.win 1).blk t).view.emb y) = G y
  refine congrArg G (funext fun a => Fin.ext ?_)
  match a with
  | ⟨0, _⟩ => show win1_1.index t (0 : Fin 2) * 64 + 1 * (y 0).val = (y 0).val; omega
  | ⟨1, _⟩ => show win1_1.index t (1 : Fin 2) * 2048 + 1 * (y 1).val = (y 1).val; omega

/-- What the one point writes back is the block of what the body leaves from the whole logits array. -/
theorem flushed1_eq (c : Dev nD) (t : Fin cfg1.N) :
    (dat1 V c).flushed 1 t = ((cfg1.win 1).blk t).view.read (Elt F) (out1_1 (V c main_v1_0)) := by
  show (cfg1.win 1).cut (grid1.coords t) ((dat1 V c).after 1 t) = _
  rw [after1_1, iblk1_0_eq]
  exact (read_blk1_1 t (out1_1 (V c main_v1_0))).symm

/-- Every index of the scores array is in the one point's block. -/
theorem cover1 (i : S64x2048.Idx) :
    ∃ t : Fin cfg1.N, (cfg1.win 1).flush t = true ∧ i ∈ ((cfg1.win 1).blk t).view.set := by
  obtain ⟨e0, e1⟩ := idx1_1 t1_0
  have h0 : (i 0).val < 64 := (i 0).isLt
  have h1 : (i 1).val < 2048 := (i 1).isLt
  refine ⟨t1_0, flush1_1 _, ?_⟩
  show i ∈ ((View.whole main_v2).slice (win1_1.rect t1_0)).set
  rw [View.set_slice_whole, Rect.mem_set_unit]
  intro a
  match a with
  | ⟨0, _⟩ => show win1_1.index t1_0 (0 : Fin 2) * 64 ≤ (i 0).val ∧ (i 0).val < win1_1.index t1_0 (0 : Fin 2) * 64 + 64; omega
  | ⟨1, _⟩ => show win1_1.index t1_0 (1 : Fin 2) * 2048 ≤ (i 1).val ∧ (i 1).val < win1_1.index t1_0 (1 : Fin 2) * 2048 + 2048; omega

/-- So the scores array ends holding what the body leaves from the whole logits array. -/
theorem final_scores (c : Dev nD) : (dat1 V c).arrAt 1 cfg1.N = out1_1 (V c main_v1_0) :=
  (dat1 V c).arrAt_eq_of_cover 1 (out1_1 (V c main_v1_0)) (fun t _ => flushed1_eq V c t) cover1

end Cert.KernelIdeal.Hand

end
-- ==== Proof.FusedPieces.lean ====
/-
  What each case of the fused kernel's body leaves behind, as VALUES: the pieces its symbolic run found, read back.
  At every tile the logits window gets the tile's logits; the running maximum becomes max(old, tile maximum); the
  running denominator and the running weighted sum are rescaled by exp(old maximum − new maximum) and the tile's
  contributions are added.  At the first tile "old" is the reset value (a finite very negative number, zero,
  zero); at the last tile the context window gets weighted sum / denominator.  Stated over the body's payload
  functions, for any float instance.
-/
import proofs.«123799_j49039936586174_2_alg».proof.Proof.FusedFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## Case B -/

/-- The logits window's buffer holds the tile's logits. -/
theorem o4_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i) (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    (outs0_B c i arg2 harg2 arg3 harg3 arg4 harg4 arg5 harg5 arg6 harg6 arg7 harg7 arg8 harg8 arg9 harg9 arg10 harg10 hc0 hc1 x0 x1 x2 x3 xs0 xs1 xs2).o4 = k0_pay5 x0 x1 x2 x3 := by
  unfold outs0_B
  dsimp only
  rw [View.read_writes_eq_canon _ _ _ (cover0_4_B c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]
/-- The running maximum moves to the larger of the old one and the tile's maximum. -/
theorem s0_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i) (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    (outs0_B c i arg2 harg2 arg3 harg3 arg4 harg4 arg5 harg5 arg6 harg6 arg7 harg7 arg8 harg8 arg9 harg9 arg10 harg10 hc0 hc1 x0 x1 x2 x3 xs0 xs1 xs2).s0 = k0_pay3 (k0_pay9 x0 x1 x2 x3 xs0) := by
  unfold outs0_B
  dsimp only
  rw [View.read_writes_eq_canon _ _ _ (scover0_0_B c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]
/-- The running denominator is rescaled and the tile's weights are added. -/
theorem s1_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i) (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    (outs0_B c i arg2 harg2 arg3 harg3 arg4 harg4 arg5 harg5 arg6 harg6 arg7 harg7 arg8 harg8 arg9 harg9 arg10 harg10 hc0 hc1 x0 x1 x2 x3 xs0 xs1 xs2).s1 = (k0_pay1 (k0_pay10 x0 x1 x2 x3 xs0 xs0) (k0_pay12 x0 x1 x2 x3 xs0) xs1) := by
  unfold outs0_B
  dsimp only
  rw [View.read_writes_eq_canon _ _ _ (scover0_1_B c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]
/-- The running weighted sum is rescaled and the tile's weighted inputs are added. -/
theorem s2_B (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : ¬cond0_1 i) (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    (outs0_B c i arg2 harg2 arg3 harg3 arg4 harg4 arg5 harg5 arg6 harg6 arg7 harg7 arg8 harg8 arg9 harg9 arg10 harg10 hc0 hc1 x0 x1 x2 x3 xs0 xs1 xs2).s2 = (k0_pay2 x0 (k0_pay10 x0 x1 x2 x3 xs0 xs0) (k0_pay11 x0 x1 x2 x3 xs0) xs2) := by
  unfold outs0_B
  dsimp only
  rw [View.read_writes_eq_canon _ _ _ (scover0_2_B c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]

/-! ## Case C -/

/-- The logits window's buffer holds the tile's logits. -/
theorem o4_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i) (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    (outs0_C c i arg2 harg2 arg3 harg3 arg4 harg4 arg5 harg5 arg6 harg6 arg7 harg7 arg8 harg8 arg9 harg9 arg10 harg10 hc0 hc1 x0 x1 x2 x3 xs0 xs1 xs2).o4 = k0_pay5 x0 x1 x2 x3 := by
  unfold outs0_C
  dsimp only
  rw [View.read_writes_eq_canon _ _ _ (cover0_4_C c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]
/-- The running maximum moves to the larger of the old one and the tile's maximum. -/
theorem s0_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i) (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    (outs0_C c i arg2 harg2 arg3 harg3 arg4 harg4 arg5 harg5 arg6 harg6 arg7 harg7 arg8 harg8 arg9 harg9 arg10 harg10 hc0 hc1 x0 x1 x2 x3 xs0 xs1 xs2).s0 = k0_pay3 (k0_pay9 x0 x1 x2 x3 xs0) := by
  unfold outs0_C
  dsimp only
  rw [View.read_writes_eq_canon _ _ _ (scover0_0_C c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]
/-- The running denominator is rescaled and the tile's weights are added. -/
theorem s1_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i) (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    (outs0_C c i arg2 harg2 arg3 harg3 arg4 harg4 arg5 harg5 arg6 harg6 arg7 harg7 arg8 harg8 arg9 harg9 arg10 harg10 hc0 hc1 x0 x1 x2 x3 xs0 xs1 xs2).s1 = (k0_pay1 (k0_pay10 x0 x1 x2 x3 xs0 xs0) (k0_pay12 x0 x1 x2 x3 xs0) xs1) := by
  unfold outs0_C
  dsimp only
  rw [View.read_writes_eq_canon _ _ _ (scover0_1_C c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]
/-- The running weighted sum is rescaled and the tile's weighted inputs are added. -/
theorem s2_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i) (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    (outs0_C c i arg2 harg2 arg3 harg3 arg4 harg4 arg5 harg5 arg6 harg6 arg7 harg7 arg8 harg8 arg9 harg9 arg10 harg10 hc0 hc1 x0 x1 x2 x3 xs0 xs1 xs2).s2 = (k0_pay2 x0 (k0_pay10 x0 x1 x2 x3 xs0 xs0) (k0_pay11 x0 x1 x2 x3 xs0) xs2) := by
  unfold outs0_C
  dsimp only
  rw [View.read_writes_eq_canon _ _ _ (scover0_2_C c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]
/-- The context window's buffer holds the weighted sum divided by the denominator, both as just updated. -/
theorem o5_C (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : ¬cond0_0 i) (hc1 : cond0_1 i) (x0 : Vec F S8x512x512 .f32) (x1 : Vec F S512x256 .f32) (x2 : Vec F S256 .f32) (x3 : Vec F S1x256 .f32) (xs0 : Vec F S8x1 .f32) (xs1 : Vec F S8x1 .f32) (xs2 : Vec F S8x512 .f32) :
    (outs0_C c i arg2 harg2 arg3 harg3 arg4 harg4 arg5 harg5 arg6 harg6 arg7 harg7 arg8 harg8 arg9 harg9 arg10 harg10 hc0 hc1 x0 x1 x2 x3 xs0 xs1 xs2).o5 = k0_pay4 (k0_pay2 x0 (k0_pay10 x0 x1 x2 x3 xs0 xs0) (k0_pay11 x0 x1 x2 x3 xs0) xs2) (k0_pay1 (k0_pay10 x0 x1 x2 x3 xs0 xs0) (k0_pay12 x0 x1 x2 x3 xs0) xs1) := by
  unfold outs0_C
  dsimp only
  rw [View.read_writes_eq_canon _ _ _ (cover0_5_C c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]

/-! ## Case A -/

/-- The logits window's buffer holds the tile's logits. -/
theorem o4_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i) (x0 : Vec F S8x512x512 .f32) (x1 : Vec F S512x256 .f32) (x2 : Vec F S256 .f32) (x3 : Vec F S1x256 .f32) :
    (outs0_A c i arg2 harg2 arg3 harg3 arg4 harg4 arg5 harg5 arg6 harg6 arg7 harg7 arg8 harg8 arg9 harg9 arg10 harg10 hc0 hc1 x0 x1 x2 x3).o4 = k0_pay5 x0 x1 x2 x3 := by
  unfold outs0_A
  dsimp only
  rw [View.read_writes_eq_canon _ _ _ (cover0_4_A c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]
/-- The running maximum moves to the larger of the old one and the tile's maximum. -/
theorem s0_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i) (x0 : Vec F S8x512x512 .f32) (x1 : Vec F S512x256 .f32) (x2 : Vec F S256 .f32) (x3 : Vec F S1x256 .f32) :
    (outs0_A c i arg2 harg2 arg3 harg3 arg4 harg4 arg5 harg5 arg6 harg6 arg7 harg7 arg8 harg8 arg9 harg9 arg10 harg10 hc0 hc1 x0 x1 x2 x3).s0 = k0_pay3 (k0_pay9 x0 x1 x2 x3 (k0_pay6 (F := F))) := by
  unfold outs0_A
  dsimp only
  rw [View.read_writes_eq_canon _ _ _ (scover0_0_A c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]
/-- The running denominator is rescaled and the tile's weights are added. -/
theorem s1_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i) (x0 : Vec F S8x512x512 .f32) (x1 : Vec F S512x256 .f32) (x2 : Vec F S256 .f32) (x3 : Vec F S1x256 .f32) :
    (outs0_A c i arg2 harg2 arg3 harg3 arg4 harg4 arg5 harg5 arg6 harg6 arg7 harg7 arg8 harg8 arg9 harg9 arg10 harg10 hc0 hc1 x0 x1 x2 x3).s1 = (k0_pay1 (k0_pay10 x0 x1 x2 x3 (k0_pay6 (F := F)) (k0_pay6 (F := F))) (k0_pay12 x0 x1 x2 x3 (k0_pay6 (F := F))) (k0_pay7 (F := F))) := by
  unfold outs0_A
  dsimp only
  rw [View.read_writes_eq_canon _ _ _ (scover0_1_A c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]
/-- The running weighted sum is rescaled and the tile's weighted inputs are added. -/
theorem s2_A (c : Dev nD) (i : grid0.Coords) (arg2 : Memref sig .tc .vmem S8x512x512 .f32) (harg2 : arg2.IsWhole) (arg3 : Memref sig .tc .vmem S512x256 .f32) (harg3 : arg3.IsWhole) (arg4 : Memref sig .tc .vmem S256 .f32) (harg4 : arg4.IsWhole) (arg5 : Memref sig .tc .vmem S1x256 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x1 .f32) (harg8 : arg8.IsWhole) (arg9 : Memref sig .tc .vmem S8x1 .f32) (harg9 : arg9.IsWhole) (arg10 : Memref sig .tc .vmem S8x512 .f32) (harg10 : arg10.IsWhole) (hc0 : cond0_0 i) (hc1 : ¬cond0_1 i) (x0 : Vec F S8x512x512 .f32) (x1 : Vec F S512x256 .f32) (x2 : Vec F S256 .f32) (x3 : Vec F S1x256 .f32) :
    (outs0_A c i arg2 harg2 arg3 harg3 arg4 harg4 arg5 harg5 arg6 harg6 arg7 harg7 arg8 harg8 arg9 harg9 arg10 harg10 hc0 hc1 x0 x1 x2 x3).s2 = (k0_pay2 x0 (k0_pay10 x0 x1 x2 x3 (k0_pay6 (F := F)) (k0_pay6 (F := F))) (k0_pay11 x0 x1 x2 x3 (k0_pay6 (F := F))) (k0_pay8 (F := F))) := by
  unfold outs0_A
  dsimp only
  rw [View.read_writes_eq_canon _ _ _ (scover0_2_A c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  simp only [View.readAt_eq_ld, harg2.read_unread, harg3.read_unread, harg4.read_unread, harg5.read_unread, harg8.read_unread, harg9.read_unread, harg10.read_unread,
    View.ld_unit_zero (S := S8x512x512) hz3, View.ld_unit_zero (S := S512x256) hz2, View.ld_unit_zero (S := S256) hz1, View.ld_unit_zero (S := S1x256) hz2,
    View.ld_unit_zero (S := S8x1) hz2, View.ld_unit_zero (S := S8x512) hz2, View.readCov_unit_zero (S := S8x1) _ hz2, View.readCov_unit_zero (S := S8x512) _ hz2,
    View.canon_unit_zero (S := S8x1) hz2, View.canon_unit_zero (S := S8x512) hz2, View.canon_cons_unit_zero (S := S8x1) hz2, View.canon_cons_unit_zero (S := S8x512) hz2]

end Cert.KernelIdeal.Hand

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.FusedPayloads.lean ====
/-
  The first kernel's block values, read at an index over the extended reals.

  For one block of 8 batch rows and 512 sequence positions, with m(rr) the running maximum carried into the block, the
  kernel forms
      ℓ(rr,k) = Σ_p tanh(Σ_d x(rr,k,d)·W(d,p) + b(p)) · u(0,p)         (the block's logits),
      m'(rr)  = max(m(rr), max_k ℓ(rr,k))                                (the running maximum moved on),
      α(rr)   = exp(m(rr) − m'(rr))                                      (the factor rescaling what was accumulated),
      w(rr,k) = exp(ℓ(rr,k) − m'(rr))   and   Σ_k w(rr,k)                (the block's weights and their sum).
  Each statement below reads one of these values at explicit coordinates.  The logits are computed on a flattened
  [4096, ·] layout whose row 512·rr + k is the token (rr, k): the contraction over the 512 features and the sum over
  the 256 projection units are sums over the contracted coordinate, the bias and the u-row are one row spread over all
  rows, and the casts between layouts keep the row-major position.  A maximum over the positions started at −∞ is the
  supremum over them, −∞ being the bottom of the extended reals.  Changes of float format are the identity here.
-/
import proofs.«123799_j49039936586174_2_alg».proof.Proof.Gen.KernelIdeal.Skeleton
import proofs.«123799_j49039936586174_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The single-precision word of −∞ is the bottom element of the extended reals. -/
theorem negInf_eq_bot : Ideal.ofBits .f32 0xFF800000#32 = (⊥ : EReal) := by simp [Ideal.ofBits, Ideal.ieee]

/-- A fold of `max` from −∞ over a whole finite index type is the supremum over it (the supremum of a finite family is
    the fold of the join from ⊥, and the join of two extended reals is their maximum). -/
theorem fold_max_eq_sup {ι : Type} [Fintype ι] (g : ι → EReal) :
    Finset.univ.fold max (⊥ : EReal) g = Finset.univ.sup g := by
  rfl

variable (x0 : Vec Ideal S8x512x512 .f32) (x1 : Vec Ideal S512x256 .f32) (x2 : Vec Ideal S256 .f32) (x3 : Vec Ideal S1x256 .f32)

/-- Row 512·rr + k of the flattened [4096, ·] layout: the token (rr, k) of the block. -/
def row (rr : Fin 8) (k : Fin 512) : Fin 4096 := ⟨512 * rr.val + k.val, by have := rr.isLt; have := k.isLt; omega⟩

/-- The [8, 512, 512] block flattened to [4096, 512] reads, at (row (rr, k), d), the block at (rr, k, d): both are
    position (512·rr + k)·512 + d in row-major order. -/
theorem flatten_apply (x : Vec Ideal S8x512x512 .f32) (h : S8x512x512.ShapeCasts S4096x512) (rr : Fin 8) (k : Fin 512)
    (d : Fin 512) : shapeCast S4096x512 x h (ix2 (row rr k) d) = x (ix3 rr k d) :=
  shapeCast_apply x h _ _ (by
    rw [Shape.rowMajor_val_three, Shape.rowMajor_val_two]
    show (rr.val * 512 + k.val) * 512 + d.val = (512 * rr.val + k.val) * 512 + d.val
    omega)

/-- A [4096] vector re-laid as a [4096, 1] column and then as [8, 512] reads, at (rr, k), the vector at row (rr, k):
    all three are position 512·rr + k in row-major order. -/
theorem unflatten_apply (v : FVec Ideal S4096 .f32) (h1 : S4096.ShapeCasts S4096x1) (h2 : S4096x1.ShapeCasts S8x512)
    (rr : Fin 8) (k : Fin 512) : shapeCast S8x512 (shapeCast S4096x1 v h1) h2 (ix2 rr k) = v (ix1 (row rr k)) :=
  (shapeCast_apply _ h2 (ix2 rr k) (ix2 (row rr k) (0 : Fin 1)) (by
    rw [Shape.rowMajor_val_two, Shape.rowMajor_val_two]
    show (512 * rr.val + k.val) * 1 + 0 = rr.val * 512 + k.val
    omega)).trans (Cert.LibColumn.shapeCast_a_a1_apply v h1 (row rr k) (0 : Fin 1))

/-- The left operand's index at output (i, p) keeps the output's row on its non-contracted axis. -/
theorem lhs0 (j : S4096x256.Idx) (q : dot_S4096x512_S512x256_S4096x256_1_0_0_1_n_n.contr.Idx) :
    (dot_S4096x512_S512x256_S4096x256_1_0_0_1_n_n.lhsIdx j q 0).val = (j 0).val := by
  unfold DotDims.lhsIdx
  rw [dif_neg (show ¬(0 : Fin S4096x512.rank) ∈ dot_S4096x512_S512x256_S4096x256_1_0_0_1_n_n.lhsBatch by decide),
    dif_pos (show (0 : Fin S4096x512.rank) ∈ dot_S4096x512_S512x256_S4096x256_1_0_0_1_n_n.lhsNonContracting by decide)]
  rfl

/-- The right operand's index at output (i, p) keeps the output's column on its non-contracted axis. -/
theorem rhs1 (j : S4096x256.Idx) (q : dot_S4096x512_S512x256_S4096x256_1_0_0_1_n_n.contr.Idx) :
    (dot_S4096x512_S512x256_S4096x256_1_0_0_1_n_n.rhsIdx j q 1).val = (j 1).val := by
  unfold DotDims.rhsIdx
  rw [dif_neg (show ¬(1 : Fin S512x256.rank) ∈ dot_S4096x512_S512x256_S4096x256_1_0_0_1_n_n.rhsBatch by decide),
    dif_pos (show (1 : Fin S512x256.rank) ∈ dot_S4096x512_S512x256_S4096x256_1_0_0_1_n_n.rhsNonContracting by decide)]
  rfl

/-- The matrix product into a zero accumulator at (i, p): the sum over the 512 contracted coordinates of the left
    operand's row i times the right operand's column p. -/
theorem matmul_row_apply (a : FVec Ideal S4096x512 .bf16) (b : FVec Ideal S512x256 .bf16) (i : Fin 4096) (p : Fin 256) :
    matmul dot_S4096x512_S512x256_S4096x256_1_0_0_1_n_n none a b (constant (F := Ideal) S4096x256 .f32 0x00000000#32) (ix2 i p)
      = ∑ d : Fin 512, a (ix2 i d) * b (ix2 d p) := by
  show FloatOps.matmul dot_S4096x512_S512x256_S4096x256_1_0_0_1_n_n none a b (constant (F := Ideal) S4096x256 .f32 0x00000000#32) (ix2 i p) = _
  rw [Ideal.matmul_constant_zero_apply, ← Equiv.sum_comp (contrEquiv1 dot_S4096x512_S512x256_S4096x256_1_0_0_1_n_n 512 rfl rfl).symm]
  refine Finset.sum_congr rfl fun d _ => ?_
  have hk := contrEquiv1_symm_val dot_S4096x512_S512x256_S4096x256_1_0_0_1_n_n 512 rfl rfl d
  have el : dot_S4096x512_S512x256_S4096x256_1_0_0_1_n_n.lhsIdx (ix2 i p) ((contrEquiv1 dot_S4096x512_S512x256_S4096x256_1_0_0_1_n_n 512 rfl rfl).symm d) = ix2 i d :=
    funext fun c => Fin.ext (by
      match c with
      | ⟨0, _⟩ => exact lhs0 _ _
      | ⟨1, _⟩ => exact (dot_S4096x512_S512x256_S4096x256_1_0_0_1_n_n.lhsIdx_val_of_single rfl _ _).trans hk)
  have er : dot_S4096x512_S512x256_S4096x256_1_0_0_1_n_n.rhsIdx (ix2 i p) ((contrEquiv1 dot_S4096x512_S512x256_S4096x256_1_0_0_1_n_n 512 rfl rfl).symm d) = ix2 d p :=
    funext fun c => Fin.ext (by
      match c with
      | ⟨0, _⟩ => exact (dot_S4096x512_S512x256_S4096x256_1_0_0_1_n_n.rhsIdx_val_of_single rfl _ _).trans hk
      | ⟨1, _⟩ => exact rhs1 _ _)
  rw [el, er]

/-- The bias, re-laid as one row and spread over all rows, reads at (i, p) the bias at p. -/
theorem bias_row_apply (b : Vec Ideal S256 .f32) (h1 : S256.ShapeCasts S1x256) (h2 : S1x256.Broadcasts S4096x256)
    (i : Fin 4096) (p : Fin 256) : broadcastTo S4096x256 (shapeCast S1x256 b h1) h2 (ix2 i p) = b (ix1 p) :=
  (broadcastTo_1b_ab_apply _ h2 i p).trans (shapeCast_a_1a_apply b h1 (0 : Fin 1) p)

/-- The u-row spread over all rows reads at (i, p) the row at (0, p). -/
theorem u_row_apply (u : Vec Ideal S1x256 .f32) (h1 : S1x256.ShapeCasts S1x256) (h2 : S1x256.Broadcasts S4096x256)
    (i : Fin 4096) (p : Fin 256) : broadcastTo S4096x256 (shapeCast S1x256 u h1) h2 (ix2 i p) = u (ix2 (0 : Fin 1) p) :=
  (broadcastTo_1b_ab_apply _ h2 i p).trans (congrFun (shapeCast_self u h1) _)

/-- The block's logit at (rr, k): the flattened row of the token, the contraction over the features, the bias, tanh, the
    product with the u-row and the sum over the 256 projection units, read back at (rr, k). -/
theorem pay5_apply (rr : Fin 8) (k : Fin 512) :
    k0_pay5 (F := Ideal) x0 x1 x2 x3 (ix2 rr k)
      = ∑ p : Fin 256, Ideal.tanh ((∑ d : Fin 512, x0 (ix3 rr k d) * x1 (ix2 d p)) + x2 (ix1 p)) * x3 (ix2 (0 : Fin 1) p) := by
  unfold k0_pay5
  refine (unflatten_apply _ _ _ rr k).trans ?_
  refine (Ideal.multiReduction_add_single _ 0x00000000#32 Gen.reduces_S4096x256_S4096 (.inl rfl) rfl (ix1 (row rr k))).trans ?_
  refine Finset.sum_congr rfl fun (p : Fin 256) _ => ?_
  have el : Gen.reduces_S4096x256_S4096.lift (ix1 (row rr k)) p = ix2 (row rr k) p :=
    funext fun a => Fin.ext (by match a with | ⟨0, _⟩ => rfl | ⟨1, _⟩ => rfl)
  refine (congrArg _ el).trans ?_
  refine congrArg₂ (· * ·) (congrArg Ideal.tanh (congrArg₂ (· + ·) ?_ ?_)) ?_
  · refine (matmul_row_apply _ _ (row rr k) p).trans ?_
    refine Finset.sum_congr rfl fun (d : Fin 512) _ => ?_
    exact congrArg₂ (· * ·) (flatten_apply x0 _ rr k d) rfl
  · exact bias_row_apply x2 _ _ (row rr k) p
  · exact u_row_apply x3 _ _ (row rr k) p

/-- The running maximum moved on by one block, at row rr: the carried value against the supremum of the block's logits
    of that row.  The reduction over the 512 positions is a fold of `max` from −∞; the source index over (rr) with
    position k inserted is (rr, k); the result is re-laid as a column. -/
theorem pay9_apply (v24 : Vec Ideal S8x1 .f32) (rr : Fin 8) :
    k0_pay9 (F := Ideal) x0 x1 x2 x3 v24 (ix2 rr (0 : Fin 1))
      = max (v24 (ix2 rr (0 : Fin 1))) (Finset.univ.sup fun k : Fin 512 => k0_pay5 (F := Ideal) x0 x1 x2 x3 (ix2 rr k)) := by
  unfold k0_pay9
  refine congrArg (max (v24 (ix2 rr (0 : Fin 1)))) ?_
  refine (Cert.LibColumn.shapeCast_a_a1_apply _ _ rr (0 : Fin 1)).trans ?_
  refine (Ideal.multiReduction_maximumf_single (k0_pay5 (F := Ideal) x0 x1 x2 x3) 0xFF800000#32 Gen.reduces_S8x512_S8 (.inl rfl) rfl (ix1 rr)).trans ?_
  rw [Ideal.ofBits_def, negInf_eq_bot]
  refine (fold_max_eq_sup _).trans ?_
  refine congrArg (Finset.univ.sup) (funext fun (k : Fin 512) => ?_)
  show k0_pay5 (F := Ideal) x0 x1 x2 x3 (Gen.reduces_S8x512_S8.lift (ix1 rr) k) = _
  exact congrArg _ (funext fun a => Fin.ext (by match a with | ⟨0, _⟩ => rfl | ⟨1, _⟩ => rfl))

/-- The factor that rescales what was accumulated before the block, at row rr: the exponential of a carried column
    minus the moved-on maximum. -/
theorem pay10_apply (v24 v26 : Vec Ideal S8x1 .f32) (rr : Fin 8) :
    k0_pay10 (F := Ideal) x0 x1 x2 x3 v24 v26 (ix2 rr (0 : Fin 1))
      = Ideal.exp (v26 (ix2 rr (0 : Fin 1)) - k0_pay9 (F := Ideal) x0 x1 x2 x3 v24 (ix2 rr (0 : Fin 1))) := by
  unfold k0_pay10
  rfl

/-- The block's weights at (rr, k): the moved-on maximum is a column spread over the 512 positions, so the entry is
    exp(ℓ(rr,k) − m'(rr)). -/
theorem pay11_apply (v24 : Vec Ideal S8x1 .f32) (rr : Fin 8) (k : Fin 512) :
    k0_pay11 (F := Ideal) x0 x1 x2 x3 v24 (ix2 rr k)
      = Ideal.exp (k0_pay5 (F := Ideal) x0 x1 x2 x3 (ix2 rr k) - k0_pay9 (F := Ideal) x0 x1 x2 x3 v24 (ix2 rr (0 : Fin 1))) := by
  unfold k0_pay11
  refine congrArg (fun z => Ideal.exp (k0_pay5 (F := Ideal) x0 x1 x2 x3 (ix2 rr k) - z)) ?_
  exact Cert.LibColumn.broadcastTo_a1_ab_apply _ _ rr k

/-- The sum of the block's weights of row rr over the 512 positions (a sum from the zero word, re-laid as a column). -/
theorem pay12_apply (v24 : Vec Ideal S8x1 .f32) (rr : Fin 8) :
    k0_pay12 (F := Ideal) x0 x1 x2 x3 v24 (ix2 rr (0 : Fin 1))
      = ∑ k : Fin 512, k0_pay11 (F := Ideal) x0 x1 x2 x3 v24 (ix2 rr k) := by
  unfold k0_pay12
  refine (Cert.LibColumn.shapeCast_a_a1_apply _ _ rr (0 : Fin 1)).trans ?_
  refine (Ideal.multiReduction_add_single (k0_pay11 (F := Ideal) x0 x1 x2 x3 v24) 0x00000000#32 Gen.reduces_S8x512_S8 (.inl rfl) rfl (ix1 rr)).trans ?_
  refine Finset.sum_congr rfl fun (k : Fin 512) _ => ?_
  exact congrArg _ (funext fun a => Fin.ext (by match a with | ⟨0, _⟩ => rfl | ⟨1, _⟩ => rfl))

end Cert.KernelIdeal.Hand

end
-- ==== Proof.Spec.lean ====
/-
  The mathematics of attention pooling over the extended reals, index by index.

  For a batch row `r` and a sequence position `s` the LOGIT is
      ℓ(r,s) = Σ_p tanh(Σ_d x(r,s,d)·W(d,p) + b(p)) · u(p,0),
  the SCORE is the softmax of ℓ(r,·) over the sequence axis, shifted by the row's maximum `M r`,
      score(r,s) = exp(ℓ(r,s) − M r) / Σ_s' exp(ℓ(r,s') − M r),
  and the CONTEXT is the score-weighted sum of the inputs,  context(r,d) = Σ_s score(r,s)·x(r,s,d).

  The same context is also reached by a running (online) softmax over tiles of 512 positions: a running
  maximum that starts at a finite, very negative number, a running denominator and a running weighted sum,
  the last two rescaled by exp(old maximum − new maximum) whenever the maximum moves.  The recurrences are
  stated here; that their quotient after the fourth tile is `context` (for finite inputs) is proved elsewhere.
-/
import Idealize.ShloMosaic.PureOps.Ideal
import Idealize.ShloMosaic.Lib.ValueIdx

noncomputable section

open scoped BigOperators

namespace Cert.Attn

open Idealize.ShloMosaic Idealize.ShloMosaic.ValueIdx

/-- The four argument arrays, as functions of their indices. -/
structure Args where
  x : (⟨3, ![64, 2048, 512]⟩ : Shape).Idx → EReal
  W : (⟨2, ![512, 256]⟩ : Shape).Idx → EReal
  b : (⟨1, ![256]⟩ : Shape).Idx → EReal
  u : (⟨2, ![256, 1]⟩ : Shape).Idx → EReal

/-- Every entry of every argument is a real number. -/
structure Args.Finite (A : Args) : Prop where
  x : ∀ i, ∃ a : ℝ, A.x i = (a : EReal)
  W : ∀ i, ∃ a : ℝ, A.W i = (a : EReal)
  b : ∀ i, ∃ a : ℝ, A.b i = (a : EReal)
  u : ∀ i, ∃ a : ℝ, A.u i = (a : EReal)

variable (A : Args)

/-- Projection unit `p` of token `(r, s)`: tanh (x·W + b). -/
def proj (r : Fin 64) (s : Fin 2048) (p : Fin 256) : EReal :=
  Ideal.tanh ((∑ d : Fin 512, A.x (ix3 r s d) * A.W (ix2 d p)) + A.b (ix1 p))

/-- The attention logit of token `(r, s)`. -/
def logit (r : Fin 64) (s : Fin 2048) : EReal :=
  ∑ p : Fin 256, proj A r s p * A.u (ix2 p (0 : Fin 1))

/-- The largest logit of row `r` (the supremum over the sequence, −∞ for an empty one). -/
def rowMax (r : Fin 64) : EReal := Finset.univ.sup fun s : Fin 2048 => logit A r s

/-- The shifted exponential weight of token `(r, s)`. -/
def expw (r : Fin 64) (s : Fin 2048) : EReal := Ideal.exp (logit A r s - rowMax A r)

/-- The softmax denominator of row `r`. -/
def denom (r : Fin 64) : EReal := ∑ s : Fin 2048, expw A r s

/-- The attention score of token `(r, s)`. -/
def score (r : Fin 64) (s : Fin 2048) : EReal := Ideal.div (expw A r s) (denom A r)

/-- The pooled context of row `r`, feature `d`. -/
def context (r : Fin 64) (d : Fin 512) : EReal := ∑ s : Fin 2048, score A r s * A.x (ix3 r s d)

/-! ## The running softmax over four tiles of 512 positions -/

/-- Position `k` of tile `j` of the sequence. -/
def pos (j : Fin 4) (k : Fin 512) : Fin 2048 := ⟨512 * j.val + k.val, by omega⟩

/-- The finite stand-in the running maximum starts from (−0.7 · the largest finite single-precision number). -/
def negBig : EReal := Ideal.ofBits .f32 0xFF333332#32

/-- The largest logit of tile `j` of row `r`. -/
def tileMax (r : Fin 64) (j : Fin 4) : EReal := Finset.univ.sup fun k : Fin 512 => logit A r (pos j k)

/-- The running maximum BEFORE tile `n` (so `runMax r 0` is the start value and `runMax r 4` the final one);
    tiles past the fourth do not move it. -/
def runMax (r : Fin 64) : ℕ → EReal
  | 0 => negBig
  | n + 1 => if h : n < 4 then max (runMax r n) (tileMax A r ⟨n, h⟩) else runMax r n

/-- The weight of position `k` of tile `j` against the running maximum after that tile. -/
def tileW (r : Fin 64) (j : Fin 4) (k : Fin 512) : EReal :=
  Ideal.exp (logit A r (pos j k) - runMax A r (j.val + 1))

/-- The factor by which tile `j` rescales what was accumulated before it. -/
def rescale (r : Fin 64) (j : Fin 4) : EReal := Ideal.exp (runMax A r j.val - runMax A r (j.val + 1))

/-- The running denominator before tile `n`. -/
def runDen (r : Fin 64) : ℕ → EReal
  | 0 => 0
  | n + 1 => if h : n < 4 then rescale A r ⟨n, h⟩ * runDen r n + ∑ k : Fin 512, tileW A r ⟨n, h⟩ k else runDen r n

/-- The running weighted sum of feature `d` before tile `n`. -/
def runAcc (r : Fin 64) (d : Fin 512) : ℕ → EReal
  | 0 => 0
  | n + 1 => if h : n < 4 then rescale A r ⟨n, h⟩ * runAcc r d n
        + ∑ k : Fin 512, tileW A r ⟨n, h⟩ k * A.x (ix3 r (pos ⟨n, h⟩ k) d) else runAcc r d n

/-- What the running softmax returns for row `r`, feature `d`. -/
def onlineContext (r : Fin 64) (d : Fin 512) : EReal := Ideal.div (runAcc A r d 4) (runDen A r 4)

end Cert.Attn

end
-- ==== Proof.LibStretch.lean ====
/-
  A rank-2 array repeated along a new axis of a rank-3 shape, read at an index.

  Two forms, general in the extents and in the element type: an [a, b] array given a TRAILING unit axis and repeated
  along it to [a, b, n] reads at (i, j, k) its entry (i, j); an [a, n] array given a MIDDLE unit axis and repeated
  along it to [a, b, n] reads at (i, j, k) its entry (i, k). (What `v[:, :, None]` and `v[:, None, :]` broadcast
  against a rank-3 block lower to: a shape cast that inserts the unit axis, then a broadcast.) In each the unit
  axis adds nothing to the row-major position, and the broadcast reads coordinate 0 on it.
-/
import Idealize.ShloMosaic.Lib.Pipeline.Value
import Idealize.ShloMosaic.Lib.ValueIdx

noncomputable section

namespace Cert.LibStretch

open Idealize.ShloMosaic Idealize.ShloMosaic.ValueIdx

section Stretch
variable {α : Type}

/-- An `[a, b]` array given a trailing unit axis and repeated along it to `[a, b, n]` reads, at `(i, j, k)`, the
    operand at `(i, j)`: the unit axis contributes nothing to the row-major position, and the broadcast reads `0` on it. -/
theorem stretchLast_apply {a b n : ℕ} (v : (⟨2, ![a, b]⟩ : Shape).Idx → α)
    (h : (⟨2, ![a, b]⟩ : Shape).ShapeCasts ⟨3, ![a, b, 1]⟩)
    (h' : (⟨3, ![a, b, 1]⟩ : Shape).Broadcasts ⟨3, ![a, b, n]⟩) (i : Fin a) (j : Fin b) (k : Fin n) :
    broadcastTo ⟨3, ![a, b, n]⟩ (shapeCast ⟨3, ![a, b, 1]⟩ v h) h' (ix3 i j k) = v (ix2 i j) := by
  refine (broadcastTo_apply _ h' (ix3 i j k) (ix3 i j (0 : Fin 1)) fun ax => ?_).trans ?_
  · match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => rfl
  · exact shapeCast_apply v h _ _ (by
      rw [Shape.rowMajor_val_two, Shape.rowMajor_val_three]
      show i.val * b + j.val = (i.val * b + j.val) * 1 + 0
      omega)

/-- An `[a, n]` array given a middle unit axis and repeated along it to `[a, b, n]` reads, at `(i, j, k)`, the
    operand at `(i, k)`. -/
theorem stretchMiddle_apply {a b n : ℕ} (v : (⟨2, ![a, n]⟩ : Shape).Idx → α)
    (h : (⟨2, ![a, n]⟩ : Shape).ShapeCasts ⟨3, ![a, 1, n]⟩)
    (h' : (⟨3, ![a, 1, n]⟩ : Shape).Broadcasts ⟨3, ![a, b, n]⟩) (i : Fin a) (j : Fin b) (k : Fin n) :
    broadcastTo ⟨3, ![a, b, n]⟩ (shapeCast ⟨3, ![a, 1, n]⟩ v h) h' (ix3 i j k) = v (ix2 i k) := by
  refine (broadcastTo_apply _ h' (ix3 i j k) (ix3 i (0 : Fin 1) k) fun ax => ?_).trans ?_
  · match ax with
    | ⟨0, _⟩ =>
      show i.val = if a = 1 then 0 else i.val
      split
      · have := i.isLt; omega
      · rfl
    | ⟨1, _⟩ => rfl
    | ⟨2, _⟩ =>
      show k.val = if n = 1 then 0 else k.val
      split
      · have := k.isLt; omega
      · rfl
  · exact shapeCast_apply v h _ _ (by
      rw [Shape.rowMajor_val_two, Shape.rowMajor_val_three]
      show i.val * n + k.val = (i.val * 1 + 0) * n + k.val
      rw [Nat.mul_one, Nat.add_zero])

end Stretch

end Cert.LibStretch

end
-- ==== Proof.FusedPayloads2.lean ====
/-
  The first kernel's remaining stored values, read at an index over the extended reals.

  Each value the fused kernel stores is a short chain of pointwise operations and re-layouts of the values it
  loaded.  Read at a row `rr` (and a feature `d`):

    • the running denominator's update is  rescale · old denominator + tile sum  (all [8, 1] columns);
    • the running weighted sum's update is  rescale(rr) · old(rr, d) + Σ_k weight(rr, k) · x(rr, k, d): the weights
      [8, 512] are given a trailing unit axis and repeated along the feature axis, multiplied into the [8, 512, 512]
      block and summed over the middle (position) axis;
    • the running maximum is stored as it is (a cast to the same shape is the identity);
    • the final quotient divides each (rr, d) entry by the row's denominator, a column repeated along the features;
    • the three start values are the finite very negative number for the running maximum and zero for the two sums.
-/
import proofs.«123799_j49039936586174_2_alg».proof.Proof.Gen.KernelIdeal.Skeleton
import proofs.«123799_j49039936586174_2_alg».proof.Proof.Spec
import proofs.«123799_j49039936586174_2_alg».proof.Proof.LibColumn
import proofs.«123799_j49039936586174_2_alg».proof.Proof.LibStretch
import Idealize.ShloMosaic.Lib.ValueIdx
import Idealize.ShloMosaic.Lib.ValueLayout
import Idealize.ShloMosaic.Lib.Pipeline.Value
import Idealize.ShloMosaic.PureOps.Ideal.Laws

open scoped BigOperators

namespace Cert.KernelIdeal.Hand

open Cert.KernelIdeal Cert.KernelIdeal.Gen Idealize.ShloMosaic Idealize.ShloMosaic.ValueIdx

/-- The running denominator after a tile: the rescaled old denominator plus the tile's sum of weights. -/
theorem pay1_apply (v28 v33 : FVec Ideal S8x1 .f32) (v34 : Vec Ideal S8x1 .f32) (rr : Fin 8) :
    k0_pay1 (F := Ideal) v28 v33 v34 (ix2 rr (0 : Fin 1))
      = v28 (ix2 rr 0) * v34 (ix2 rr 0) + v33 (ix2 rr 0) := by
  unfold k0_pay1
  rw [shapeCast_self]
  rfl

/-- A sum over the middle axis of an [8, 512, 512] block, read at (rr, d), is the sum over the middle coordinate. -/
theorem sum_middle_apply (src : FVec Ideal S8x512x512 .f32) (h : S8x512x512.Reduces [1] S8x512)
    (hφ : FKind.Formats .f32) (hacc : (0x00000000#32 : BitVec 32) = FKind.add.neutral .f32 hφ)
    (rr : Fin 8) (d : Fin 512) :
    multiReduction .add [1] S8x512 src 0x00000000#32 h hφ hacc (ix2 rr d) = ∑ k : Fin 512, src (ix3 rr k d) := by
  refine (Ideal.multiReduction_add_single src 0x00000000#32 h hφ hacc (ix2 rr d)).trans ?_
  show ∑ k : Fin 512, src (h.lift (ix2 rr d) k) = _
  refine Finset.sum_congr rfl fun k _ => congrArg src ?_
  exact funext fun ax => Fin.ext (by match ax with | ⟨0, _⟩ => rfl | ⟨1, _⟩ => rfl | ⟨2, _⟩ => rfl)

/-- The running weighted sum after a tile: the rescaled old sum plus the tile's weighted sum of the inputs. -/
theorem pay2_apply (v0 : Vec Ideal S8x512x512 .f32) (v28 : FVec Ideal S8x1 .f32) (v31 : FVec Ideal S8x512 .f32)
    (v44 : Vec Ideal S8x512 .f32) (rr : Fin 8) (d : Fin 512) :
    k0_pay2 (F := Ideal) v0 v28 v31 v44 (ix2 rr d)
      = v28 (ix2 rr (0 : Fin 1)) * v44 (ix2 rr d) + ∑ k : Fin 512, v31 (ix2 rr k) * v0 (ix3 rr k d) := by
  unfold k0_pay2
  rw [shapeCast_self]
  refine (addf_apply _ _ _).trans ?_
  refine congrArg₂ (· + ·) ?_ ?_
  · refine (mulf_apply _ _ _).trans ?_
    exact congrArg (· * v44 (ix2 rr d)) (Cert.LibColumn.broadcastTo_a1_ab_apply v28 _ rr d)
  · refine (sum_middle_apply _ _ _ _ rr d).trans ?_
    refine Finset.sum_congr rfl fun k _ => ?_
    refine (mulf_apply _ _ _).trans ?_
    exact congrArg (· * v0 (ix3 rr k d)) (Cert.LibStretch.stretchLast_apply v31 _ _ rr k d)

/-- The running maximum is stored unchanged. -/
theorem pay3_eq (v25 : FVec Ideal S8x1 .f32) : k0_pay3 (F := Ideal) v25 = v25 :=
  shapeCast_self v25 _

/-- The result after the last tile: each entry of the weighted sum divided by its row's denominator. -/
theorem pay4_apply (v57 : Vec Ideal S8x512 .f32) (v58 : Vec Ideal S8x1 .f32) (rr : Fin 8) (d : Fin 512) :
    k0_pay4 (F := Ideal) v57 v58 (ix2 rr d) = Ideal.div (v57 (ix2 rr d)) (v58 (ix2 rr (0 : Fin 1))) := by
  unfold k0_pay4
  refine (divf_apply _ _ _).trans ?_
  exact congrArg _ (Cert.LibColumn.broadcastTo_a1_ab_apply v58 _ rr d)

/-- The running maximum starts from the finite very negative number. -/
theorem pay6_apply (rr : Fin 8) : k0_pay6 (F := Ideal) (ix2 rr (0 : Fin 1)) = Cert.Attn.negBig := by
  unfold k0_pay6
  rw [shapeCast_self]
  rfl

/-- The running denominator starts from zero. -/
theorem pay7_apply (rr : Fin 8) : k0_pay7 (F := Ideal) (ix2 rr (0 : Fin 1)) = 0 := by
  unfold k0_pay7
  rw [shapeCast_self]
  exact Ideal.ofBits_zero_f32

/-- The running weighted sum starts from zero. -/
theorem pay8_apply (rr : Fin 8) (d : Fin 512) : k0_pay8 (F := Ideal) (ix2 rr d) = 0 := by
  unfold k0_pay8
  rw [shapeCast_self]
  exact Ideal.ofBits_zero_f32

end Cert.KernelIdeal.Hand
-- ==== Proof.OnlineReal.lean ====
/-
  Real-number algebra of the running softmax.

  For real logits `L s`, real weights `w s` and a real base point `μ` the TILE SUM of tile `j` is
      T(μ, j) = Σ_k exp(L(pos j k) − μ) · w(pos j k).
  Moving the base point multiplies a tile sum by one common factor,
      exp(μ − μ') · T(μ, j) = T(μ', j),          because exp(μ − μ') · exp(ℓ − μ) = exp(ℓ − μ'),
  so a running sum that is rescaled by exp(old base − new base) before each new tile is added stays equal to the
  sum of the tile sums of the tiles seen so far, all taken at the newest base point.  After the fourth tile this is
  the sum over the whole sequence, and a quotient of two such sums does not depend on the base point at all.
-/
import proofs.«123799_j49039936586174_2_alg».proof.Proof.Spec

noncomputable section

open scoped BigOperators

namespace Cert.Attn

/-- The sum over tile `j` of `exp (L − μ) · w`. -/
def tileSum (L w : Fin 2048 → ℝ) (μ : ℝ) (j : Fin 4) : ℝ :=
  ∑ k : Fin 512, Real.exp (L (pos j k) - μ) * w (pos j k)

/-- Changing the base point from `μ` to `μ'` multiplies a tile sum by `exp (μ − μ')`. -/
theorem tileSum_rebase (L w : Fin 2048 → ℝ) (μ μ' : ℝ) (j : Fin 4) :
    Real.exp (μ - μ') * tileSum L w μ j = tileSum L w μ' j := by
  unfold tileSum
  rw [Finset.mul_sum]
  refine Finset.sum_congr rfl fun k _ => ?_
  rw [← mul_assoc, ← Real.exp_add]
  congr 2
  ring

/-- The tile sums of the first `n` tiles, at base point `μ`. -/
def partSum (L w : Fin 2048 → ℝ) (n : ℕ) (μ : ℝ) : ℝ :=
  ∑ j ∈ Finset.univ.filter (fun j : Fin 4 => j.val < n), tileSum L w μ j

theorem partSum_zero (L w : Fin 2048 → ℝ) (μ : ℝ) : partSum L w 0 μ = 0 := by
  unfold partSum
  rw [Finset.filter_false_of_mem (fun j _ => Nat.not_lt_zero _), Finset.sum_empty]

/-- One step of the running sum: rescale what was there, add the new tile. -/
theorem partSum_succ (L w : Fin 2048 → ℝ) (n : ℕ) (h : n < 4) (μ μ' : ℝ) :
    Real.exp (μ - μ') * partSum L w n μ + tileSum L w μ' ⟨n, h⟩ = partSum L w (n + 1) μ' := by
  unfold partSum
  have hset : Finset.univ.filter (fun j : Fin 4 => j.val < n + 1)
      = insert (⟨n, h⟩ : Fin 4) (Finset.univ.filter (fun j : Fin 4 => j.val < n)) := by
    ext j
    simp only [Finset.mem_filter, Finset.mem_univ, true_and, Finset.mem_insert, Fin.ext_iff]
    omega
  have hnot : (⟨n, h⟩ : Fin 4) ∉ Finset.univ.filter (fun j : Fin 4 => j.val < n) := by
    simp only [Finset.mem_filter, Finset.mem_univ, true_and, lt_self_iff_false, not_false_eq_true]
  rw [hset, Finset.sum_insert hnot, Finset.mul_sum, add_comm]
  congr 1
  exact Finset.sum_congr rfl fun j _ => tileSum_rebase L w μ μ' j

/-- The four tiles together are the whole sequence. -/
theorem sum_tiles (f : Fin 2048 → ℝ) : ∑ j : Fin 4, ∑ k : Fin 512, f (pos j k) = ∑ s : Fin 2048, f s := by
  rw [← Fintype.sum_prod_type (f := fun p : Fin 4 × Fin 512 => f (pos p.1 p.2))]
  refine Fintype.sum_equiv (finProdFinEquiv (m := 4) (n := 512)) _ _ fun p => ?_
  congr 1
  apply Fin.ext
  simp only [pos, finProdFinEquiv_apply_val]
  omega

theorem partSum_four (L w : Fin 2048 → ℝ) (μ : ℝ) :
    partSum L w 4 μ = ∑ s : Fin 2048, Real.exp (L s - μ) * w s := by
  unfold partSum tileSum
  rw [Finset.filter_true_of_mem (fun j _ => j.isLt)]
  exact sum_tiles fun s => Real.exp (L s - μ) * w s

/-- A softmax-weighted sum does not depend on the base point the exponentials are shifted by. -/
theorem softmax_shift {ι : Type*} [Fintype ι] [Nonempty ι] (L X : ι → ℝ) (μ M : ℝ) :
    (∑ s, Real.exp (L s - μ) * X s) * (1 / ∑ s, Real.exp (L s - μ))
      = ∑ s, Real.exp (L s - M) * (1 / ∑ s, Real.exp (L s - M)) * X s := by
  have h : ∀ s, Real.exp (L s - μ) = Real.exp (M - μ) * Real.exp (L s - M) := by
    intro s
    rw [← Real.exp_add]
    congr 1
    ring
  have hZ : 0 < ∑ s, Real.exp (L s - M) :=
    Finset.sum_pos (fun s _ => Real.exp_pos _) Finset.univ_nonempty
  have hc : Real.exp (M - μ) ≠ 0 := (Real.exp_pos _).ne'
  have hN : ∑ s, Real.exp (L s - μ) * X s = Real.exp (M - μ) * ∑ s, Real.exp (L s - M) * X s := by
    rw [Finset.mul_sum]
    exact Finset.sum_congr rfl fun s _ => by rw [h s, mul_assoc]
  have hD : ∑ s, Real.exp (L s - μ) = Real.exp (M - μ) * ∑ s, Real.exp (L s - M) := by
    rw [Finset.mul_sum]
    exact Finset.sum_congr rfl fun s _ => h s
  have hR : ∑ s, Real.exp (L s - M) * (1 / ∑ s, Real.exp (L s - M)) * X s
      = (∑ s, Real.exp (L s - M) * X s) * (1 / ∑ s, Real.exp (L s - M)) := by
    rw [Finset.sum_mul]
    exact Finset.sum_congr rfl fun s _ => by ring
  rw [hN, hD, hR]
  field_simp

end Cert.Attn

end
-- ==== Proof.OnlineCoe.lean ====
/-
  Which quantities of the attention specification are real numbers when the inputs are.

  The hyperbolic tangent of ANY extended real is a real number in [−1, 1], so every projection is real whatever
  its argument; a product of two reals and a finite sum of reals are real, so every logit is real as soon as the
  entries of `u` are.  The supremum of finitely many reals over a nonempty index set is one of them, hence real;
  the start value of the running maximum is a finite single-precision number; so every running maximum is real.
-/
import proofs.«123799_j49039936586174_2_alg».proof.Proof.Spec

noncomputable section

open scoped BigOperators

namespace Cert.Attn

open Idealize.ShloMosaic Idealize.ShloMosaic.ValueIdx

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_real {ι : Type*} (s : Finset ι) (f : ι → EReal) (h : ∀ i ∈ s, ∃ a : ℝ, f i = (a : EReal)) :
    ∃ a : ℝ, ∑ i ∈ s, f i = (a : EReal) := by
  choose! g hg using h
  exact ⟨∑ i ∈ s, g i, by rw [coe_sum]; exact Finset.sum_congr rfl hg⟩

/-- The supremum of finitely many real numbers over a nonempty index set is one of them. -/
theorem sup_real {ι : Type*} (s : Finset ι) (hs : s.Nonempty) (f : ι → EReal)
    (h : ∀ i ∈ s, ∃ a : ℝ, f i = (a : EReal)) : ∃ a : ℝ, s.sup f = (a : EReal) := by
  obtain ⟨i, hi, e⟩ := Finset.exists_mem_eq_sup s hs f
  rw [e]
  exact h i hi

/-- A number known to be real is the inclusion of its real part. -/
theorem eq_coe_toReal {y : EReal} (h : ∃ a : ℝ, y = (a : EReal)) : y = ((y.toReal : ℝ) : EReal) := by
  obtain ⟨a, rfl⟩ := h
  rw [EReal.toReal_coe]

/-- `tanh` takes every extended real — the two infinities included — to a real number. -/
theorem tanh_real (y : EReal) : ∃ a : ℝ, Ideal.tanh y = (a : EReal) := by
  induction y using EReal.rec with
  | bot => exact ⟨-1, by simp⟩
  | coe r => exact ⟨Real.tanh r, rfl⟩
  | top => exact ⟨1, by simp⟩

variable (A : Args)

/-- Every logit is a real number. -/
theorem logit_real (hA : A.Finite) (r : Fin 64) (s : Fin 2048) : ∃ a : ℝ, logit A r s = (a : EReal) := by
  unfold logit
  refine sum_real _ _ fun p _ => ?_
  obtain ⟨t, ht⟩ := tanh_real ((∑ d : Fin 512, A.x (ix3 r s d) * A.W (ix2 d p)) + A.b (ix1 p))
  obtain ⟨v, hv⟩ := hA.u (ix2 p (0 : Fin 1))
  exact ⟨t * v, by rw [proj, ht, hv, EReal.coe_mul]⟩

/-- The start value of the running maximum is a real number. -/
theorem negBig_real : ∃ c : ℝ, negBig = (c : EReal) := by
  unfold negBig
  refine ⟨-(11744050 * 2 ^ 104), ?_⟩
  simp [Ideal.ofBits, Ideal.ieee]

theorem tileMax_real (hA : A.Finite) (r : Fin 64) (j : Fin 4) : ∃ a : ℝ, tileMax A r j = (a : EReal) :=
  sup_real _ Finset.univ_nonempty _ fun k _ => logit_real A hA r (pos j k)

theorem rowMax_real (hA : A.Finite) (r : Fin 64) : ∃ a : ℝ, rowMax A r = (a : EReal) :=
  sup_real _ Finset.univ_nonempty _ fun s _ => logit_real A hA r s

theorem runMax_succ (r : Fin 64) (n : ℕ) (h : n < 4) :
    runMax A r (n + 1) = max (runMax A r n) (tileMax A r ⟨n, h⟩) := by
  rw [runMax, dif_pos h]

/-- Every running maximum is a real number. -/
theorem runMax_real (hA : A.Finite) (r : Fin 64) (n : ℕ) : ∃ a : ℝ, runMax A r n = (a : EReal) := by
  induction n with
  | zero => exact negBig_real
  | succ n ih =>
    by_cases h : n < 4
    · rw [runMax_succ A r n h]
      rcases max_choice (runMax A r n) (tileMax A r ⟨n, h⟩) with e | e
      · rw [e]; exact ih
      · rw [e]; exact tileMax_real A hA r ⟨n, h⟩
    · rw [runMax, dif_neg h]
      exact ih

end Cert.Attn

end
-- ==== Proof.Online.lean ====
/-
  The running softmax returns the softmax-pooled context.

  With real inputs every logit and every running maximum is a real number, so each quantity of the running
  recurrences is the inclusion of a real "shadow" and the algebra is done over the reals:

    • before tile `n` the running denominator is  Σ_{tiles j < n} Σ_k exp(ℓ(pos j k) − m_n)  and the running
      weighted sum is the same with the factor x(pos j k), where m_n is the running maximum before tile `n`
      (induction on `n`: the rescaling factor exp(m_n − m_{n+1}) re-bases every earlier term to m_{n+1});
    • after the fourth tile both sums run over the whole sequence, the denominator is positive, and the quotient
      of the two does not depend on the base point, so it agrees with the softmax shifted by the row maximum.
-/
import proofs.«123799_j49039936586174_2_alg».proof.Proof.OnlineReal
import proofs.«123799_j49039936586174_2_alg».proof.Proof.OnlineCoe

noncomputable section

open scoped BigOperators

namespace Cert.Attn

open Idealize.ShloMosaic Idealize.ShloMosaic.ValueIdx

variable (A : Args)

/-! ## Real shadows -/

/-- The logit as a real number. -/
def logitR (r : Fin 64) (s : Fin 2048) : ℝ := (logit A r s).toReal

/-- The running maximum before tile `n` as a real number. -/
def runMaxR (r : Fin 64) (n : ℕ) : ℝ := (runMax A r n).toReal

/-- The row maximum as a real number. -/
def rowMaxR (r : Fin 64) : ℝ := (rowMax A r).toReal

/-- Feature `d` of token `(r, s)` as a real number. -/
def xR (r : Fin 64) (d : Fin 512) (s : Fin 2048) : ℝ := (A.x (ix3 r s d)).toReal

theorem logit_eq (hA : A.Finite) (r : Fin 64) (s : Fin 2048) : logit A r s = ((logitR A r s : ℝ) : EReal) :=
  eq_coe_toReal (logit_real A hA r s)

theorem runMax_eq (hA : A.Finite) (r : Fin 64) (n : ℕ) : runMax A r n = ((runMaxR A r n : ℝ) : EReal) :=
  eq_coe_toReal (runMax_real A hA r n)

theorem rowMax_eq (hA : A.Finite) (r : Fin 64) : rowMax A r = ((rowMaxR A r : ℝ) : EReal) :=
  eq_coe_toReal (rowMax_real A hA r)

theorem x_eq (hA : A.Finite) (r : Fin 64) (d : Fin 512) (s : Fin 2048) :
    A.x (ix3 r s d) = ((xR A r d s : ℝ) : EReal) :=
  eq_coe_toReal (hA.x _)

/-! ## The pieces of one step -/

theorem rescale_eq (hA : A.Finite) (r : Fin 64) (n : ℕ) (h : n < 4) :
    rescale A r ⟨n, h⟩ = ((Real.exp (runMaxR A r n - runMaxR A r (n + 1)) : ℝ) : EReal) := by
  unfold rescale
  rw [runMax_eq A hA r n, runMax_eq A hA r (n + 1), ← EReal.coe_sub]
  rfl

theorem tileW_eq (hA : A.Finite) (r : Fin 64) (n : ℕ) (h : n < 4) (k : Fin 512) :
    tileW A r ⟨n, h⟩ k
      = ((Real.exp (logitR A r (pos ⟨n, h⟩ k) - runMaxR A r (n + 1)) : ℝ) : EReal) := by
  unfold tileW
  rw [logit_eq A hA r (pos ⟨n, h⟩ k), runMax_eq A hA r (n + 1), ← EReal.coe_sub]
  rfl

theorem runDen_succ (r : Fin 64) (n : ℕ) (h : n < 4) :
    runDen A r (n + 1) = rescale A r ⟨n, h⟩ * runDen A r n + ∑ k : Fin 512, tileW A r ⟨n, h⟩ k := by
  rw [runDen, dif_pos h]

theorem runAcc_succ (r : Fin 64) (d : Fin 512) (n : ℕ) (h : n < 4) :
    runAcc A r d (n + 1) = rescale A r ⟨n, h⟩ * runAcc A r d n
      + ∑ k : Fin 512, tileW A r ⟨n, h⟩ k * A.x (ix3 r (pos ⟨n, h⟩ k) d) := by
  rw [runAcc, dif_pos h]

/-! ## Closed forms of the running sums -/

/-- Before tile `n` the running denominator is the sum of the exponentials of the first `n` tiles, all shifted
    by the current running maximum. -/
theorem runDen_closed (hA : A.Finite) (r : Fin 64) (n : ℕ) (hn : n ≤ 4) :
    runDen A r n = ((partSum (logitR A r) (fun _ => 1) n (runMaxR A r n) : ℝ) : EReal) := by
  induction n with
  | zero => rw [partSum_zero]; rfl
  | succ n ih =>
    have h : n < 4 := hn
    have hT : ∑ k : Fin 512, tileW A r ⟨n, h⟩ k
        = ((tileSum (logitR A r) (fun _ => 1) (runMaxR A r (n + 1)) ⟨n, h⟩ : ℝ) : EReal) := by
      unfold tileSum
      rw [coe_sum]
      exact Finset.sum_congr rfl fun k _ => by rw [tileW_eq A hA r n h k, mul_one]
    rw [runDen_succ A r n h, ih (le_of_lt h), rescale_eq A hA r n h, hT, ← EReal.coe_mul, ← EReal.coe_add]
    exact congrArg _ (partSum_succ _ _ n h _ _)

/-- Before tile `n` the running weighted sum is the sum of `exp (logit − running maximum) · x` over the first
    `n` tiles. -/
theorem runAcc_closed (hA : A.Finite) (r : Fin 64) (d : Fin 512) (n : ℕ) (hn : n ≤ 4) :
    runAcc A r d n = ((partSum (logitR A r) (xR A r d) n (runMaxR A r n) : ℝ) : EReal) := by
  induction n with
  | zero => rw [partSum_zero]; rfl
  | succ n ih =>
    have h : n < 4 := hn
    have hT : ∑ k : Fin 512, tileW A r ⟨n, h⟩ k * A.x (ix3 r (pos ⟨n, h⟩ k) d)
        = ((tileSum (logitR A r) (xR A r d) (runMaxR A r (n + 1)) ⟨n, h⟩ : ℝ) : EReal) := by
      unfold tileSum
      rw [coe_sum]
      exact Finset.sum_congr rfl fun k _ => by
        rw [tileW_eq A hA r n h k, x_eq A hA r d (pos ⟨n, h⟩ k), ← EReal.coe_mul]
    rw [runAcc_succ A r d n h, ih (le_of_lt h), rescale_eq A hA r n h, hT, ← EReal.coe_mul, ← EReal.coe_add]
    exact congrArg _ (partSum_succ _ _ n h _ _)

/-! ## The quotient -/

/-- A sum of exponentials over the (nonempty) sequence is positive. -/
theorem sumExp_pos (L : Fin 2048 → ℝ) (μ : ℝ) : 0 < ∑ s : Fin 2048, Real.exp (L s - μ) :=
  Finset.sum_pos (fun s _ => Real.exp_pos _) Finset.univ_nonempty

/-- For real inputs the running softmax over the four tiles returns the softmax-pooled context. -/
theorem onlineContext_eq (hA : A.Finite) (r : Fin 64) (d : Fin 512) : onlineContext A r d = context A r d := by
  have hden : runDen A r 4 = ((∑ s : Fin 2048, Real.exp (logitR A r s - runMaxR A r 4) : ℝ) : EReal) := by
    rw [runDen_closed A hA r 4 le_rfl, partSum_four]
    simp only [mul_one]
  have hacc : runAcc A r d 4
      = ((∑ s : Fin 2048, Real.exp (logitR A r s - runMaxR A r 4) * xR A r d s : ℝ) : EReal) := by
    rw [runAcc_closed A hA r d 4 le_rfl, partSum_four]
  have hexpw : ∀ s, expw A r s = ((Real.exp (logitR A r s - rowMaxR A r) : ℝ) : EReal) := by
    intro s
    unfold expw
    rw [logit_eq A hA r s, rowMax_eq A hA r, ← EReal.coe_sub]
    rfl
  have hdenom : denom A r = ((∑ s : Fin 2048, Real.exp (logitR A r s - rowMaxR A r) : ℝ) : EReal) := by
    unfold denom
    rw [coe_sum]
    exact Finset.sum_congr rfl fun s _ => hexpw s
  have hctx : context A r d
      = ((∑ s : Fin 2048, Real.exp (logitR A r s - rowMaxR A r)
            * (1 / ∑ s : Fin 2048, Real.exp (logitR A r s - rowMaxR A r)) * xR A r d s : ℝ) : EReal) := by
    unfold context
    rw [coe_sum]
    refine Finset.sum_congr rfl fun s _ => ?_
    rw [score, hexpw s, hdenom, Ideal.div_coe (sumExp_pos _ _).ne', x_eq A hA r d s, ← EReal.coe_mul,
      ← EReal.coe_mul]
  rw [onlineContext, hacc, hden, Ideal.div_coe (sumExp_pos _ _).ne', ← EReal.coe_mul, hctx]
  exact congrArg _ (softmax_shift _ _ _ _)

end Cert.Attn

end
-- ==== Proof.FusedStep.lean ====
/-
  One step of the fused kernel's stored values is one step of the running-softmax recurrences.

  Fix a batch row `r`, a tile `j` of 512 positions and a row `rr` of the kernel's block of eight rows, and suppose
  the block's inputs at row `rr` are the arguments' entries of row `r`, tile `j`.  Then, read at row `rr`:

    • the block's logits are the specification's logits of the tile's positions;
    • the maximum moved on by the block is the running maximum after the tile, when it started from the running
      maximum before it;
    • the denominator's update  rescale · old + Σ_k weight_k  is the running denominator after the tile, the
      weighted sum's update  rescale · old + Σ_k weight_k · x_k  is the running weighted sum after it, since
      rescale = exp(old maximum − new maximum) and weight_k = exp(logit_k − new maximum) are exactly the
      recurrences' factors, in the recurrences' order;
    • after the fourth tile the stored quotient is the running softmax's result.

  These are rewrites along the definitions; no finiteness is used.
-/
import proofs.«123799_j49039936586174_2_alg».proof.Proof.FusedPayloads
import proofs.«123799_j49039936586174_2_alg».proof.Proof.FusedPayloads2
import proofs.«123799_j49039936586174_2_alg».proof.Proof.Online

open scoped BigOperators

namespace Cert.KernelIdeal.Hand

open Cert.KernelIdeal Cert.KernelIdeal.Gen Idealize.ShloMosaic Idealize.ShloMosaic.ValueIdx
open Cert.Attn (Args logit proj pos runMax runDen runAcc tileMax tileW rescale onlineContext negBig)

/-- The block's logit at (rr, k) is the logit of position `k` of tile `j` of row `r`. -/
theorem step_logit (A : Args) (r : Fin 64) (j : Fin 4) (rr : Fin 8)
    (x0 : Vec Ideal S8x512x512 .f32) (x1 : Vec Ideal S512x256 .f32) (x2 : Vec Ideal S256 .f32)
    (x3 : Vec Ideal S1x256 .f32)
    (hx0 : ∀ (k : Fin 512) (d : Fin 512), x0 (ix3 rr k d) = A.x (ix3 r (pos j k) d))
    (hx1 : ∀ i, x1 i = A.W i) (hx2 : ∀ i, x2 i = A.b i)
    (hx3 : ∀ p : Fin 256, x3 (ix2 (0 : Fin 1) p) = A.u (ix2 p (0 : Fin 1)))
    (k : Fin 512) :
    k0_pay5 (F := Ideal) x0 x1 x2 x3 (ix2 rr k) = logit A r (pos j k) := by
  refine (pay5_apply x0 x1 x2 x3 rr k).trans ?_
  unfold logit proj
  refine Finset.sum_congr rfl fun p _ => ?_
  refine congrArg₂ (· * ·) (congrArg Ideal.tanh (congrArg₂ (· + ·) ?_ (hx2 (ix1 p)))) (hx3 p)
  exact Finset.sum_congr rfl fun d _ => congrArg₂ (· * ·) (hx0 k d) (hx1 (ix2 d p))

/-- The maximum moved on by the block, at row rr, is the running maximum after tile `j`. -/
theorem step_max9 (A : Args) (r : Fin 64) (j : Fin 4) (rr : Fin 8)
    (x0 : Vec Ideal S8x512x512 .f32) (x1 : Vec Ideal S512x256 .f32) (x2 : Vec Ideal S256 .f32)
    (x3 : Vec Ideal S1x256 .f32)
    (hx0 : ∀ (k : Fin 512) (d : Fin 512), x0 (ix3 rr k d) = A.x (ix3 r (pos j k) d))
    (hx1 : ∀ i, x1 i = A.W i) (hx2 : ∀ i, x2 i = A.b i)
    (hx3 : ∀ p : Fin 256, x3 (ix2 (0 : Fin 1) p) = A.u (ix2 p (0 : Fin 1)))
    (s0 : Vec Ideal S8x1 .f32) (hs0 : s0 (ix2 rr (0 : Fin 1)) = runMax A r j.val) :
    k0_pay9 (F := Ideal) x0 x1 x2 x3 s0 (ix2 rr (0 : Fin 1)) = runMax A r (j.val + 1) := by
  refine (pay9_apply x0 x1 x2 x3 s0 rr).trans ?_
  refine Eq.trans ?_ (Cert.Attn.runMax_succ A r j.val j.isLt).symm
  refine congrArg₂ max hs0 ?_
  unfold tileMax
  exact congrArg Finset.univ.sup (funext fun k => step_logit A r j rr x0 x1 x2 x3 hx0 hx1 hx2 hx3 k)

/-- The running maximum the kernel stores after the block is the running maximum after tile `j`. -/
theorem step_max (A : Args) (r : Fin 64) (j : Fin 4) (rr : Fin 8)
    (x0 : Vec Ideal S8x512x512 .f32) (x1 : Vec Ideal S512x256 .f32) (x2 : Vec Ideal S256 .f32)
    (x3 : Vec Ideal S1x256 .f32)
    (hx0 : ∀ (k : Fin 512) (d : Fin 512), x0 (ix3 rr k d) = A.x (ix3 r (pos j k) d))
    (hx1 : ∀ i, x1 i = A.W i) (hx2 : ∀ i, x2 i = A.b i)
    (hx3 : ∀ p : Fin 256, x3 (ix2 (0 : Fin 1) p) = A.u (ix2 p (0 : Fin 1)))
    (s0 : Vec Ideal S8x1 .f32) (hs0 : s0 (ix2 rr (0 : Fin 1)) = runMax A r j.val) :
    k0_pay3 (F := Ideal) (k0_pay9 (F := Ideal) x0 x1 x2 x3 s0) (ix2 rr (0 : Fin 1)) = runMax A r (j.val + 1) :=
  (congrFun (pay3_eq _) _).trans (step_max9 A r j rr x0 x1 x2 x3 hx0 hx1 hx2 hx3 s0 hs0)

/-- The block's rescaling factor at row rr is the recurrences' factor of tile `j`. -/
theorem step_rescale (A : Args) (r : Fin 64) (j : Fin 4) (rr : Fin 8)
    (x0 : Vec Ideal S8x512x512 .f32) (x1 : Vec Ideal S512x256 .f32) (x2 : Vec Ideal S256 .f32)
    (x3 : Vec Ideal S1x256 .f32)
    (hx0 : ∀ (k : Fin 512) (d : Fin 512), x0 (ix3 rr k d) = A.x (ix3 r (pos j k) d))
    (hx1 : ∀ i, x1 i = A.W i) (hx2 : ∀ i, x2 i = A.b i)
    (hx3 : ∀ p : Fin 256, x3 (ix2 (0 : Fin 1) p) = A.u (ix2 p (0 : Fin 1)))
    (s0 : Vec Ideal S8x1 .f32) (hs0 : s0 (ix2 rr (0 : Fin 1)) = runMax A r j.val) :
    k0_pay10 (F := Ideal) x0 x1 x2 x3 s0 s0 (ix2 rr (0 : Fin 1)) = rescale A r j := by
  refine (pay10_apply x0 x1 x2 x3 s0 s0 rr).trans ?_
  unfold rescale
  exact congrArg Ideal.exp
    (congrArg₂ (· - ·) hs0 (step_max9 A r j rr x0 x1 x2 x3 hx0 hx1 hx2 hx3 s0 hs0))

/-- The block's weight at (rr, k) is the recurrences' weight of position `k` of tile `j`. -/
theorem step_weight (A : Args) (r : Fin 64) (j : Fin 4) (rr : Fin 8)
    (x0 : Vec Ideal S8x512x512 .f32) (x1 : Vec Ideal S512x256 .f32) (x2 : Vec Ideal S256 .f32)
    (x3 : Vec Ideal S1x256 .f32)
    (hx0 : ∀ (k : Fin 512) (d : Fin 512), x0 (ix3 rr k d) = A.x (ix3 r (pos j k) d))
    (hx1 : ∀ i, x1 i = A.W i) (hx2 : ∀ i, x2 i = A.b i)
    (hx3 : ∀ p : Fin 256, x3 (ix2 (0 : Fin 1) p) = A.u (ix2 p (0 : Fin 1)))
    (s0 : Vec Ideal S8x1 .f32) (hs0 : s0 (ix2 rr (0 : Fin 1)) = runMax A r j.val) (k : Fin 512) :
    k0_pay11 (F := Ideal) x0 x1 x2 x3 s0 (ix2 rr k) = tileW A r j k := by
  refine (pay11_apply x0 x1 x2 x3 s0 rr k).trans ?_
  unfold tileW
  exact congrArg Ideal.exp
    (congrArg₂ (· - ·) (step_logit A r j rr x0 x1 x2 x3 hx0 hx1 hx2 hx3 k)
      (step_max9 A r j rr x0 x1 x2 x3 hx0 hx1 hx2 hx3 s0 hs0))

/-- The denominator the kernel stores after the block is the running denominator after tile `j`. -/
theorem step_den (A : Args) (r : Fin 64) (j : Fin 4) (rr : Fin 8)
    (x0 : Vec Ideal S8x512x512 .f32) (x1 : Vec Ideal S512x256 .f32) (x2 : Vec Ideal S256 .f32)
    (x3 : Vec Ideal S1x256 .f32)
    (hx0 : ∀ (k : Fin 512) (d : Fin 512), x0 (ix3 rr k d) = A.x (ix3 r (pos j k) d))
    (hx1 : ∀ i, x1 i = A.W i) (hx2 : ∀ i, x2 i = A.b i)
    (hx3 : ∀ p : Fin 256, x3 (ix2 (0 : Fin 1) p) = A.u (ix2 p (0 : Fin 1)))
    (s0 s1 : Vec Ideal S8x1 .f32) (hs0 : s0 (ix2 rr (0 : Fin 1)) = runMax A r j.val)
    (hs1 : s1 (ix2 rr (0 : Fin 1)) = runDen A r j.val) :
    k0_pay1 (F := Ideal) (k0_pay10 (F := Ideal) x0 x1 x2 x3 s0 s0) (k0_pay12 (F := Ideal) x0 x1 x2 x3 s0) s1
        (ix2 rr (0 : Fin 1)) = runDen A r (j.val + 1) := by
  refine (pay1_apply _ _ s1 rr).trans ?_
  refine Eq.trans ?_ (Cert.Attn.runDen_succ A r j.val j.isLt).symm
  refine congrArg₂ (· + ·)
    (congrArg₂ (· * ·) (step_rescale A r j rr x0 x1 x2 x3 hx0 hx1 hx2 hx3 s0 hs0) hs1) ?_
  refine (pay12_apply x0 x1 x2 x3 s0 rr).trans ?_
  exact Finset.sum_congr rfl fun k _ => step_weight A r j rr x0 x1 x2 x3 hx0 hx1 hx2 hx3 s0 hs0 k

/-- The weighted sum the kernel stores after the block is the running weighted sum after tile `j`. -/
theorem step_acc (A : Args) (r : Fin 64) (j : Fin 4) (rr : Fin 8)
    (x0 : Vec Ideal S8x512x512 .f32) (x1 : Vec Ideal S512x256 .f32) (x2 : Vec Ideal S256 .f32)
    (x3 : Vec Ideal S1x256 .f32)
    (hx0 : ∀ (k : Fin 512) (d : Fin 512), x0 (ix3 rr k d) = A.x (ix3 r (pos j k) d))
    (hx1 : ∀ i, x1 i = A.W i) (hx2 : ∀ i, x2 i = A.b i)
    (hx3 : ∀ p : Fin 256, x3 (ix2 (0 : Fin 1) p) = A.u (ix2 p (0 : Fin 1)))
    (s0 : Vec Ideal S8x1 .f32) (s2 : Vec Ideal S8x512 .f32) (hs0 : s0 (ix2 rr (0 : Fin 1)) = runMax A r j.val)
    (hs2 : ∀ d : Fin 512, s2 (ix2 rr d) = runAcc A r d j.val) (d : Fin 512) :
    k0_pay2 (F := Ideal) x0 (k0_pay10 (F := Ideal) x0 x1 x2 x3 s0 s0) (k0_pay11 (F := Ideal) x0 x1 x2 x3 s0) s2
        (ix2 rr d) = runAcc A r d (j.val + 1) := by
  refine (pay2_apply x0 _ _ s2 rr d).trans ?_
  refine Eq.trans ?_ (Cert.Attn.runAcc_succ A r d j.val j.isLt).symm
  refine congrArg₂ (· + ·)
    (congrArg₂ (· * ·) (step_rescale A r j rr x0 x1 x2 x3 hx0 hx1 hx2 hx3 s0 hs0) (hs2 d)) ?_
  exact Finset.sum_congr rfl fun k _ =>
    congrArg₂ (· * ·) (step_weight A r j rr x0 x1 x2 x3 hx0 hx1 hx2 hx3 s0 hs0 k) (hx0 k d)

/-- After the fourth tile the stored quotient is the running softmax's result. -/
theorem step_ctx (A : Args) (r : Fin 64) (rr : Fin 8) (acc : Vec Ideal S8x512 .f32) (den : Vec Ideal S8x1 .f32)
    (d : Fin 512) (hacc : acc (ix2 rr d) = runAcc A r d 4) (hden : den (ix2 rr (0 : Fin 1)) = runDen A r 4) :
    k0_pay4 (F := Ideal) acc den (ix2 rr d) = onlineContext A r d := by
  refine (pay4_apply acc den rr d).trans ?_
  unfold onlineContext
  exact congrArg₂ Ideal.div hacc hden

/-! ## The first tile: the three running quantities start from their reset values -/

theorem step_max0 (A : Args) (r : Fin 64) (rr : Fin 8)
    (x0 : Vec Ideal S8x512x512 .f32) (x1 : Vec Ideal S512x256 .f32) (x2 : Vec Ideal S256 .f32)
    (x3 : Vec Ideal S1x256 .f32)
    (hx0 : ∀ (k : Fin 512) (d : Fin 512), x0 (ix3 rr k d) = A.x (ix3 r (pos (0 : Fin 4) k) d))
    (hx1 : ∀ i, x1 i = A.W i) (hx2 : ∀ i, x2 i = A.b i)
    (hx3 : ∀ p : Fin 256, x3 (ix2 (0 : Fin 1) p) = A.u (ix2 p (0 : Fin 1))) :
    k0_pay3 (F := Ideal) (k0_pay9 (F := Ideal) x0 x1 x2 x3 (k0_pay6 (F := Ideal))) (ix2 rr (0 : Fin 1))
      = runMax A r 1 :=
  step_max A r 0 rr x0 x1 x2 x3 hx0 hx1 hx2 hx3 _ (pay6_apply rr)

theorem step_den0 (A : Args) (r : Fin 64) (rr : Fin 8)
    (x0 : Vec Ideal S8x512x512 .f32) (x1 : Vec Ideal S512x256 .f32) (x2 : Vec Ideal S256 .f32)
    (x3 : Vec Ideal S1x256 .f32)
    (hx0 : ∀ (k : Fin 512) (d : Fin 512), x0 (ix3 rr k d) = A.x (ix3 r (pos (0 : Fin 4) k) d))
    (hx1 : ∀ i, x1 i = A.W i) (hx2 : ∀ i, x2 i = A.b i)
    (hx3 : ∀ p : Fin 256, x3 (ix2 (0 : Fin 1) p) = A.u (ix2 p (0 : Fin 1))) :
    k0_pay1 (F := Ideal) (k0_pay10 (F := Ideal) x0 x1 x2 x3 (k0_pay6 (F := Ideal)) (k0_pay6 (F := Ideal)))
        (k0_pay12 (F := Ideal) x0 x1 x2 x3 (k0_pay6 (F := Ideal))) (k0_pay7 (F := Ideal)) (ix2 rr (0 : Fin 1))
      = runDen A r 1 :=
  step_den A r 0 rr x0 x1 x2 x3 hx0 hx1 hx2 hx3 _ _ (pay6_apply rr) (pay7_apply rr)

theorem step_acc0 (A : Args) (r : Fin 64) (rr : Fin 8)
    (x0 : Vec Ideal S8x512x512 .f32) (x1 : Vec Ideal S512x256 .f32) (x2 : Vec Ideal S256 .f32)
    (x3 : Vec Ideal S1x256 .f32)
    (hx0 : ∀ (k : Fin 512) (d : Fin 512), x0 (ix3 rr k d) = A.x (ix3 r (pos (0 : Fin 4) k) d))
    (hx1 : ∀ i, x1 i = A.W i) (hx2 : ∀ i, x2 i = A.b i)
    (hx3 : ∀ p : Fin 256, x3 (ix2 (0 : Fin 1) p) = A.u (ix2 p (0 : Fin 1))) (d : Fin 512) :
    k0_pay2 (F := Ideal) x0 (k0_pay10 (F := Ideal) x0 x1 x2 x3 (k0_pay6 (F := Ideal)) (k0_pay6 (F := Ideal)))
        (k0_pay11 (F := Ideal) x0 x1 x2 x3 (k0_pay6 (F := Ideal))) (k0_pay8 (F := Ideal)) (ix2 rr d)
      = runAcc A r d 1 :=
  step_acc A r 0 rr x0 x1 x2 x3 hx0 hx1 hx2 hx3 _ _ (pay6_apply rr) (fun d' => pay8_apply rr d') d

end Cert.KernelIdeal.Hand
-- ==== Proof.FusedInv.lean ====
/-
  What the fused kernel's buffers hold after every grid point.

  The grid is 8 × 4: point `n` works on the block of eight batch rows `n / 4` and on the sequence tile `n % 4`.
  Suppose the region is entered with the arguments in place.  Then after point `n`, at row `rr` of the block,
  i.e. at the batch row `r = 8·(n/4) + rr`:

    • the running maximum, the running denominator and the running weighted sum are the specification's
      `runMax`, `runDen`, `runAcc` after tile `n % 4`;
    • the logits window holds the logits of the tile's positions;
    • at a last tile (`n % 4 = 3`) the context window holds the running softmax's result.

  By induction on the point.  At a first tile the three running quantities restart from their reset values, which
  are the recurrences' start values; at a later tile they continue from what the point before left, which is the
  same block of rows one tile earlier.  One step of the kernel's stored values is one step of the recurrences.
-/
import proofs.«123799_j49039936586174_2_alg».proof.Proof.FusedPieces
import proofs.«123799_j49039936586174_2_alg».proof.Proof.FusedBlocks
import proofs.«123799_j49039936586174_2_alg».proof.Proof.FusedStep

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Attn (Args logit pos runMax runDen runAcc onlineContext negBig)

variable (V : (c : Dev nD) → (b : Ref sig .tc) → Buf (Elt Ideal) ((c : Thread nD τ).loc b))

/-- The region is entered with the four arguments (the last one transposed to a row) in place. -/
structure Entry (A : Args) (c : Dev nD) : Prop where
  x : ∀ i, V c main_arg0 i = A.x i
  W : ∀ i, V c main_arg1 i = A.W i
  b : ∀ i, V c main_arg2 i = A.b i
  u : ∀ p : Fin 256, V c main_v0 (ix2 (0 : Fin 1) p) = A.u (ix2 p (0 : Fin 1))

/-! ## The input blocks of a point -/

/-- The point's block of the inputs, of the weights, of the bias and of the u-row. -/
abbrev blk0 (c : Dev nD) (t : Fin cfg0.N) : Vec Ideal S8x512x512 .f32 := iblk0 V c 0 t
abbrev blk1 (c : Dev nD) (t : Fin cfg0.N) : Vec Ideal S512x256 .f32 := iblk0 V c 1 t
abbrev blk2 (c : Dev nD) (t : Fin cfg0.N) : Vec Ideal S256 .f32 := iblk0 V c 2 t
abbrev blk3 (c : Dev nD) (t : Fin cfg0.N) : Vec Ideal S1x256 .f32 := iblk0 V c 3 t

/-- The sequence tile a point works on. -/
def tile (t : Fin cfg0.N) : Fin 4 := ⟨t.val % 4, Nat.mod_lt _ (by decide)⟩

variable {V} {A : Args} {c : Dev nD}

theorem blk0_entry (hE : Entry V A c) (t : Fin cfg0.N) (rr : Fin 8) (r : Fin 64)
    (hr : r.val = 8 * (t.val / 4) + rr.val) (k : Fin 512) (d : Fin 512) :
    blk0 V c t (ix3 rr k d) = A.x (ix3 r (pos (tile t) k) d) :=
  (iblk0_0_apply_of V c t rr k d r (pos (tile t) k) hr rfl).trans (hE.x _)

theorem blk1_entry (hE : Entry V A c) (t : Fin cfg0.N) (i : S512x256.Idx) : blk1 V c t i = A.W i :=
  (congrFun (iblk0_1_eq V c t) i).trans (hE.W i)

theorem blk2_entry (hE : Entry V A c) (t : Fin cfg0.N) (i : S256.Idx) : blk2 V c t i = A.b i :=
  (congrFun (iblk0_2_eq V c t) i).trans (hE.b i)

theorem blk3_entry (hE : Entry V A c) (t : Fin cfg0.N) (p : Fin 256) :
    blk3 V c t (ix2 (0 : Fin 1) p) = A.u (ix2 p (0 : Fin 1)) :=
  (congrFun (iblk0_3_eq V c t) _).trans (hE.u p)

/-! ## What each case leaves, on the point's blocks -/

variable (V) (c)

theorem outsA_o4 (t : Fin cfg0.N) (hc0 : cond0_0 (grid0.coords t)) (hc1 : ¬cond0_1 (grid0.coords t)) :
    (outsA V c t hc0 hc1).o4 = k0_pay5 (F := Ideal) (blk0 V c t) (blk1 V c t) (blk2 V c t) (blk3 V c t) :=
  o4_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t)

theorem outsA_s0 (t : Fin cfg0.N) (hc0 : cond0_0 (grid0.coords t)) (hc1 : ¬cond0_1 (grid0.coords t)) :
    (outsA V c t hc0 hc1).s0 = k0_pay3 (F := Ideal) (k0_pay9 (F := Ideal) (blk0 V c t) (blk1 V c t) (blk2 V c t) (blk3 V c t) (k0_pay6 (F := Ideal))) :=
  s0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t)

theorem outsA_s1 (t : Fin cfg0.N) (hc0 : cond0_0 (grid0.coords t)) (hc1 : ¬cond0_1 (grid0.coords t)) :
    (outsA V c t hc0 hc1).s1 = k0_pay1 (F := Ideal) (k0_pay10 (F := Ideal) (blk0 V c t) (blk1 V c t) (blk2 V c t) (blk3 V c t) (k0_pay6 (F := Ideal)) (k0_pay6 (F := Ideal))) (k0_pay12 (F := Ideal) (blk0 V c t) (blk1 V c t) (blk2 V c t) (blk3 V c t) (k0_pay6 (F := Ideal))) (k0_pay7 (F := Ideal)) :=
  s1_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t)

theorem outsA_s2 (t : Fin cfg0.N) (hc0 : cond0_0 (grid0.coords t)) (hc1 : ¬cond0_1 (grid0.coords t)) :
    (outsA V c t hc0 hc1).s2 = k0_pay2 (F := Ideal) (blk0 V c t) (k0_pay10 (F := Ideal) (blk0 V c t) (blk1 V c t) (blk2 V c t) (blk3 V c t) (k0_pay6 (F := Ideal)) (k0_pay6 (F := Ideal))) (k0_pay11 (F := Ideal) (blk0 V c t) (blk1 V c t) (blk2 V c t) (blk3 V c t) (k0_pay6 (F := Ideal))) (k0_pay8 (F := Ideal)) :=
  s2_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t)

theorem outsB_o4 (t : Fin cfg0.N) (hc0 : ¬cond0_0 (grid0.coords t)) (hc1 : ¬cond0_1 (grid0.coords t)) (p : Outs0 Ideal) :
    (outsB V c t hc0 hc1 p).o4 = k0_pay5 (F := Ideal) (blk0 V c t) (blk1 V c t) (blk2 V c t) (blk3 V c t) :=
  o4_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t) p.s0 p.s1 p.s2

theorem outsB_s0 (t : Fin cfg0.N) (hc0 : ¬cond0_0 (grid0.coords t)) (hc1 : ¬cond0_1 (grid0.coords t)) (p : Outs0 Ideal) :
    (outsB V c t hc0 hc1 p).s0 = k0_pay3 (F := Ideal) (k0_pay9 (F := Ideal) (blk0 V c t) (blk1 V c t) (blk2 V c t) (blk3 V c t) p.s0) :=
  s0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t) p.s0 p.s1 p.s2

theorem outsB_s1 (t : Fin cfg0.N) (hc0 : ¬cond0_0 (grid0.coords t)) (hc1 : ¬cond0_1 (grid0.coords t)) (p : Outs0 Ideal) :
    (outsB V c t hc0 hc1 p).s1 = k0_pay1 (F := Ideal) (k0_pay10 (F := Ideal) (blk0 V c t) (blk1 V c t) (blk2 V c t) (blk3 V c t) p.s0 p.s0) (k0_pay12 (F := Ideal) (blk0 V c t) (blk1 V c t) (blk2 V c t) (blk3 V c t) p.s0) p.s1 :=
  s1_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t) p.s0 p.s1 p.s2

theorem outsB_s2 (t : Fin cfg0.N) (hc0 : ¬cond0_0 (grid0.coords t)) (hc1 : ¬cond0_1 (grid0.coords t)) (p : Outs0 Ideal) :
    (outsB V c t hc0 hc1 p).s2 = k0_pay2 (F := Ideal) (blk0 V c t) (k0_pay10 (F := Ideal) (blk0 V c t) (blk1 V c t) (blk2 V c t) (blk3 V c t) p.s0 p.s0) (k0_pay11 (F := Ideal) (blk0 V c t) (blk1 V c t) (blk2 V c t) (blk3 V c t) p.s0) p.s2 :=
  s2_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t) p.s0 p.s1 p.s2

theorem outsC_o4 (t : Fin cfg0.N) (hc0 : ¬cond0_0 (grid0.coords t)) (hc1 : cond0_1 (grid0.coords t)) (p : Outs0 Ideal) :
    (outsC V c t hc0 hc1 p).o4 = k0_pay5 (F := Ideal) (blk0 V c t) (blk1 V c t) (blk2 V c t) (blk3 V c t) :=
  o4_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t) p.s0 p.s1 p.s2

theorem outsC_s0 (t : Fin cfg0.N) (hc0 : ¬cond0_0 (grid0.coords t)) (hc1 : cond0_1 (grid0.coords t)) (p : Outs0 Ideal) :
    (outsC V c t hc0 hc1 p).s0 = k0_pay3 (F := Ideal) (k0_pay9 (F := Ideal) (blk0 V c t) (blk1 V c t) (blk2 V c t) (blk3 V c t) p.s0) :=
  s0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t) p.s0 p.s1 p.s2

theorem outsC_s1 (t : Fin cfg0.N) (hc0 : ¬cond0_0 (grid0.coords t)) (hc1 : cond0_1 (grid0.coords t)) (p : Outs0 Ideal) :
    (outsC V c t hc0 hc1 p).s1 = k0_pay1 (F := Ideal) (k0_pay10 (F := Ideal) (blk0 V c t) (blk1 V c t) (blk2 V c t) (blk3 V c t) p.s0 p.s0) (k0_pay12 (F := Ideal) (blk0 V c t) (blk1 V c t) (blk2 V c t) (blk3 V c t) p.s0) p.s1 :=
  s1_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t) p.s0 p.s1 p.s2

theorem outsC_s2 (t : Fin cfg0.N) (hc0 : ¬cond0_0 (grid0.coords t)) (hc1 : cond0_1 (grid0.coords t)) (p : Outs0 Ideal) :
    (outsC V c t hc0 hc1 p).s2 = k0_pay2 (F := Ideal) (blk0 V c t) (k0_pay10 (F := Ideal) (blk0 V c t) (blk1 V c t) (blk2 V c t) (blk3 V c t) p.s0 p.s0) (k0_pay11 (F := Ideal) (blk0 V c t) (blk1 V c t) (blk2 V c t) (blk3 V c t) p.s0) p.s2 :=
  s2_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t) p.s0 p.s1 p.s2

/-- At a last tile the context window holds the quotient of the two running sums the point leaves. -/
theorem outsC_o5 (t : Fin cfg0.N) (hc0 : ¬cond0_0 (grid0.coords t)) (hc1 : cond0_1 (grid0.coords t)) (p : Outs0 Ideal) :
    (outsC V c t hc0 hc1 p).o5 = k0_pay4 (F := Ideal) (outsC V c t hc0 hc1 p).s2 (outsC V c t hc0 hc1 p).s1 := by
  rw [outsC_s2 V c t hc0 hc1 p, outsC_s1 V c t hc0 hc1 p]
  exact o5_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) hc0 hc1 (blk0 V c t) (blk1 V c t) (blk2 V c t) (blk3 V c t) p.s0 p.s1 p.s2

/-! ## The invariant -/

variable {V} {c}

/-- What the buffers `o` hold after point `n`, row by row, against the recurrences: the three running
    quantities after tile `n % 4` and the tile's logits. -/
structure InvAt (A : Args) (n : ℕ) (o : Outs0 Ideal) : Prop where
  s0 : ∀ (rr : Fin 8) (r : Fin 64), r.val = 8 * (n / 4) + rr.val → o.s0 (ix2 rr (0 : Fin 1)) = runMax A r (n % 4 + 1)
  s1 : ∀ (rr : Fin 8) (r : Fin 64), r.val = 8 * (n / 4) + rr.val → o.s1 (ix2 rr (0 : Fin 1)) = runDen A r (n % 4 + 1)
  s2 : ∀ (rr : Fin 8) (r : Fin 64), r.val = 8 * (n / 4) + rr.val → ∀ d : Fin 512, o.s2 (ix2 rr d) = runAcc A r d (n % 4 + 1)
  o4 : ∀ (rr : Fin 8) (r : Fin 64), r.val = 8 * (n / 4) + rr.val → ∀ (k : Fin 512) (s : Fin 2048),
    s.val = 512 * (n % 4) + k.val → o.o4 (ix2 rr k) = logit A r s

/-- One point: buffers that are the kernel's stored values of the point's blocks, continuing from scratch contents
    that are the running quantities BEFORE the point's tile, hold the running quantities AFTER it. -/
theorem InvAt.of_fields (hE : Entry V A c) (t : Fin cfg0.N) (o : Outs0 Ideal)
    (S0 S1 : Vec Ideal S8x1 .f32) (S2 : Vec Ideal S8x512 .f32)
    (e4 : o.o4 = k0_pay5 (F := Ideal) (blk0 V c t) (blk1 V c t) (blk2 V c t) (blk3 V c t))
    (e0 : o.s0 = k0_pay3 (F := Ideal) (k0_pay9 (F := Ideal) (blk0 V c t) (blk1 V c t) (blk2 V c t) (blk3 V c t) S0))
    (e1 : o.s1 = k0_pay1 (F := Ideal) (k0_pay10 (F := Ideal) (blk0 V c t) (blk1 V c t) (blk2 V c t) (blk3 V c t) S0 S0) (k0_pay12 (F := Ideal) (blk0 V c t) (blk1 V c t) (blk2 V c t) (blk3 V c t) S0) S1)
    (e2 : o.s2 = k0_pay2 (F := Ideal) (blk0 V c t) (k0_pay10 (F := Ideal) (blk0 V c t) (blk1 V c t) (blk2 V c t) (blk3 V c t) S0 S0)
      (k0_pay11 (F := Ideal) (blk0 V c t) (blk1 V c t) (blk2 V c t) (blk3 V c t) S0) S2)
    (h0 : ∀ (rr : Fin 8) (r : Fin 64), r.val = 8 * (t.val / 4) + rr.val →
      S0 (ix2 rr (0 : Fin 1)) = runMax A r (t.val % 4))
    (h1 : ∀ (rr : Fin 8) (r : Fin 64), r.val = 8 * (t.val / 4) + rr.val →
      S1 (ix2 rr (0 : Fin 1)) = runDen A r (t.val % 4))
    (h2 : ∀ (rr : Fin 8) (r : Fin 64), r.val = 8 * (t.val / 4) + rr.val →
      ∀ d : Fin 512, S2 (ix2 rr d) = runAcc A r d (t.val % 4)) :
    InvAt A t.val o where
  s0 rr r hr := (congrFun e0 _).trans
    (step_max A r (tile t) rr _ _ _ _ (blk0_entry hE t rr r hr) (blk1_entry hE t) (blk2_entry hE t) (blk3_entry hE t) S0 (h0 rr r hr))
  s1 rr r hr := (congrFun e1 _).trans
    (step_den A r (tile t) rr _ _ _ _ (blk0_entry hE t rr r hr) (blk1_entry hE t) (blk2_entry hE t) (blk3_entry hE t) S0 S1 (h0 rr r hr) (h1 rr r hr))
  s2 rr r hr d := (congrFun e2 _).trans
    (step_acc A r (tile t) rr _ _ _ _ (blk0_entry hE t rr r hr) (blk1_entry hE t) (blk2_entry hE t) (blk3_entry hE t) S0 S2 (h0 rr r hr) (h2 rr r hr) d)
  o4 rr r hr k s hs := by
    have e : s = pos (tile t) k := Fin.ext hs
    rw [e]
    exact (congrFun e4 _).trans (step_logit A r (tile t) rr _ _ _ _ (blk0_entry hE t rr r hr) (blk1_entry hE t) (blk2_entry hE t) (blk3_entry hE t) k)

/-- A first tile: the running quantities restart from the reset values, which are the recurrences' start values. -/
theorem inv_first (hE : Entry V A c) (t : Fin cfg0.N) (h0 : t.val % 4 = 0) :
    InvAt A t.val (outsAt0 V c t.val t.isLt) := by
  have hc0 : cond0_0 (grid0.coords t) := (hcond0_0 t).mpr h0
  have hc1 : ¬cond0_1 (grid0.coords t) := fun h => by have := (hcond0_1 t).mp h; omega
  rw [outsAt0_A V c t h0 hc0 hc1]
  refine InvAt.of_fields hE t _ (k0_pay6 (F := Ideal)) (k0_pay7 (F := Ideal)) (k0_pay8 (F := Ideal))
    (outsA_o4 V c t hc0 hc1) (outsA_s0 V c t hc0 hc1) (outsA_s1 V c t hc0 hc1) (outsA_s2 V c t hc0 hc1) ?_ ?_ ?_
  · intro rr r _
    rw [h0]
    exact pay6_apply rr
  · intro rr r _
    rw [h0]
    exact pay7_apply rr
  · intro rr r _ d
    rw [h0]
    exact pay8_apply rr d

/-- A later tile: the point continues from what the point before left — the same block of rows, one tile earlier. -/
theorem inv_later (hE : Entry V A c) (t : Fin cfg0.N) (h0 : ¬t.val % 4 = 0)
    (ih : InvAt A (t.val - 1) (outsAt0 V c (t.val - 1) (Nat.lt_of_le_of_lt (Nat.sub_le _ _) t.isLt))) :
    InvAt A t.val (outsAt0 V c t.val t.isLt) := by
  have hc0 : ¬cond0_0 (grid0.coords t) := fun h => h0 ((hcond0_0 t).mp h)
  have hdiv : (t.val - 1) / 4 = t.val / 4 := by omega
  have hmod : (t.val - 1) % 4 + 1 = t.val % 4 := by omega
  have hS0 : ∀ (rr : Fin 8) (r : Fin 64), r.val = 8 * (t.val / 4) + rr.val →
      (outsAt0 V c (t.val - 1) (Nat.lt_of_le_of_lt (Nat.sub_le _ _) t.isLt)).s0 (ix2 rr (0 : Fin 1))
        = runMax A r (t.val % 4) :=
    fun rr r hr => (ih.s0 rr r (by rw [hdiv]; exact hr)).trans (congrArg (runMax A r) hmod)
  have hS1 : ∀ (rr : Fin 8) (r : Fin 64), r.val = 8 * (t.val / 4) + rr.val →
      (outsAt0 V c (t.val - 1) (Nat.lt_of_le_of_lt (Nat.sub_le _ _) t.isLt)).s1 (ix2 rr (0 : Fin 1))
        = runDen A r (t.val % 4) :=
    fun rr r hr => (ih.s1 rr r (by rw [hdiv]; exact hr)).trans (congrArg (runDen A r) hmod)
  have hS2 : ∀ (rr : Fin 8) (r : Fin 64), r.val = 8 * (t.val / 4) + rr.val → ∀ d : Fin 512,
      (outsAt0 V c (t.val - 1) (Nat.lt_of_le_of_lt (Nat.sub_le _ _) t.isLt)).s2 (ix2 rr d)
        = runAcc A r d (t.val % 4) :=
    fun rr r hr d => (ih.s2 rr r (by rw [hdiv]; exact hr) d).trans (congrArg (runAcc A r d) hmod)
  by_cases h1 : t.val % 4 = 3
  · have hc1 : cond0_1 (grid0.coords t) := (hcond0_1 t).mpr h1
    rw [outsAt0_C V c t h0 h1 hc0 hc1]
    exact InvAt.of_fields hE t _ _ _ _ (outsC_o4 V c t hc0 hc1 _) (outsC_s0 V c t hc0 hc1 _)
      (outsC_s1 V c t hc0 hc1 _) (outsC_s2 V c t hc0 hc1 _) hS0 hS1 hS2
  · have hc1 : ¬cond0_1 (grid0.coords t) := fun h => h1 ((hcond0_1 t).mp h)
    rw [outsAt0_B V c t h0 h1 hc0 hc1]
    exact InvAt.of_fields hE t _ _ _ _ (outsB_o4 V c t hc0 hc1 _) (outsB_s0 V c t hc0 hc1 _)
      (outsB_s1 V c t hc0 hc1 _) (outsB_s2 V c t hc0 hc1 _) hS0 hS1 hS2

/-- THE INVARIANT, at every point, by induction on the point. -/
theorem inv (hE : Entry V A c) : ∀ (n : ℕ) (hn : n < cfg0.N), InvAt A n (outsAt0 V c n hn) := by
  intro n
  induction n with
  | zero => exact fun hn => inv_first hE ⟨0, hn⟩ rfl
  | succ n ih =>
    intro hn
    by_cases h0 : (n + 1) % 4 = 0
    · exact inv_first hE ⟨n + 1, hn⟩ h0
    · exact inv_later hE ⟨n + 1, hn⟩ h0 (ih (Nat.lt_of_succ_lt hn))

/-! ## The invariant's parts, as they are used -/

theorem inv_s0 (hE : Entry V A c) (n : ℕ) (hn : n < cfg0.N) (rr : Fin 8) (r : Fin 64) (hr : r.val = 8 * (n / 4) + rr.val) :
    (outsAt0 V c n hn).s0 (ix2 rr (0 : Fin 1)) = runMax A r (n % 4 + 1) := (inv hE n hn).s0 rr r hr

theorem inv_s1 (hE : Entry V A c) (n : ℕ) (hn : n < cfg0.N) (rr : Fin 8) (r : Fin 64) (hr : r.val = 8 * (n / 4) + rr.val) :
    (outsAt0 V c n hn).s1 (ix2 rr (0 : Fin 1)) = runDen A r (n % 4 + 1) := (inv hE n hn).s1 rr r hr

theorem inv_s2 (hE : Entry V A c) (n : ℕ) (hn : n < cfg0.N) (rr : Fin 8) (r : Fin 64) (hr : r.val = 8 * (n / 4) + rr.val)
    (d : Fin 512) : (outsAt0 V c n hn).s2 (ix2 rr d) = runAcc A r d (n % 4 + 1) := (inv hE n hn).s2 rr r hr d

theorem inv_o4 (hE : Entry V A c) (n : ℕ) (hn : n < cfg0.N) (rr : Fin 8) (r : Fin 64) (hr : r.val = 8 * (n / 4) + rr.val)
    (k : Fin 512) (s : Fin 2048) (hs : s.val = 512 * (n % 4) + k.val) :
    (outsAt0 V c n hn).o4 (ix2 rr k) = logit A r s := (inv hE n hn).o4 rr r hr k s hs

/-- At a last tile the context window holds the running softmax's result. -/
theorem inv_o5 (hE : Entry V A c) (n : ℕ) (hn : n < cfg0.N) (h3 : n % 4 = 3) (rr : Fin 8) (r : Fin 64)
    (hr : r.val = 8 * (n / 4) + rr.val) (d : Fin 512) : (outsAt0 V c n hn).o5 (ix2 rr d) = onlineContext A r d := by
  have h0 : ¬n % 4 = 0 := by omega
  have hc0 : ¬cond0_0 (grid0.coords ⟨n, hn⟩) := fun h => h0 ((hcond0_0 ⟨n, hn⟩).mp h)
  have hc1 : cond0_1 (grid0.coords ⟨n, hn⟩) := (hcond0_1 ⟨n, hn⟩).mpr h3
  have e5 : (outsAt0 V c n hn).o5 = k0_pay4 (F := Ideal) (outsAt0 V c n hn).s2 (outsAt0 V c n hn).s1 := by
    rw [show outsAt0 V c n hn = _ from outsAt0_C V c ⟨n, hn⟩ h0 h3 hc0 hc1]
    exact outsC_o5 V c ⟨n, hn⟩ hc0 hc1 _
  rw [e5]
  refine step_ctx A r rr _ _ d ?_ ?_
  · have h := inv_s2 hE n hn rr r hr d
    rw [h3] at h
    exact h
  · have h := inv_s1 hE n hn rr r hr
    rw [h3] at h
    exact h

theorem inv_o4' (hE : Entry V A c) (t : Fin cfg0.N) (rr : Fin 8) (k : Fin 512) (r : Fin 64) (s : Fin 2048)
    (hr : r.val = 8 * (t.val / 4) + rr.val) (hs : s.val = 512 * (t.val % 4) + k.val) :
    (outsAt0 V c t.val t.isLt).o4 (ix2 rr k) = logit A r s :=
  inv_o4 hE t.val t.isLt rr r hr k s hs

theorem inv_o5' (hE : Entry V A c) (t : Fin cfg0.N) (h3 : t.val % 4 = 3) (rr : Fin 8) (d : Fin 512) (r : Fin 64)
    (hr : r.val = 8 * (t.val / 4) + rr.val) :
    (outsAt0 V c t.val t.isLt).o5 (ix2 rr d) = onlineContext A r d :=
  inv_o5 hE t.val t.isLt h3 rr r hr d

end Cert.KernelIdeal.Hand

end
-- ==== Proof.ScoresValue.lean ====
/-
  The value the scores kernel stores, at the ideal numbers, index by index.

  The body's one stored value is a pure function of the 64 × 2048 block of logits it loads. Read at row `r`
  and position `s` it is the softmax weight of that position within its row:

      exp (v(r,s) − M r) / Σ_s' exp (v(r,s') − M r),      M r = sup_s' v(r,s'),

  where the row maximum is taken starting from −∞ (so it is the supremum of the row) and the row sum starts
  from 0. The steps: the pointwise operations read at an index; a row-reduced vector re-laid as a column and
  spread over the columns reads, at (r, s), the vector at r; the lane maximum is the fold of `max` from −∞
  over the row, which is the row's supremum; the lane sum is the sum over the row. The body loads and stores
  through the whole block, so the block it leaves is this function of the block it found.
-/
import proofs.«123799_j49039936586174_2_alg».proof.Proof.ScoresRegion
import proofs.«123799_j49039936586174_2_alg».proof.Proof.LibColumn
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

/-! ## Small facts about the extended reals and the index maps -/

/-- Folding `max` from −∞ over a finite set is the supremum over it. -/
theorem fold_max_bot_eq_sup {ι : Type} [DecidableEq ι] (S : Finset ι) (f : ι → EReal) :
    S.fold max ⊥ f = S.sup f := by
  induction S using Finset.induction_on with
  | empty => rfl
  | insert a S ha ih => rw [Finset.fold_insert ha, Finset.sup_insert, ih]

/-- The single-precision word of −∞ denotes the bottom element. -/
theorem ofBits_negInf_f32 : Ideal.ofBits .f32 0xFF800000#32 = ⊥ := by simp [Ideal.ofBits, Ideal.ieee]

/-- The exponential of a vector, read at an index. -/
theorem exp_apply {s : Shape} {φ : FTy} (a : FVec Ideal s φ) (i : s.Idx) : exp a i = Ideal.exp (a i) := rfl

/-- The index of the block over row `r` with lane `k` inserted on the reduced axis is `(r, k)`. -/
theorem lift_row (h : S64x2048.Reduces [1] S64) (r : Fin 64) (k : Fin 2048) :
    h.lift (ix1 r) k = ix2 r k := by
  funext c
  apply Fin.ext
  match c with
  | ⟨0, _⟩ => rfl
  | ⟨1, _⟩ => rfl

/-! ## The non-pointwise operations, read at an index -/

/-- A row-reduced vector re-laid as a column and spread over the 2048 columns reads, at `(r, s)`, the vector at `r`. -/
theorem column_apply (w : FVec Ideal S64 .f32) (hc : S64.ShapeCasts S64x1) (hb : S64x1.Broadcasts S64x2048)
    (r : Fin 64) (s : Fin 2048) :
    broadcastTo S64x2048 (shapeCast S64x1 w hc) hb (ix2 r s) = w (ix1 r) :=
  (Cert.LibColumn.broadcastTo_a1_ab_apply (shapeCast S64x1 w hc) hb r s).trans
    (Cert.LibColumn.shapeCast_a_a1_apply w hc r (0 : Fin 1))

/-- The lane maximum from −∞, at row `r`, is the supremum of the row. -/
theorem rowMax_apply (v : FVec Ideal S64x2048 .f32) (h : S64x2048.Reduces [1] S64) (hφ : FKind.Formats .f32)
    (hacc : (0xFF800000#32 : BitVec 32) = FKind.maximumf.neutral .f32 hφ) (r : Fin 64) :
    multiReduction (F := Ideal) .maximumf [1] S64 v 0xFF800000#32 h hφ hacc (ix1 r)
      = Finset.univ.sup fun s' : Fin 2048 => v (ix2 r s') := by
  refine (Ideal.multiReduction_maximumf_single v _ h hφ hacc (ix1 r)).trans ?_
  refine (congrArg (fun b : EReal => Finset.fold max b (v ∘ h.lift (ix1 r)) Finset.univ) ofBits_negInf_f32).trans ?_
  refine (fold_max_bot_eq_sup Finset.univ (v ∘ h.lift (ix1 r))).trans ?_
  exact Finset.sup_congr rfl fun k _ => congrArg v (lift_row h r k)

/-- The lane sum from 0, at row `r`, is the sum over the row. -/
theorem rowSum_apply (v : FVec Ideal S64x2048 .f32) (h : S64x2048.Reduces [1] S64) (hφ : FKind.Formats .f32)
    (hacc : (0x00000000#32 : BitVec 32) = FKind.add.neutral .f32 hφ) (r : Fin 64) :
    multiReduction (F := Ideal) .add [1] S64 v 0x00000000#32 h hφ hacc (ix1 r)
      = ∑ s' : Fin 2048, v (ix2 r s') := by
  refine (Ideal.multiReduction_add_single v _ h hφ hacc (ix1 r)).trans ?_
  exact Finset.sum_congr rfl fun k _ => congrArg v (lift_row h r k)

/-! ## The payload at an index -/

/-- The stored value at `(r, s)`: the softmax weight of position `s` within row `r` of the loaded block. -/
theorem scores_pay (v : Vec Ideal S64x2048 .f32) (r : Fin 64) (s : Fin 2048) :
    k1_pay1 (F := Ideal) v (ix2 r s)
      = Ideal.div (Ideal.exp (v (ix2 r s) - Finset.univ.sup fun s' : Fin 2048 => v (ix2 r s')))
          (∑ s' : Fin 2048, Ideal.exp (v (ix2 r s') - Finset.univ.sup fun s'' : Fin 2048 => v (ix2 r s''))) := by
  unfold k1_pay1
  dsimp only
  rw [shapeCast_self]
  rw [divf_apply, exp_apply, subf_apply, column_apply, column_apply]
  refine congrArg₂ Ideal.div (congrArg (fun m => Ideal.exp (v (ix2 r s) - m)) (rowMax_apply v _ _ _ r)) ?_
  refine (rowSum_apply _ _ _ _ r).trans (Finset.sum_congr rfl fun k _ => ?_)
  rw [exp_apply, subf_apply, column_apply]
  exact congrArg (fun m => Ideal.exp (v (ix2 r k) - m)) (rowMax_apply v _ _ _ r)

/-! ## The block the body leaves -/

/-- The zero offsets of the body's one rectangle, as a constant function. -/
theorem off_zero : (![0, 0] : Fin 2 → Nat) = fun _ => 0 := funext fun a => by fin_cases a <;> rfl

/-- The output block after the body, at `(r, s)`: the softmax weight of position `s` within row `r` of the
    input block. -/
theorem out1_1_apply (x0 : Vec Ideal S64x2048 .f32) (r : Fin 64) (s : Fin 2048) :
    out1_1 (F := Ideal) x0 (ix2 r s)
      = Ideal.div (Ideal.exp (x0 (ix2 r s) - Finset.univ.sup fun s' : Fin 2048 => x0 (ix2 r s')))
          (∑ s' : Fin 2048, Ideal.exp (x0 (ix2 r s') - Finset.univ.sup fun s'' : Fin 2048 => x0 (ix2 r s''))) := by
  unfold out1_1
  rw [View.canon_unit_zero off_zero, View.ld_unit_zero (S := S64x2048) off_zero]
  exact scores_pay x0 r s

end Cert.KernelIdeal.Hand

end
-- ==== Proof.KernelValue.lean ====
/-
  The two results of the kernel program at the ideal instance, read off the fold of buffer contents.

  The context result is the fused kernel's second output: the block of 8 batch rows written back at the last
  sequence tile of each row block holds, for row r and feature d, the running weighted sum divided by the running
  denominator after the fourth tile — the running softmax's value `onlineContext`.  The scores result is the host's
  reshape of the scores kernel's output, which is the softmax (over the whole sequence, shifted by the row's maximum)
  of the logits array the fused kernel wrote block by block.
-/
import proofs.«123799_j49039936586174_2_alg».proof.Proof.KernelFrame
import proofs.«123799_j49039936586174_2_alg».proof.Proof.FusedFinal
import proofs.«123799_j49039936586174_2_alg».proof.Proof.FusedInv
import proofs.«123799_j49039936586174_2_alg».proof.Proof.ScoresValue
import Idealize.ShloMosaic.Lib.StableHlo.Run
import Idealize.ShloMosaic.Lib.ValueLayout
import proofs.«123799_j49039936586174_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Attn

variable (m : (ℓ : Loc nD τ sig) → Buf (Elt Ideal) ℓ) (ρ : Dev nD → PrngReg)

/-- The four argument arrays of core `c` at launch. -/
def argsOf (c : Dev nD) : Cert.Attn.Args :=
  ⟨m ((c : Thread nD τ).loc main_arg0), m ((c : Thread nD τ).loc main_arg1), m ((c : Thread nD τ).loc main_arg2), m ((c : Thread nD τ).loc main_arg3)⟩

/-! ## What the fused kernel is entered with -/

theorem W1_keep (c : Dev nD) (b : Ref sig .tc) (hb : (Proc.devRef .tc b : DevRef τ sig) ≠ Proc.devRef .tc main_v0) :
    W1 m ρ c (Proc.devRef .tc b) = m ((c : Thread nD τ).loc b) :=
  (StableHlo.after_of_forall_not_mem _ _ (List.forall_iff_forall_mem.mp (by
      simp only [hostOps0, List.Forall, StableHlo.unary_writes, Finset.mem_singleton]
      exact hb))).trans rfl

/-- The transposed `u`: the host's transposition of the [256, 1] argument into a [1, 256] row. -/
theorem W1_main_v0 (c : Dev nD) :
    W1 m ρ c (Proc.devRef .tc main_v0) = transpose S1x256 [1, 0] (m ((c : Thread nD τ).loc main_arg3)) transposes_S256x1_S1x256_1_0 := by
  show StableHlo.after hostOps0 (W0 m ρ c) (Proc.devRef .tc main_v0) = _
  after_results

theorem entry (c : Dev nD) : Entry (V1 m ρ) (argsOf m c) c where
  x i := congrFun (W1_keep m ρ c main_arg0 (StableHlo.devRef_ne_of_ne (by decide))) i
  W i := congrFun (W1_keep m ρ c main_arg1 (StableHlo.devRef_ne_of_ne (by decide))) i
  b i := congrFun (W1_keep m ρ c main_arg2 (StableHlo.devRef_ne_of_ne (by decide))) i
  u p := by
    show W1 m ρ c (Proc.devRef .tc main_v0) (ix2 (0 : Fin 1) p) = _
    rw [W1_main_v0]
    exact transpose_ix2_apply _ _ (0 : Fin 1) p

/-! ## The logits array and the context array after the fused kernel -/

/-- The logits, as an array. -/
def logitsArr (c : Dev nD) : S64x2048.Idx → EReal := fun i => logit (argsOf m c) (i 0) (i 1)
/-- The running softmax's context, as an array. -/
def onlineArr (c : Dev nD) : S64x512.Idx → EReal := fun i => onlineContext (argsOf m c) (i 0) (i 1)

theorem logits_final (c : Dev nD) : (dat0 (V1 m ρ) c).arrAt 4 cfg0.N = logitsArr m c :=
  final4 (V1 m ρ) c (logitsArr m c) fun t rr k r s hr hs => inv_o4' (entry m ρ c) t rr k r s hr hs

theorem context_final (c : Dev nD) : (dat0 (V1 m ρ) c).arrAt 5 cfg0.N = onlineArr m c :=
  final5 (V1 m ρ) c (onlineArr m c) fun t h3 rr d r hr => inv_o5' (entry m ρ c) t h3 rr d r hr

/-! ## The two results at the end -/

/-- THE CONTEXT RESULT: entry (r, d) of the first result is the running softmax's context. -/
theorem result_context (c : Dev nD) (r : Fin 64) (d : Fin 512) :
    W4 m ρ c (Proc.devRef .tc main_v1_1) (ix2 r d) = onlineContext (argsOf m c) r d := by
  have e : W4 m ρ c (Proc.devRef .tc main_v1_1) = onlineArr m c :=
    calc W4 m ρ c (Proc.devRef .tc main_v1_1)
      _ = W3 m ρ c (Proc.devRef .tc main_v1_1) := StableHlo.after_of_forall_not_mem _ _ (List.forall_iff_forall_mem.mp (by
            simp only [hostOps2, List.Forall, StableHlo.reshape_writes, Finset.mem_singleton]
            exact StableHlo.devRef_ne_of_ne (by decide)))
      _ = W2 m ρ c (Proc.devRef .tc main_v1_1) := W3_of_ne m ρ c main_v1_1 (by decide)
      _ = (dat0 (V1 m ρ) c).arrAt 5 cfg0.N := W2_arr m ρ c 5
      _ = onlineArr m c := context_final m ρ c
  rw [e]; rfl

/-- What the scores kernel is entered with at the logits array: the logits. -/
theorem V2_logits (c : Dev nD) : V2 m ρ c main_v1_0 = logitsArr m c :=
  (W2_arr m ρ c 4).trans (logits_final m ρ c)

/-- THE SCORES RESULT: entry (r, s, 0) of the second result is the softmax score of token (r, s). -/
theorem result_score (c : Dev nD) (r : Fin 64) (s : Fin 2048) :
    W4 m ρ c (Proc.devRef .tc main_v3) (ix3 r s (0 : Fin 1)) = score (argsOf m c) r s := by
  have e4 : W4 m ρ c (Proc.devRef .tc main_v3)
      = shapeCast S64x2048x1 (W3 m ρ c (Proc.devRef .tc main_v2)) shapeCasts_S64x2048_S64x2048x1 := by
    show StableHlo.after hostOps2 (W3 m ρ c) (Proc.devRef .tc main_v3) = _
    after_results
    rfl
  have e3 : W3 m ρ c (Proc.devRef .tc main_v2) = out1_1 (F := Ideal) (logitsArr m c) :=
    ((W3_arr m ρ c 1).trans (final_scores (V2 m ρ) c)).trans (congrArg (out1_1 (F := Ideal)) (V2_logits m ρ c))
  rw [e4, e3]
  refine (shapeCast_apply _ _ (ix3 r s (0 : Fin 1)) (ix2 r s) (by
    rw [Shape.rowMajor_val_two, Shape.rowMajor_val_three]
    show r.val * 2048 + s.val = (r.val * 2048 + s.val) * 1 + 0
    omega)).trans ?_
  rw [out1_1_apply]
  rfl

end Cert.KernelIdeal.Hand

end
-- ==== Proof.RefValue.lean ====
/-
  The reference program's two results, read index by index.

  The reference computes, for every batch row r and sequence position s,
      ℓ(r,s)   = Σ_p tanh(Σ_d x(r,s,d)·W(d,p) + b(p)) · u(p,0)              (two contractions, a bias, tanh),
      M(r)     = max(−∞, max_s ℓ(r,s))                                       (a maximum over the sequence axis),
      e(r,s)   = exp(ℓ(r,s) − M(r)),   D(r) = 0 + Σ_s e(r,s),                (the shifted exponentials and their sum),
      score(r,s) = e(r,s) / D(r),      context(r,d) = 0 + Σ_s score(r,s)·x(r,s,d).
  Each stage below reads one of these at an index: the contractions and the sums are sums over the contracted
  coordinate, the broadcasts only re-index, and the maximum over the sequence axis, a fold of `max` started at −∞,
  is the supremum over that axis because `max` is the lattice join and −∞ its bottom element.  No finiteness is
  used: both sides are the same expression over the extended reals.
-/
import proofs.«123799_j49039936586174_2_alg».proof.Proof.Gen.ReferenceIdeal.Read
import proofs.«123799_j49039936586174_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Cert.Attn

/-- The single-precision word of −∞ is the bottom element of the extended reals. -/
theorem negInf_eq_bot : Ideal.ofBits .f32 0xFF800000#32 = (⊥ : EReal) := by simp [Ideal.ofBits, Ideal.ieee]

/-- A fold of the maximum started at −∞ over a whole finite index type is the supremum over it: the maximum of two
    extended reals is their join, and the supremum of a finite family is by definition the fold of the join from ⊥. -/
theorem fold_max_eq_sup {ι : Type} [Fintype ι] (g : ι → EReal) :
    Finset.univ.fold (FloatOps.maximumf (F := Ideal) (φ := .f32)) (⊥ : EReal) g = Finset.univ.sup g := by
  rfl

variable (A : Args)

/-- The tanh stage at (r, s, p): the first contraction runs over the 512 features of token (r, s), the bias is
    broadcast from its single axis, so the entry is tanh(Σ_d x(r,s,d)·W(d,p) + b(p)). -/
theorem ref_proj (r : Fin 64) (s : Fin 2048) (p : Fin 256) :
    val_main_v4 (F := Ideal) A.x A.W A.b (ix3 r s p) = proj A r s p := by
  have e0l : ∀ d : Fin 512, lidx_main_v0 (ix3 r s p) d = ix3 r s d := fun d =>
    funext fun a => Fin.ext (by match a with | ⟨0, _⟩ => rfl | ⟨1, _⟩ => rfl | ⟨2, _⟩ => rfl)
  have e0r : ∀ d : Fin 512, ridx_main_v0 (ix3 r s p) d = ix2 d p := fun d =>
    funext fun a => Fin.ext (by match a with | ⟨0, _⟩ => rfl | ⟨1, _⟩ => rfl)
  have e12 : idx_main_v1 (idx_main_v2 (ix3 r s p)) = ix1 p :=
    funext fun a => Fin.ext (by match a with | ⟨0, _⟩ => rfl)
  rw [val_main_v4_apply, val_main_v3_apply, val_main_v0_apply, val_main_v2_apply, val_main_v1_apply]
  simp only [e0l, e0r, e12, Ideal.hostUnary_tanh_def, Ideal.addf_def]
  rfl

/-- The second contraction at (r, s, 0) runs over the 256 projection units: it is the logit of token (r, s). -/
theorem ref_logit (r : Fin 64) (s : Fin 2048) :
    val_main_v5 (F := Ideal) A.x A.W A.b A.u (ix3 r s (0 : Fin 1)) = logit A r s := by
  have e5l : ∀ p : Fin 256, lidx_main_v5 (ix3 r s (0 : Fin 1)) p = ix3 r s p := fun p =>
    funext fun a => Fin.ext (by match a with | ⟨0, _⟩ => rfl | ⟨1, _⟩ => rfl | ⟨2, _⟩ => rfl)
  have e5r : ∀ p : Fin 256, ridx_main_v5 (ix3 r s (0 : Fin 1)) p = ix2 p (0 : Fin 1) := fun p =>
    funext fun a => Fin.ext (by match a with | ⟨0, _⟩ => rfl | ⟨1, _⟩ => rfl)
  rw [val_main_v5_apply]
  simp only [e5l, e5r, ref_proj]
  rfl

/-- The row maximum at (r, 0).  The reduction over the sequence axis is the fold of `max` from −∞ over the 2048
    positions of row r, that is the supremum of the row's logits; the further maximum with a broadcast −∞ changes
    nothing, −∞ being the least element. -/
theorem ref_rowMax (r : Fin 64) :
    val_main_v8 (F := Ideal) A.x A.W A.b A.u (ix2 r (0 : Fin 1)) = rowMax A r := by
  have h : S64x2048x1.Reduces [1] S64x1 := by decide
  have e6 : val_main_v6 (F := Ideal) A.x A.W A.b A.u (ix2 r (0 : Fin 1)) = rowMax A r := by
    unfold val_main_v6
    rw [Host.reduce_eq_fold_single FloatOps.maximumf _ _ reducesTo_S64x2048x1_S64x1_d1 h h_S_]
    -- the source index over (r, 0) with position s inserted on the sequence axis is (r, s, 0)
    have ef : (val_main_v5 (F := Ideal) A.x A.W A.b A.u ∘ h.lift (ix2 r (0 : Fin 1)))
        = fun s : Fin 2048 => logit A r s := by
      funext (s : Fin 2048)
      have el : h.lift (ix2 r (0 : Fin 1)) s = ix3 r s (0 : Fin 1) :=
        funext fun a => Fin.ext (by match a with | ⟨0, _⟩ => rfl | ⟨1, _⟩ => rfl | ⟨2, _⟩ => rfl)
      show val_main_v5 (F := Ideal) A.x A.W A.b A.u (h.lift (ix2 r (0 : Fin 1)) s) = _
      rw [el, ref_logit]
    rw [ef, val_main_cst_apply, Ideal.ofBits_def, negInf_eq_bot]
    exact fold_max_eq_sup _
  rw [val_main_v8_apply, val_main_v7_apply, val_main_cst_0_apply, e6, Ideal.ofBits_def, negInf_eq_bot,
    Ideal.maximumf_def]
  exact max_eq_right bot_le

/-- The exponential stage at (r, s, 0): the row maximum is broadcast back along the sequence axis, so the entry is
    exp(ℓ(r,s) − M(r)). -/
theorem ref_expw (r : Fin 64) (s : Fin 2048) :
    val_main_v12 (F := Ideal) A.x A.W A.b A.u (ix3 r s (0 : Fin 1)) = expw A r s := by
  have e910 : idx_main_v9 (idx_main_v10 (ix3 r s (0 : Fin 1))) = ix2 r (0 : Fin 1) :=
    funext fun a => Fin.ext (by match a with | ⟨0, _⟩ => rfl | ⟨1, _⟩ => rfl)
  rw [val_main_v12_apply, val_main_v11_apply, val_main_v10_apply, val_main_v9_apply, e910, ref_rowMax, ref_logit,
    Ideal.hostUnary_exp_def, Ideal.subf_def]
  rfl

/-- The sum over the sequence axis at (r, 0), started from the zero word: the softmax denominator of row r. -/
theorem ref_denom (r : Fin 64) :
    val_main_v13 (F := Ideal) A.x A.W A.b A.u (ix2 r (0 : Fin 1)) = denom A r := by
  have e13 : ∀ s : Fin 2048, idx_main_v13 (ix2 r (0 : Fin 1)) s = ix3 r s (0 : Fin 1) := fun s =>
    funext fun a => Fin.ext (by match a with | ⟨0, _⟩ => rfl | ⟨1, _⟩ => rfl | ⟨2, _⟩ => rfl)
  rw [val_main_v13_apply, val_main_cst_1_apply, Ideal.ofBits_def, Ideal.ofBits_zero_f32, zero_add]
  simp only [e13, ref_expw]
  rfl

/-- The scores result at (r, s, 0) is the softmax score of token (r, s): the denominator is broadcast back along the
    sequence axis and divides the shifted exponential. -/
theorem ref_score (r : Fin 64) (s : Fin 2048) :
    val_main_v16 (F := Ideal) A.x A.W A.b A.u (ix3 r s (0 : Fin 1)) = score A r s := by
  have e1415 : idx_main_v14 (idx_main_v15 (ix3 r s (0 : Fin 1))) = ix2 r (0 : Fin 1) :=
    funext fun a => Fin.ext (by match a with | ⟨0, _⟩ => rfl | ⟨1, _⟩ => rfl)
  rw [val_main_v16_apply, val_main_v15_apply, val_main_v14_apply, e1415, ref_denom, ref_expw, Ideal.hostDivf_def]
  rfl

/-- The context result at (r, d): the scores are broadcast along the feature axis, multiplied by the inputs and summed
    over the sequence axis from the zero word, which is Σ_s score(r,s)·x(r,s,d). -/
theorem ref_context (r : Fin 64) (d : Fin 512) :
    val_main_v19 (F := Ideal) A.x A.W A.b A.u (ix2 r d) = context A r d := by
  have e19 : ∀ s : Fin 2048, idx_main_v19 (ix2 r d) s = ix3 r s d := fun s =>
    funext fun a => Fin.ext (by match a with | ⟨0, _⟩ => rfl | ⟨1, _⟩ => rfl | ⟨2, _⟩ => rfl)
  have e17 : ∀ s : Fin 2048, idx_main_v17 (ix3 r s d) = ix3 r s (0 : Fin 1) := fun s =>
    funext fun a => Fin.ext (by match a with | ⟨0, _⟩ => rfl | ⟨1, _⟩ => rfl | ⟨2, _⟩ => rfl)
  rw [val_main_v19_apply, val_main_cst_2_apply, Ideal.ofBits_def, Ideal.ofBits_zero_f32, zero_add]
  simp only [e19, val_main_v18_apply, val_main_v17_apply, e17, ref_score, Ideal.mulf_def]
  rfl

/-! ## The same two readings at an arbitrary index, and over four arbitrary argument arrays -/

/-- The scores result at any index j = (j₀, j₁, j₂): its last axis has one coordinate, so j₂ = 0. -/
theorem ref_score_at (j : S64x2048x1.Idx) :
    val_main_v16 (F := Ideal) A.x A.W A.b A.u j = score A (j 0) (j 1) := by
  have e : j = ix3 (j 0) (j 1) (0 : Fin 1) :=
    (eq_ix3 j).trans (congrArg (ix3 (j 0) (j 1)) (Fin.eq_zero (j 2 : Fin 1)))
  exact (congrArg (val_main_v16 (F := Ideal) A.x A.W A.b A.u) e).trans (ref_score A (j 0) (j 1))

/-- The context result at any index j = (j₀, j₁). -/
theorem ref_context_at (j : S64x512.Idx) :
    val_main_v19 (F := Ideal) A.x A.W A.b A.u j = context A (j 0) (j 1) :=
  (congrArg (val_main_v19 (F := Ideal) A.x A.W A.b A.u) (eq_ix2 j)).trans (ref_context A (j 0) (j 1))

/-- The scores result of four arbitrary argument arrays, read through the specification at those arrays. -/
theorem ref_score' (a0 : (⟨S64x2048x512, .f32⟩ : BufTy).Contents (Elt Ideal)) (a1 : (⟨S512x256, .f32⟩ : BufTy).Contents (Elt Ideal))
    (a2 : (⟨S256, .f32⟩ : BufTy).Contents (Elt Ideal)) (a3 : (⟨S256x1, .f32⟩ : BufTy).Contents (Elt Ideal))
    (r : Fin 64) (s : Fin 2048) :
    val_main_v16 (F := Ideal) a0 a1 a2 a3 (ix3 r s (0 : Fin 1)) = score ⟨a0, a1, a2, a3⟩ r s :=
  ref_score ⟨a0, a1, a2, a3⟩ r s

/-- The context result of four arbitrary argument arrays, read through the specification at those arrays. -/
theorem ref_context' (a0 : (⟨S64x2048x512, .f32⟩ : BufTy).Contents (Elt Ideal)) (a1 : (⟨S512x256, .f32⟩ : BufTy).Contents (Elt Ideal))
    (a2 : (⟨S256, .f32⟩ : BufTy).Contents (Elt Ideal)) (a3 : (⟨S256x1, .f32⟩ : BufTy).Contents (Elt Ideal))
    (r : Fin 64) (d : Fin 512) :
    val_main_v19 (F := Ideal) a0 a1 a2 a3 (ix2 r d) = context ⟨a0, a1, a2, a3⟩ r d :=
  ref_context ⟨a0, a1, a2, a3⟩ r d

end Cert.ReferenceIdeal.RefValue

end
-- ==== Proof.FiniteArgs.lean ====
/-
  From the printed precondition to "every entry of every argument is a real number".

  The precondition is the conjunction, over the four arguments, of "every entry satisfies |x| < +∞", each
  conjunct printed as an all-axes reduction by `and` of the elementwise comparison of |x| with the
  single-precision pattern of +∞.  A reduction by `and` that returns 1 met a 1 at every index; the pattern
  0x7F800000 denotes ⊤; and over the extended reals |x| = max x (−x) is ⊤ exactly at the two infinities, so
  |x| < ⊤ leaves the real numbers.
-/
import proofs.«123799_j49039936586174_2_alg».proof.Proof.Spec
import proofs.«123799_j49039936586174_2_alg».proof.Proof.Gen.Pre_finite_inputs
import Idealize.ShloMosaic.Lib.ReduceAll

namespace Cert.Attn

open Idealize.ShloMosaic Idealize.ShloMosaic.ValueIdx Cert.Pre_finite_inputs

/-- The rank-0 shape has exactly one index. -/
instance subsingleton_scalarIdx : Subsingleton S_.Idx := ⟨fun a b => funext fun d => d.elim0⟩

/-- An extended real whose absolute value is below +∞ is a real number. -/
theorem real_of_abs_lt_inf (x : EReal)
    (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One conjunct of the precondition: if "all entries have |x| < +∞" holds of an array, each entry is real. -/
theorem all_real {S : Shape} (a : FVec Ideal S .f32) (hb : S_.BroadcastsInDim S ![]) {axes : List (Fin S.rank)}
    (hr : S.ReducesTo axes S_) (h0 : 0 < S_.numel)
    (h : Host.reduce IntOp.andi (cmpf .olt (Host.absf (F := Ideal) a)
          (broadcastInDim S ![] hb (constant (F := Ideal) S_ .f32 0x7F800000#32))) (constantI S_ 1 1#1) hr h0 ix0 = 1#1)
    (i : S.Idx) : ∃ r : ℝ, a i = (r : EReal) :=
  real_of_abs_lt_inf (a i) (Host.reduce_andi_all _ _ hr h0 ix0 h i)

/-- The printed precondition gives the finiteness of all four arguments. -/
theorem finite_of_pre [Facts] (a0 : FVec Ideal S64x2048x512 .f32) (a1 : FVec Ideal S512x256 .f32)
    (a2 : FVec Ideal S256 .f32) (a3 : FVec Ideal S256x1 .f32)
    (h : fn (F := Ideal) a0 a1 a2 a3 = fun _ => 1#1) : (Args.mk a0 a1 a2 a3).Finite := by
  have h' := congrFun h ix0
  dsimp only [fn, fn_part1] at h'
  simp only [andi, IntOp.andi_eq_one] at h'
  obtain ⟨⟨⟨h0, h1⟩, h2⟩, h3⟩ := h'
  exact ⟨all_real a0 _ _ _ h0, all_real a1 _ _ _ h1, all_real a2 _ _ _ h2, all_real a3 _ _ _ h3⟩

end Cert.Attn
-- ==== Proof.lean ====
/-
  Attention pooling: a Pallas program of two kernels against its plain reference, at the extended reals.

  The program transposes `u` on the host, runs a fused kernel over an 8 × 4 grid (row blocks × sequence tiles of 512
  positions) that writes the logits ℓ(r,s) = Σ_p tanh(Σ_d x(r,s,d)·W(d,p) + b(p))·u(p) block by block and keeps a RUNNING
  softmax per batch row in scratch — a running maximum m that starts at a finite, very negative number, a running
  denominator l and a running weighted sum acc, both rescaled by exp(m_old − m_new) at every tile — and divides acc by l
  into the context output at the last tile; a second kernel turns the logits into softmax scores; the host reshapes
  them.  The reference computes the same logits, `softmax` over the sequence axis, and Σ_s score(r,s)·x(r,s,d).

  * The three frames: each program terminates, faults nowhere and leaves its arguments as launched.  For the two kernel
    programs this is the run of the whole program as four segments (host stretch, kernel, kernel, host stretch), each
    kernel's body proved at every grid point (three control cases for the fused kernel, the scratch contents carried
    in the region's invariant from point to point); for the reference it is its run with the results dropped.
  * `preserves`: the ideal pass rewrote nothing.
  * `algebraic`: the scores agree entry by entry as the same expression.  The contexts agree for FINITE inputs: every
    logit is then a real number, every exponential a positive real, and the running softmax's quotient acc/l after the
    fourth tile is Σ_s exp(ℓ_s − m)·x_s / Σ_s exp(ℓ_s − m) for the final running maximum m, whatever finite m is — the
    factor exp(M − m) between it and the reference's shift by the true maximum M cancels in the quotient.  That the
    running maximum starts at a finite number instead of −∞ is therefore invisible at the extended reals.
-/
import proofs.«123799_j49039936586174_2_alg».proof.Defs
import proofs.«123799_j49039936586174_2_alg».proof.Proof.Gen.Kernel
import proofs.«123799_j49039936586174_2_alg».proof.Proof.Gen.KernelIdeal
import proofs.«123799_j49039936586174_2_alg».proof.Proof.Gen.ReferenceIdeal
import proofs.«123799_j49039936586174_2_alg».proof.Proof.Gen.Pre_finite_inputs
import proofs.«123799_j49039936586174_2_alg».proof.Proof.Gen.ReferenceIdeal.Run
import proofs.«123799_j49039936586174_2_alg».proof.Proof.KernelFrameBits
import proofs.«123799_j49039936586174_2_alg».proof.Proof.KernelFrame
import proofs.«123799_j49039936586174_2_alg».proof.Proof.KernelValue
import proofs.«123799_j49039936586174_2_alg».proof.Proof.RefValue
import proofs.«123799_j49039936586174_2_alg».proof.Proof.Online
import proofs.«123799_j49039936586174_2_alg».proof.Proof.FiniteArgs

noncomputable section

namespace Cert.Proof

open Idealize.ShloMosaic Idealize.ShloMosaic.TcCoe Idealize.SL.Sem Idealize.ShloMosaic.ValueIdx

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- The two idealized programs, run from memories that agree on the arguments, end with equal results: the scores
    as one expression, the contexts because the running softmax's quotient is the softmax-weighted sum for finite
    inputs. -/
theorem algebraic : Cert.algebraic_KernelIdeal_ReferenceIdeal := by
  intro m ρ m' ρ' hpre hagree
  open Cert.KernelIdeal Cert.KernelIdeal.Hand in
  refine ⟨fun c => W4 m ρ c (Proc.devRef .tc main_v1_1), fun c => W4 m ρ c (Proc.devRef .tc main_v3), ?_, ?_⟩
  · open Cert.KernelIdeal Cert.KernelIdeal.Hand in
    exact (θ_run Cert.KernelIdeal.defs _ _).mono (fun _ h c =>
      ⟨h c _ (mem_uc main_v1_1 (by decide)), h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩) (run_all m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [Cert.ReferenceIdeal.Read.val_main_v19_eq, (hagree c).1, (hagree c).2.1, (hagree c).2.2.1, (hagree c).2.2.2]
      funext i
      obtain ⟨r, d, rfl⟩ : ∃ (r : Fin 64) (d : Fin 512), i = ix2 r d := ⟨i 0, i 1, eq_ix2 i⟩
      refine (Cert.ReferenceIdeal.RefValue.ref_context' _ _ _ _ r d).trans ?_
      refine Eq.trans ?_ (Cert.KernelIdeal.Hand.result_context m ρ c r d).symm
      exact (Cert.Attn.onlineContext_eq _ (Cert.Attn.finite_of_pre _ _ _ _ (hpre c)) r d).symm
    · rw [Cert.ReferenceIdeal.Read.val_main_v16_eq, (hagree c).1, (hagree c).2.1, (hagree c).2.2.1, (hagree c).2.2.2]
      funext i
      obtain ⟨r, s, u, rfl⟩ : ∃ (r : Fin 64) (s : Fin 2048) (u : Fin 1), i = ix3 r s u := ⟨i 0, i 1, i 2, eq_ix3 i⟩
      obtain rfl : u = 0 := Subsingleton.elim _ _
      exact (Cert.ReferenceIdeal.RefValue.ref_score' _ _ _ _ r s).trans (Cert.KernelIdeal.Hand.result_score m ρ c r s).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
